-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v83)) (v2 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_v92) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3x64x64 : Shape := ⟨3, ![3, 64, 64]⟩
abbrev S3x1x64 : Shape := ⟨3, ![3, 1, 64]⟩
abbrev S2400000 : Shape := ⟨1, ![2400000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x1x64 : S_.BroadcastsInDim S3x1x64 (![] : Fin 0 → Fin S3x1x64.rank)
  reducesTo_S3x1x64_S_d0_1_2 : S3x1x64.ReducesTo [0, 1, 2] S_
  bcast_S_S2400000 : S_.BroadcastsInDim S2400000 (![] : Fin 0 → Fin S2400000.rank)
  reducesTo_S2400000_S_d0 : S2400000.ReducesTo [0] S_

variable [Facts]

def fn_part1 {F : FTy → Type} [FloatOps F] (main_arg4 : FVec F S3x64x64 .f32) (main_arg5 : FVec F S3x1x64 .f32) (main_arg6 : FVec F S2400000 .f32) (main_v13 : IVec S_ 1) (main_v16 : IVec S3x1x64 1) : IVec S_ 1 :=
  let main_c_5 : IVec S_ 1 := constantI S_ 1 1#1
  let main_v17 : IVec S_ 1 := (fun x v => Host.reduce IntOp.andi x v reducesTo_S3x1x64_S_d0_1_2 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x1x64 .f32 := Host.absf main_arg5
  let main_cst_8 : FVec F S_ .f32 := constant S_ .f32 0x7F800000#32
  let main_v25 : FVec F S3x1x64 .f32 := broadcastInDim S3x1x64 ![] bcast_S_S3x1x64 main_cst_8
  let main_v26 : IVec S3x1x64 1 := cmpf .olt main_v24 main_v25
  let main_c_9 : IVec S_ 1 := constantI S_ 1 1#1
  let main_v27 : IVec S_ 1 := (fun x v => Host.reduce IntOp.andi x v reducesTo_S3x1x64_S_d0_1_2 h_S_) main_v26 main_c_9
  let main_v28 : IVec S_ 1 := andi main_v23 main_v27
  let main_v29 : FVec F S2400000 .f32 := Host.absf main_arg6
  let main_cst_10 : FVec F S_ .f32 := constant S_ .f32 0x7F800000#32
  let main_v30 : FVec F S2400000 .f32 := broadcastInDim S2400000 ![] bcast_S_S2400000 main_cst_10
  let main_v31 : IVec S2400000 1 := cmpf .olt main_v29 main_v30
  let main_c_11 : IVec S_ 1 := constantI S_ 1 1#1
  let main_v32 : IVec S_ 1 := (fun x v => Host.reduce IntOp.andi x v reducesTo_S2400000_S_d0 h_S_) main_v31 main_c_11
  let main_v33 : IVec S_ 1 := andi main_v28 main_v32
  main_v33

def fn {F : FTy → Type} [FloatOps F] (main_arg0 : FVec F S100000x64 .f32) (main_arg1 : FVec F S50000x64 .f32) (main_arg2 : FVec F S3x64x64 .f32) (main_arg3 : FVec F S3x1x64 .f32) (main_arg4 : FVec F S3x64x64 .f32) (main_arg5 : FVec F S3x1x64 .f32) (main_arg6 : FVec F S2400000 .f32) (main_arg7 : IVec S2400000 32) (main_arg8 : IVec S2400000 32) (main_arg9 : IVec S16384 32) (main_arg10 : IVec S16384 32) (main_arg11 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x1x64 .f32 := Host.absf main_arg3
  let main_cst_4 : FVec F S_ .f32 := constant S_ .f32 0x7F800000#32
  let main_v15 : FVec F S3x1x64 .f32 := broadcastInDim S3x1x64 ![] bcast_S_S3x1x64 main_cst_4
  let main_v16 : IVec S3x1x64 1 := cmpf .olt main_v14 main_v15
  fn_part1 (F := F) main_arg4 main_arg5 main_arg6 main_v13 main_v16
-- ==== Kernel.lean ====
abbrev S100000x64 : Shape := ⟨2, ![100000, 64]⟩
abbrev S50000x64 : Shape := ⟨2, ![50000, 64]⟩
abbrev S3x64x64 : Shape := ⟨3, ![3, 64, 64]⟩
abbrev S3x1x64 : Shape := ⟨3, ![3, 1, 64]⟩
abbrev S2400000 : Shape := ⟨1, ![2400000]⟩
abbrev S16384 : Shape := ⟨1, ![16384]⟩
abbrev S150000x64 : Shape := ⟨2, ![150000, 64]⟩
abbrev S_ : Shape := ⟨0, ![]⟩
abbrev S2400000x1 : Shape := ⟨2, ![2400000, 1]⟩
abbrev S2400000x64 : Shape := ⟨2, ![2400000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S3000x64 : Shape := ⟨2, ![3000, 64]⟩
abbrev S3000 : Shape := ⟨1, ![3000]⟩
abbrev S3000x1 : Shape := ⟨2, ![3000, 1]⟩
abbrev S150000x256 : Shape := ⟨2, ![150000, 256]⟩
abbrev S16384x1 : Shape := ⟨2, ![16384, 1]⟩
abbrev S16384x256 : Shape := ⟨2, ![16384, 256]⟩

abbrev nBuf : Space → Nat
  | .hbm => 125
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3x64x64, .f32⟩
  | .hbm, ⟨3, _⟩ => ⟨S3x1x64, .f32⟩
  | .hbm, ⟨4, _⟩ => ⟨S3x64x64, .f32⟩
  | .hbm, ⟨5, _⟩ => ⟨S3x1x64, .f32⟩
  | .hbm, ⟨6, _⟩ => ⟨S2400000, .f32⟩
  | .hbm, ⟨7, _⟩ => ⟨S2400000, .i32⟩
  | .hbm, ⟨8, _⟩ => ⟨S2400000, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S150000x64, .f32⟩
  | .hbm, ⟨13, _⟩ => ⟨S_, .i32⟩
  | .hbm, ⟨14, _⟩ => ⟨S2400000, .i32⟩
  | .hbm, ⟨15, _⟩ => ⟨S2400000, .i1⟩
  | .hbm, ⟨16, _⟩ => ⟨S_, .i32⟩
  | .hbm, ⟨17, _⟩ => ⟨S2400000, .i32⟩
  | .hbm, ⟨18, _⟩ => ⟨S2400000, .i32⟩
  | .hbm, ⟨19, _⟩ => ⟨S2400000, .i32⟩
  | .hbm, ⟨20, _⟩ => ⟨S2400000x1, .i32⟩
  | .hbm, ⟨21, _⟩ => ⟨S2400000x64, .f32⟩
  | .hbm, ⟨22, _⟩ => ⟨S2400000x1, .f32⟩
  | .hbm, ⟨23, _⟩ => ⟨S2400000x64, .f32⟩
  | .hbm, ⟨24, _⟩ => ⟨S2400000x64, .f32⟩
  | .hbm, ⟨25, _⟩ => ⟨S_, .f32⟩
  | .hbm, ⟨26, _⟩ => ⟨S150000x64, .f32⟩
  | .hbm, ⟨27, _⟩ => ⟨S2400000x1, .i32⟩
  | .hbm, ⟨28, _⟩ => ⟨S150000x64, .f32⟩
  | .hbm, ⟨29, _⟩ => ⟨S1x64x64, .f32⟩
  | .hbm, ⟨30, _⟩ => ⟨S64x64, .f32⟩
  | .hbm, ⟨31, _⟩ => ⟨S1x1x64, .f32⟩
  | .hbm, ⟨32, _⟩ => ⟨S1x64, .f32⟩
  | .hbm, ⟨33, _⟩ => ⟨S1x64x64, .f32⟩
  | .hbm, ⟨34, _⟩ => ⟨S64x64, .f32⟩
  | .hbm, ⟨35, _⟩ => ⟨S1x1x64, .f32⟩
  | .hbm, ⟨36, _⟩ => ⟨S1x64, .f32⟩
  | .hbm, ⟨37, _⟩ => ⟨S150000x64, .f32⟩
  | .hbm, ⟨38, _⟩ => ⟨S150000x64, .f32⟩
  | .hbm, ⟨39, _⟩ => ⟨S_, .i32⟩
  | .hbm, ⟨40, _⟩ => ⟨S2400000, .i32⟩
  | .hbm, ⟨41, _⟩ => ⟨S2400000, .i1⟩
  | .hbm, ⟨42, _⟩ => ⟨S_, .i32⟩
  | .hbm, ⟨43, _⟩ => ⟨S2400000, .i32⟩
  | .hbm, ⟨44, _⟩ => ⟨S2400000, .i32⟩
  | .hbm, ⟨45, _⟩ => ⟨S2400000, .i32⟩
  | .hbm, ⟨46, _⟩ => ⟨S2400000x1, .i32⟩
  | .hbm, ⟨47, _⟩ => ⟨S2400000x64, .f32⟩
  | .hbm, ⟨48, _⟩ => ⟨S2400000x1, .f32⟩
  | .hbm, ⟨49, _⟩ => ⟨S2400000x64, .f32⟩
  | .hbm, ⟨50, _⟩ => ⟨S2400000x64, .f32⟩
  | .hbm, ⟨51, _⟩ => ⟨S_, .f32⟩
  | .hbm, ⟨52, _⟩ => ⟨S150000x64, .f32⟩
  | .hbm, ⟨53, _⟩ => ⟨S2400000x1, .i32⟩
  | .hbm, ⟨54, _⟩ => ⟨S150000x64, .f32⟩
  | .hbm, ⟨55, _⟩ => ⟨S1x64x64, .f32⟩
  | .hbm, ⟨56, _⟩ => ⟨S64x64, .f32⟩
  | .hbm, ⟨57, _⟩ => ⟨S1x1x64, .f32⟩
  | .hbm, ⟨58, _⟩ => ⟨S1x64, .f32⟩
  | .hbm, ⟨59, _⟩ => ⟨S1x64x64, .f32⟩
  | .hbm, ⟨60, _⟩ => ⟨S64x64, .f32⟩
  | .hbm, ⟨61, _⟩ => ⟨S1x1x64, .f32⟩
  | .hbm, ⟨62, _⟩ => ⟨S1x64, .f32⟩
  | .hbm, ⟨63, _⟩ => ⟨S150000x64, .f32⟩
  | .hbm, ⟨64, _⟩ => ⟨S150000x64, .f32⟩
  | .hbm, ⟨65, _⟩ => ⟨S_, .i32⟩
  | .hbm, ⟨66, _⟩ => ⟨S2400000, .i32⟩
  | .hbm, ⟨67, _⟩ => ⟨S2400000, .i1⟩
  | .hbm, ⟨68, _⟩ => ⟨S_, .i32⟩
  | .hbm, ⟨69, _⟩ => ⟨S2400000, .i32⟩
  | .hbm, ⟨70, _⟩ => ⟨S2400000, .i32⟩
  | .hbm, ⟨71, _⟩ => ⟨S2400000, .i32⟩
  | .hbm, ⟨72, _⟩ => ⟨S2400000x1, .i32⟩
  | .hbm, ⟨73, _⟩ => ⟨S2400000x64, .f32⟩
  | .hbm, ⟨74, _⟩ => ⟨S2400000x1, .f32⟩
  | .hbm, ⟨75, _⟩ => ⟨S2400000x64, .f32⟩
  | .hbm, ⟨76, _⟩ => ⟨S2400000x64, .f32⟩
  | .hbm, ⟨77, _⟩ => ⟨S_, .f32⟩
  | .hbm, ⟨78, _⟩ => ⟨S150000x64, .f32⟩
  | .hbm, ⟨79, _⟩ => ⟨S2400000x1, .i32⟩
  | .hbm, ⟨80, _⟩ => ⟨S150000x64, .f32⟩
  | .hbm, ⟨81, _⟩ => ⟨S1x64x64, .f32⟩
  | .hbm, ⟨82, _⟩ => ⟨S64x64, .f32⟩
  | .hbm, ⟨83, _⟩ => ⟨S1x1x64, .f32⟩
  | .hbm, ⟨84, _⟩ => ⟨S1x64, .f32⟩
  | .hbm, ⟨85, _⟩ => ⟨S1x64x64, .f32⟩
  | .hbm, ⟨86, _⟩ => ⟨S64x64, .f32⟩
  | .hbm, ⟨87, _⟩ => ⟨S1x1x64, .f32⟩
  | .hbm, ⟨88, _⟩ => ⟨S1x64, .f32⟩
  | .hbm, ⟨89, _⟩ => ⟨S150000x64, .f32⟩
  | .hbm, ⟨90, _⟩ => ⟨S150000x64, .f32⟩
  | .hbm, ⟨91, _⟩ => ⟨S150000x256, .f32⟩
  | .hbm, ⟨92, _⟩ => ⟨S_, .i32⟩
  | .hbm, ⟨93, _⟩ => ⟨S16384, .i32⟩
  | .hbm, ⟨94, _⟩ => ⟨S16384, .i1⟩
  | .hbm, ⟨95, _⟩ => ⟨S_, .i32⟩
  | .hbm, ⟨96, _⟩ => ⟨S16384, .i32⟩
  | .hbm, ⟨97, _⟩ => ⟨S16384, .i32⟩
  | .hbm, ⟨98, _⟩ => ⟨S16384, .i32⟩
  | .hbm, ⟨99, _⟩ => ⟨S16384x1, .i32⟩
  | .hbm, ⟨100, _⟩ => ⟨S16384x256, .f32⟩
  | .hbm, ⟨101, _⟩ => ⟨S_, .i32⟩
  | .hbm, ⟨102, _⟩ => ⟨S16384, .i32⟩
  | .hbm, ⟨103, _⟩ => ⟨S16384, .i32⟩
  | .hbm, ⟨104, _⟩ => ⟨S_, .i32⟩
  | .hbm, ⟨105, _⟩ => ⟨S16384, .i32⟩
  | .hbm, ⟨106, _⟩ => ⟨S16384, .i1⟩
  | .hbm, ⟨107, _⟩ => ⟨S_, .i32⟩
  | .hbm, ⟨108, _⟩ => ⟨S16384, .i32⟩
  | .hbm, ⟨109, _⟩ => ⟨S16384, .i32⟩
  | .hbm, ⟨110, _⟩ => ⟨S16384, .i32⟩
  | .hbm, ⟨111, _⟩ => ⟨S16384x1, .i32⟩
  | .hbm, ⟨112, _⟩ => ⟨S16384x256, .f32⟩
  | .hbm, ⟨113, _⟩ => ⟨S_, .i32⟩
  | .hbm, ⟨114, _⟩ => ⟨S16384, .i32⟩
  | .hbm, ⟨115, _⟩ => ⟨S16384, .i32⟩
  | .hbm, ⟨116, _⟩ => ⟨S_, .i32⟩
  | .hbm, ⟨117, _⟩ => ⟨S16384, .i32⟩
  | .hbm, ⟨118, _⟩ => ⟨S16384, .i1⟩
  | .hbm, ⟨119, _⟩ => ⟨S_, .i32⟩
  | .hbm, ⟨120, _⟩ => ⟨S16384, .i32⟩
  | .hbm, ⟨121, _⟩ => ⟨S16384, .i32⟩
  | .hbm, ⟨122, _⟩ => ⟨S16384, .i32⟩
  | .hbm, ⟨123, _⟩ => ⟨S16384x1, .i32⟩
  | .hbm, ⟨124, _⟩ => ⟨S16384x256, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S3000x64, .f32⟩
  | .local _ .vmem, ⟨33, _⟩ => ⟨S3000x64, .f32⟩
  | .local _ .vmem, ⟨34, _⟩ => ⟨S3000x64, .f32⟩
  | .local _ .vmem, ⟨35, _⟩ => ⟨S3000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_c_4 : Ref sig .tc := ⟨.hbm, 65, rfl⟩
abbrev main_v45 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66_0 : Ref sig .tc := ⟨.hbm, 89, rfl⟩
abbrev main_v66_1 : Ref sig .tc := ⟨.hbm, 90, rfl⟩
abbrev main_v67 : Ref sig .tc := ⟨.hbm, 91, rfl⟩
abbrev main_c_7 : Ref sig .tc := ⟨.hbm, 92, rfl⟩
abbrev main_v68 : Ref sig .tc := ⟨.hbm, 93, rfl⟩
abbrev main_v69 : Ref sig .tc := ⟨.hbm, 94, rfl⟩
abbrev main_c_8 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_9 : Ref sig .tc := ⟨.hbm, 101, rfl⟩
abbrev main_v75 : Ref sig .tc := ⟨.hbm, 102, rfl⟩
abbrev main_v76 : Ref sig .tc := ⟨.hbm, 103, rfl⟩
abbrev main_c_10 : Ref sig .tc := ⟨.hbm, 104, rfl⟩
abbrev main_v77 : Ref sig .tc := ⟨.hbm, 105, rfl⟩
abbrev main_v78 : Ref sig .tc := ⟨.hbm, 106, rfl⟩
abbrev main_c_11 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_12 : Ref sig .tc := ⟨.hbm, 113, rfl⟩
abbrev main_v84 : Ref sig .tc := ⟨.hbm, 114, rfl⟩
abbrev main_v85 : Ref sig .tc := ⟨.hbm, 115, rfl⟩
abbrev main_c_13 : Ref sig .tc := ⟨.hbm, 116, rfl⟩
abbrev main_v86 : Ref sig .tc := ⟨.hbm, 117, rfl⟩
abbrev main_v87 : Ref sig .tc := ⟨.hbm, 118, rfl⟩
abbrev main_c_14 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S100000x64_S50000x64_S150000x64_d0 : Shape.Concatenates [S100000x64, S50000x64] S150000x64 0
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  reduces_S3000x64_S3000 : S3000x64.Reduces [1] S3000
  shapeCasts_S3000_S3000x1 : S3000.ShapeCasts S3000x1
  broadcasts_S3000x1_S3000x64 : S3000x1.Broadcasts S3000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S150000x64_S150000x64_S150000x64_S150000x64_S150000x256_d1 : Shape.Concatenates [S150000x64, S150000x64, S150000x64, S150000x64] S150000x256 1
  bcast_S_S16384 : S_.BroadcastsInDim S16384 (![] : Fin 0 → Fin S16384.rank)
  bcast_S16384_S16384x1_0 : S16384.BroadcastsInDim S16384x1 (![0] : Fin 1 → Fin S16384x1.rank)
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S3000x64_S64x64_S3000x64_1_0_0_1_n_n_wf : DotDims.WF S3000x64 S64x64 S3000x64 [1] [0] [0] [1] [] []
  gather_S150000x256_S16384x1_S16384x256_1_0_n_n_0_1_1256_wf : GatherDims.WF S150000x256 S16384x1 S16384x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x64.size a ≤ S150000x64.size a
  hwx0_6 : ∀ i : grid0.Coords, EltTy.bits .f32 = 32 ∨ (Rect.block (s := S150000x64) S3000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x64.size a ≤ S150000x64.size a
  hwx0_7 : ∀ i : grid0.Coords, EltTy.bits .f32 = 32 ∨ (Rect.block (s := S150000x64) S3000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x64.size a ≤ S150000x64.size a
  hwx1_6 : ∀ i : grid1.Coords, EltTy.bits .f32 = 32 ∨ (Rect.block (s := S150000x64) S3000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x64.size a ≤ S150000x64.size a
  hwx1_7 : ∀ i : grid1.Coords, EltTy.bits .f32 = 32 ∨ (Rect.block (s := S150000x64) S3000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S150000x64.size a
  hwx2_1 : ∀ i : grid2.Coords, EltTy.bits .f32 = 32 ∨ (Rect.block (s := S150000x64) S3000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x64.size a ≤ S150000x64.size a
  hwx2_6 : ∀ i : grid2.Coords, EltTy.bits .f32 = 32 ∨ (Rect.block (s := S150000x64) S3000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S150000x64.size a
  hwx2_7 : ∀ i : grid2.Coords, EltTy.bits .f32 = 32 ∨ (Rect.block (s := S150000x64) S3000x64.size (cc2_transform_7 i) (hinb2_7 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def gather_S150000x256_S16384x1_S16384x256_1_0_n_n_0_1_1256 : GatherDims S150000x256 S16384x1 S16384x256 where
  offsetDims := [1]
  collapsedSliceDims := [0]
  operandBatchingDims := []
  startIndicesBatchingDims := []
  startIndexMap := [0]
  indexVectorDim := 1
  sliceSizes := ![1, 256]
  wf := gather_S150000x256_S16384x1_S16384x256_1_0_n_n_0_1_1256_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S3000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S3000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S3000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S3000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44_0) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66_0) S3000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_1) S3000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3x64x64 : Shape := ⟨3, ![3, 64, 64]⟩
abbrev S3x1x64 : Shape := ⟨3, ![3, 1, 64]⟩
abbrev S2400000 : Shape := ⟨1, ![2400000]⟩
abbrev S16384 : Shape := ⟨1, ![16384]⟩
abbrev S150000x64 : Shape := ⟨2, ![150000, 64]⟩
abbrev S_ : Shape := ⟨0, ![]⟩
abbrev S2400000x1 : Shape := ⟨2, ![2400000, 1]⟩
abbrev S2400000x64 : Shape := ⟨2, ![2400000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S150000 : Shape := ⟨1, ![150000]⟩
abbrev S150000x1 : Shape := ⟨2, ![150000, 1]⟩
abbrev S150000x256 : Shape := ⟨2, ![150000, 256]⟩
abbrev S16384x1 : Shape := ⟨2, ![16384, 1]⟩
abbrev S16384x256 : Shape := ⟨2, ![16384, 256]⟩

abbrev nBuf : Space → Nat
  | .hbm => 221
  | .vmem => 0
  | .smem => 0
  | _ => 0

abbrev hbmTy0_0 (i : Nat) : BufTy := match i % 128 with
  | 0 => ⟨S100000x64, .f32⟩
  | 1 => ⟨S50000x64, .f32⟩
  | 2 => ⟨S3x64x64, .f32⟩
  | 3 => ⟨S3x1x64, .f32⟩
  | 4 => ⟨S3x64x64, .f32⟩
  | 5 => ⟨S3x1x64, .f32⟩
  | 6 => ⟨S2400000, .f32⟩
  | 7 => ⟨S2400000, .i32⟩
  | 8 => ⟨S2400000, .i32⟩
  | 9 => ⟨S16384, .i32⟩
  | 10 => ⟨S16384, .i32⟩
  | 11 => ⟨S16384, .i32⟩
  | 12 => ⟨S150000x64, .f32⟩
  | 13 => ⟨S_, .i32⟩
  | 14 => ⟨S2400000, .i32⟩
  | 15 => ⟨S2400000, .i1⟩
  | 16 => ⟨S_, .i32⟩
  | 17 => ⟨S2400000, .i32⟩
  | 18 => ⟨S2400000, .i32⟩
  | 19 => ⟨S2400000, .i32⟩
  | 20 => ⟨S2400000x1, .i32⟩
  | 21 => ⟨S2400000x64, .f32⟩
  | 22 => ⟨S2400000x1, .f32⟩
  | 23 => ⟨S2400000x64, .f32⟩
  | 24 => ⟨S2400000x64, .f32⟩
  | 25 => ⟨S_, .f32⟩
  | 26 => ⟨S150000x64, .f32⟩
  | 27 => ⟨S2400000x1, .i32⟩
  | 28 => ⟨S150000x64, .f32⟩
  | 29 => ⟨S1x64x64, .f32⟩
  | 30 => ⟨S64x64, .f32⟩
  | 31 => ⟨S150000x64, .f32⟩
  | 32 => ⟨S1x1x64, .f32⟩
  | 33 => ⟨S1x64, .f32⟩
  | 34 => ⟨S150000x64, .f32⟩
  | 35 => ⟨S150000x64, .f32⟩
  | 36 => ⟨S_, .f32⟩
  | 37 => ⟨S_, .f32⟩
  | 38 => ⟨S150000x64, .f32⟩
  | 39 => ⟨S150000x64, .i1⟩
  | 40 => ⟨S_, .f32⟩
  | 41 => ⟨S150000x64, .f32⟩
  | 42 => ⟨S150000x64, .f32⟩
  | 43 => ⟨S150000x64, .f32⟩
  | 44 => ⟨S150000x64, .f32⟩
  | 45 => ⟨S1x64x64, .f32⟩
  | 46 => ⟨S64x64, .f32⟩
  | 47 => ⟨S150000x64, .f32⟩
  | 48 => ⟨S1x1x64, .f32⟩
  | 49 => ⟨S1x64, .f32⟩
  | 50 => ⟨S150000x64, .f32⟩
  | 51 => ⟨S150000x64, .f32⟩
  | 52 => ⟨S_, .f32⟩
  | 53 => ⟨S_, .f32⟩
  | 54 => ⟨S150000x64, .f32⟩
  | 55 => ⟨S150000x64, .i1⟩
  | 56 => ⟨S_, .f32⟩
  | 57 => ⟨S150000x64, .f32⟩
  | 58 => ⟨S150000x64, .f32⟩
  | 59 => ⟨S150000x64, .f32⟩
  | 60 => ⟨S150000x64, .f32⟩
  | 61 => ⟨S150000x64, .f32⟩
  | 62 => ⟨S_, .f32⟩
  | 63 => ⟨S150000, .f32⟩
  | 64 => ⟨S150000x1, .f32⟩
  | 65 => ⟨S150000x1, .f32⟩
  | 66 => ⟨S_, .f32⟩
  | 67 => ⟨S150000x1, .f32⟩
  | 68 => ⟨S150000x1, .f32⟩
  | 69 => ⟨S150000x64, .f32⟩
  | 70 => ⟨S150000x64, .f32⟩
  | 71 => ⟨S_, .i32⟩
  | 72 => ⟨S2400000, .i32⟩
  | 73 => ⟨S2400000, .i1⟩
  | 74 => ⟨S_, .i32⟩
  | 75 => ⟨S2400000, .i32⟩
  | 76 => ⟨S2400000, .i32⟩
  | 77 => ⟨S2400000, .i32⟩
  | 78 => ⟨S2400000x1, .i32⟩
  | 79 => ⟨S2400000x64, .f32⟩
  | 80 => ⟨S2400000x1, .f32⟩
  | 81 => ⟨S2400000x64, .f32⟩
  | 82 => ⟨S2400000x64, .f32⟩
  | 83 => ⟨S_, .f32⟩
  | 84 => ⟨S150000x64, .f32⟩
  | 85 => ⟨S2400000x1, .i32⟩
  | 86 => ⟨S150000x64, .f32⟩
  | 87 => ⟨S1x64x64, .f32⟩
  | 88 => ⟨S64x64, .f32⟩
  | 89 => ⟨S150000x64, .f32⟩
  | 90 => ⟨S1x1x64, .f32⟩
  | 91 => ⟨S1x64, .f32⟩
  | 92 => ⟨S150000x64, .f32⟩
  | 93 => ⟨S150000x64, .f32⟩
  | 94 => ⟨S_, .f32⟩
  | 95 => ⟨S_, .f32⟩
  | 96 => ⟨S150000x64, .f32⟩
  | 97 => ⟨S150000x64, .i1⟩
  | 98 => ⟨S_, .f32⟩
  | 99 => ⟨S150000x64, .f32⟩
  | 100 => ⟨S150000x64, .f32⟩
  | 101 => ⟨S150000x64, .f32⟩
  | 102 => ⟨S150000x64, .f32⟩
  | 103 => ⟨S1x64x64, .f32⟩
  | 104 => ⟨S64x64, .f32⟩
  | 105 => ⟨S150000x64, .f32⟩
  | 106 => ⟨S1x1x64, .f32⟩
  | 107 => ⟨S1x64, .f32⟩
  | 108 => ⟨S150000x64, .f32⟩
  | 109 => ⟨S150000x64, .f32⟩
  | 110 => ⟨S_, .f32⟩
  | 111 => ⟨S_, .f32⟩
  | 112 => ⟨S150000x64, .f32⟩
  | 113 => ⟨S150000x64, .i1⟩
  | 114 => ⟨S_, .f32⟩
  | 115 => ⟨S150000x64, .f32⟩
  | 116 => ⟨S150000x64, .f32⟩
  | 117 => ⟨S150000x64, .f32⟩
  | 118 => ⟨S150000x64, .f32⟩
  | 119 => ⟨S150000x64, .f32⟩
  | 120 => ⟨S_, .f32⟩
  | 121 => ⟨S150000, .f32⟩
  | 122 => ⟨S150000x1, .f32⟩
  | 123 => ⟨S150000x1, .f32⟩
  | 124 => ⟨S_, .f32⟩
  | 125 => ⟨S150000x1, .f32⟩
  | 126 => ⟨S150000x1, .f32⟩
  | 127 => ⟨S150000x64, .f32⟩
  | _ => ⟨S100000x64, .f32⟩

abbrev hbmTy0_1 (i : Nat) : BufTy := match i % 128 with
  | 0 => ⟨S150000x64, .f32⟩
  | 1 => ⟨S_, .i32⟩
  | 2 => ⟨S2400000, .i32⟩
  | 3 => ⟨S2400000, .i1⟩
  | 4 => ⟨S_, .i32⟩
  | 5 => ⟨S2400000, .i32⟩
  | 6 => ⟨S2400000, .i32⟩
  | 7 => ⟨S2400000, .i32⟩
  | 8 => ⟨S2400000x1, .i32⟩
  | 9 => ⟨S2400000x64, .f32⟩
  | 10 => ⟨S2400000x1, .f32⟩
  | 11 => ⟨S2400000x64, .f32⟩
  | 12 => ⟨S2400000x64, .f32⟩
  | 13 => ⟨S_, .f32⟩
  | 14 => ⟨S150000x64, .f32⟩
  | 15 => ⟨S2400000x1, .i32⟩
  | 16 => ⟨S150000x64, .f32⟩
  | 17 => ⟨S1x64x64, .f32⟩
  | 18 => ⟨S64x64, .f32⟩
  | 19 => ⟨S150000x64, .f32⟩
  | 20 => ⟨S1x1x64, .f32⟩
  | 21 => ⟨S1x64, .f32⟩
  | 22 => ⟨S150000x64, .f32⟩
  | 23 => ⟨S150000x64, .f32⟩
  | 24 => ⟨S_, .f32⟩
  | 25 => ⟨S_, .f32⟩
  | 26 => ⟨S150000x64, .f32⟩
  | 27 => ⟨S150000x64, .i1⟩
  | 28 => ⟨S_, .f32⟩
  | 29 => ⟨S150000x64, .f32⟩
  | 30 => ⟨S150000x64, .f32⟩
  | 31 => ⟨S150000x64, .f32⟩
  | 32 => ⟨S150000x64, .f32⟩
  | 33 => ⟨S1x64x64, .f32⟩
  | 34 => ⟨S64x64, .f32⟩
  | 35 => ⟨S150000x64, .f32⟩
  | 36 => ⟨S1x1x64, .f32⟩
  | 37 => ⟨S1x64, .f32⟩
  | 38 => ⟨S150000x64, .f32⟩
  | 39 => ⟨S150000x64, .f32⟩
  | 40 => ⟨S_, .f32⟩
  | 41 => ⟨S_, .f32⟩
  | 42 => ⟨S150000x64, .f32⟩
  | 43 => ⟨S150000x64, .i1⟩
  | 44 => ⟨S_, .f32⟩
  | 45 => ⟨S150000x64, .f32⟩
  | 46 => ⟨S150000x64, .f32⟩
  | 47 => ⟨S150000x64, .f32⟩
  | 48 => ⟨S150000x64, .f32⟩
  | 49 => ⟨S150000x64, .f32⟩
  | 50 => ⟨S_, .f32⟩
  | 51 => ⟨S150000, .f32⟩
  | 52 => ⟨S150000x1, .f32⟩
  | 53 => ⟨S150000x1, .f32⟩
  | 54 => ⟨S_, .f32⟩
  | 55 => ⟨S150000x1, .f32⟩
  | 56 => ⟨S150000x1, .f32⟩
  | 57 => ⟨S150000x64, .f32⟩
  | 58 => ⟨S150000x64, .f32⟩
  | 59 => ⟨S150000x256, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S16384x256, .f32⟩
  | 69 => ⟨S_, .i32⟩
  | 70 => ⟨S16384, .i32⟩
  | 71 => ⟨S16384, .i32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S16384x256, .f32⟩
  | 81 => ⟨S_, .i32⟩
  | 82 => ⟨S16384, .i32⟩
  | 83 => ⟨S16384, .i32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S16384x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v30 : Ref sig .tc := ⟨.hbm, 59, rfl⟩
abbrev main_v31 : Ref sig .tc := ⟨.hbm, 60, rfl⟩
abbrev main_call2_v0 : Ref sig .tc := ⟨.hbm, 61, rfl⟩
abbrev main_call2_cst : Ref sig .tc := ⟨.hbm, 62, rfl⟩
abbrev main_call2_v1 : Ref sig .tc := ⟨.hbm, 63, rfl⟩
abbrev main_call2_v2 : Ref sig .tc := ⟨.hbm, 64, rfl⟩
abbrev main_v32 : Ref sig .tc := ⟨.hbm, 65, rfl⟩
abbrev main_cst_3 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_4 : Ref sig .tc := ⟨.hbm, 71, rfl⟩
abbrev main_v37 : Ref sig .tc := ⟨.hbm, 72, rfl⟩
abbrev main_v38 : Ref sig .tc := ⟨.hbm, 73, rfl⟩
abbrev main_c_5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_6 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_7 : Ref sig .tc := ⟨.hbm, 94, rfl⟩
abbrev main_call3_cst : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_8 : Ref sig .tc := ⟨.hbm, 110, rfl⟩
abbrev main_call4_cst : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_v66 : Ref sig .tc := ⟨.hbm, 117, rfl⟩
abbrev main_v67 : Ref sig .tc := ⟨.hbm, 118, rfl⟩
abbrev main_call5_v0 : Ref sig .tc := ⟨.hbm, 119, rfl⟩
abbrev main_call5_cst : Ref sig .tc := ⟨.hbm, 120, rfl⟩
abbrev main_call5_v1 : Ref sig .tc := ⟨.hbm, 121, rfl⟩
abbrev main_call5_v2 : Ref sig .tc := ⟨.hbm, 122, rfl⟩
abbrev main_v68 : Ref sig .tc := ⟨.hbm, 123, rfl⟩
abbrev main_cst_9 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_c_10 : Ref sig .tc := ⟨.hbm, 129, rfl⟩
abbrev main_v73 : Ref sig .tc := ⟨.hbm, 130, rfl⟩
abbrev main_v74 : Ref sig .tc := ⟨.hbm, 131, rfl⟩
abbrev main_c_11 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_12 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_13 : Ref sig .tc := ⟨.hbm, 152, rfl⟩
abbrev main_call6_cst : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_14 : Ref sig .tc := ⟨.hbm, 168, rfl⟩
abbrev main_call7_cst : Ref sig .tc := ⟨.hbm, 169, rfl⟩
abbrev main_call7_v0 : Ref sig .tc := ⟨.hbm, 170, rfl⟩
abbrev main_call7_v1 : Ref sig .tc := ⟨.hbm, 171, rfl⟩
abbrev main_call7_v2 : Ref sig .tc := ⟨.hbm, 172, rfl⟩
abbrev main_call7_v3 : Ref sig .tc := ⟨.hbm, 173, rfl⟩
abbrev main_call7_v4 : Ref sig .tc := ⟨.hbm, 174, rfl⟩
abbrev main_v102 : Ref sig .tc := ⟨.hbm, 175, rfl⟩
abbrev main_v103 : Ref sig .tc := ⟨.hbm, 176, rfl⟩
abbrev main_call8_v0 : Ref sig .tc := ⟨.hbm, 177, rfl⟩
abbrev main_call8_cst : Ref sig .tc := ⟨.hbm, 178, rfl⟩
abbrev main_call8_v1 : Ref sig .tc := ⟨.hbm, 179, rfl⟩
abbrev main_call8_v2 : Ref sig .tc := ⟨.hbm, 180, rfl⟩
abbrev main_v104 : Ref sig .tc := ⟨.hbm, 181, rfl⟩
abbrev main_cst_15 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_c_16 : Ref sig .tc := ⟨.hbm, 188, rfl⟩
abbrev main_v110 : Ref sig .tc := ⟨.hbm, 189, rfl⟩
abbrev main_v111 : Ref sig .tc := ⟨.hbm, 190, rfl⟩
abbrev main_c_17 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_c_18 : Ref sig .tc := ⟨.hbm, 197, rfl⟩
abbrev main_v117 : Ref sig .tc := ⟨.hbm, 198, rfl⟩
abbrev main_v118 : Ref sig .tc := ⟨.hbm, 199, rfl⟩
abbrev main_c_19 : Ref sig .tc := ⟨.hbm, 200, rfl⟩
abbrev main_v119 : Ref sig .tc := ⟨.hbm, 201, rfl⟩
abbrev main_v120 : Ref sig .tc := ⟨.hbm, 202, rfl⟩
abbrev main_c_20 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_c_21 : Ref sig .tc := ⟨.hbm, 209, rfl⟩
abbrev main_v126 : Ref sig .tc := ⟨.hbm, 210, rfl⟩
abbrev main_v127 : Ref sig .tc := ⟨.hbm, 211, rfl⟩
abbrev main_c_22 : Ref sig .tc := ⟨.hbm, 212, rfl⟩
abbrev main_v128 : Ref sig .tc := ⟨.hbm, 213, rfl⟩
abbrev main_v129 : Ref sig .tc := ⟨.hbm, 214, rfl⟩
abbrev main_c_23 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S150000x64_S150000x64_S150000x64_S150000x64_S150000x256_d1 : Shape.Concatenates [S150000x64, S150000x64, S150000x64, S150000x64] S150000x256 1
  bcast_S_S16384 : S_.BroadcastsInDim S16384 (![] : Fin 0 → Fin S16384.rank)
  bcast_S16384_S16384x1_0 : S16384.BroadcastsInDim S16384x1 (![0] : Fin 1 → Fin S16384x1.rank)
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []
  gather_S150000x256_S16384x1_S16384x256_1_0_n_n_0_1_1256_wf : GatherDims.WF S150000x256 S16384x1 S16384x256 [1] [0] [] [0] [] 1 ![1, 256]

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x256_S16384x1_S16384x256_1_0_n_n_0_1_1256 : GatherDims S150000x256 S16384x1 S16384x256 where
  offsetDims := [1]
  collapsedSliceDims := [0]
  operandBatchingDims := []
  startIndicesBatchingDims := []
  startIndexMap := [0]
  indexVectorDim := 1
  sliceSizes := ![1, 256]
  wf := gather_S150000x256_S16384x1_S16384x256_1_0_n_n_0_1_1256_wf

class Facts : Prop extends Facts₀ where

variable [Facts]
-- ==== Proof.Spec.lean ====
/-
  The function both programs compute, written once over whole arrays and generic in the float instance.

  Nodes: the 100000 user rows above the 50000 item rows, 64 channels each. One propagation layer takes the current
  node embeddings `ego` and first forms `side = Â · ego`: for every edge e of the list, row `cols e` of `ego`
  scaled by `vals e` is added into row `rows e` (an index word below zero counts from the end of the axis). Then,
  row by row,
      new  = leaky (side · W + b) + leaky ((ego ∘ side) · W' + b'),      leaky x = x if x ≥ 0 else 0.2 · x,
      unit = new / max (sqrt (Σ_channels new²), 1e-12),
  with `W, b, W', b'` the layer's slices of the four parameter stacks. `new` feeds the next layer; the result
  table is the four blocks `ego₀ | unit₁ | unit₂ | unit₃` side by side (256 channels), and the three results are
  its rows at `u`, at `100000 + i` and at `100000 + j`.
-/
import proofs.«140510_j10118942950095_1_alg».proof.ReferenceIdeal

noncomputable section

namespace Cert.Spec

open Idealize.ShloMosaic Cert.ReferenceIdeal

variable {F : FTy → Type} [FloatOps F] [Facts]

open Facts₀ Facts

/-- Every node's starting embedding: the users' rows above the items'. -/
def nodes (a0 : FVec F S100000x64 .f32) (a1 : FVec F S50000x64 .f32) : FVec F S150000x64 .f32 :=
  concatenate S150000x64 0 [⟨S100000x64, a0⟩, ⟨S50000x64, a1⟩] concatenates_S100000x64_S50000x64_S150000x64_d0

/-- An edge's index word read as a row of the node table: a negative word counts from the end (150000 rows). -/
def edgeRow (a : IVec S2400000 32) : IVec S2400000 32 :=
  select (cmpi .slt a (broadcastInDim S2400000 ![] bcast_S_S2400000 (constantI S_ 32 0#32)))
    (addi a (broadcastInDim S2400000 ![] bcast_S_S2400000 (constantI S_ 32 150000#32))) a

/-- A batch entry's index word read as a row of the result table, the same way. -/
def batchRow (a : IVec S16384 32) : IVec S16384 32 :=
  select (cmpi .slt a (broadcastInDim S16384 ![] bcast_S_S16384 (constantI S_ 32 0#32)))
    (addi a (broadcastInDim S16384 ![] bcast_S_S16384 (constantI S_ 32 150000#32))) a

/-- An item's index word moved past the 100000 user rows. -/
def itemWord (a : IVec S16384 32) : IVec S16384 32 :=
  addi (broadcastInDim S16384 ![] bcast_S_S16384 (constantI S_ 32 100000#32)) a

/-- `Â · ego`: every edge adds its source row, scaled by the edge's weight, into its target row. -/
def side (ego : FVec F S150000x64 .f32) (vals : FVec F S2400000 .f32) (rows cols : IVec S2400000 32) : FVec F S150000x64 .f32 :=
  Host.scatterAdd scatter_S150000x64_S2400000x1_S2400000x64_1_0_0_1
    (broadcastInDim S150000x64 ![] bcast_S_S150000x64 (constant (F := F) S_ .f32 0x00000000#32))
    (broadcastInDim S2400000x1 ![0] bcast_S2400000_S2400000x1_0 rows)
    (mulf (Host.gather gather_S150000x64_S2400000x1_S2400000x64_1_0_n_n_0_1_164 ego
        (broadcastInDim S2400000x1 ![0] bcast_S2400000_S2400000x1_0 (edgeRow cols)))
      (broadcastInDim S2400000x64 ![0, 1] bcast_S2400000x1_S2400000x64_0_1
        (broadcastInDim S2400000x1 ![0] bcast_S2400000_S2400000x1_0 vals)))

/-- `leaky x = x` where `x ≥ 0`, else `slope · x` (the slope a scalar). -/
def leaky (x : FVec F S150000x64 .f32) (slope : FVec F S_ .f32) : FVec F S150000x64 .f32 :=
  select (cmpf .oge x (broadcastInDim S150000x64 ![] bcast_S_S150000x64 (constant (F := F) S_ .f32 0x00000000#32))) x
    (mulf (broadcastInDim S150000x64 ![] bcast_S_S150000x64 (id slope)) x)

/-- One affine branch: `leaky (x · W + b)` with slope 0.2, the bias one row repeated down the table. -/
def branch (x : FVec F S150000x64 .f32) (w : FVec F S64x64 .f32) (b : FVec F S1x64 .f32) : FVec F S150000x64 .f32 :=
  leaky (addf (Host.dotGeneral dot_S150000x64_S64x64_S150000x64_1_0_0_1_n_n none x w)
      (broadcastInDim S150000x64 ![0, 1] bcast_S1x64_S150000x64_0_1 b))
    (constant (F := F) S_ .f32 0x3E4CCCCD#32)

/-- The layer's new embeddings: the branch of `side` plus the branch of `ego ∘ side`. -/
def layerNew (ego sd : FVec F S150000x64 .f32) (w : FVec F S64x64 .f32) (b : FVec F S1x64 .f32)
    (w' : FVec F S64x64 .f32) (b' : FVec F S1x64 .f32) : FVec F S150000x64 .f32 :=
  addf (branch sd w b) (branch (mulf ego sd) w' b')

/-- The length of every row: the square root of the sum of its squares, kept as a column. -/
def rowNorm (x : FVec F S150000x64 .f32) : FVec F S150000x1 .f32 :=
  Host.sqrt (broadcastInDim S150000x1 ![0] bcast_S150000_S150000x1_0
    (Host.reduceAdd (mulf x x) (constant (F := F) S_ .f32 0x00000000#32) reducesTo_S150000x64_S150000_d1 h_S_))

/-- Every row divided by its length, the length floored at 1e-12. -/
def unitRows (x : FVec F S150000x64 .f32) : FVec F S150000x64 .f32 :=
  Host.divf x (broadcastInDim S150000x64 ![0, 1] bcast_S150000x1_S150000x64_0_1
    (maximumf (rowNorm x) (broadcastInDim S150000x1 ![] bcast_S_S150000x1 (constant (F := F) S_ .f32 0x2B8CBCCC#32))))

/-- The layer's second output: its new embeddings with every row scaled to unit length. -/
def layerUnit (ego sd : FVec F S150000x64 .f32) (w : FVec F S64x64 .f32) (b : FVec F S1x64 .f32)
    (w' : FVec F S64x64 .f32) (b' : FVec F S1x64 .f32) : FVec F S150000x64 .f32 :=
  unitRows (layerNew ego sd w b w' b')

/-- Layer 0's, 1's and 2's slice of a stack of three 64×64 matrices. -/
def mat0 (s : FVec F S3x64x64 .f32) : FVec F S64x64 .f32 :=
  shapeCast S64x64 (extractStridedSlice S1x64x64 ![0, 0, 0] s slices_S3x64x64_S1x64x64_0_0_0) shapeCasts_S1x64x64_S64x64
def mat1 (s : FVec F S3x64x64 .f32) : FVec F S64x64 .f32 :=
  shapeCast S64x64 (extractStridedSlice S1x64x64 ![1, 0, 0] s slices_S3x64x64_S1x64x64_1_0_0) shapeCasts_S1x64x64_S64x64
def mat2 (s : FVec F S3x64x64 .f32) : FVec F S64x64 .f32 :=
  shapeCast S64x64 (extractStridedSlice S1x64x64 ![2, 0, 0] s slices_S3x64x64_S1x64x64_2_0_0) shapeCasts_S1x64x64_S64x64
/-- Layer 0's, 1's and 2's slice of a stack of three bias rows. -/
def row0 (s : FVec F S3x1x64 .f32) : FVec F S1x64 .f32 :=
  shapeCast S1x64 (extractStridedSlice S1x1x64 ![0, 0, 0] s slices_S3x1x64_S1x1x64_0_0_0) shapeCasts_S1x1x64_S1x64
def row1 (s : FVec F S3x1x64 .f32) : FVec F S1x64 .f32 :=
  shapeCast S1x64 (extractStridedSlice S1x1x64 ![1, 0, 0] s slices_S3x1x64_S1x1x64_1_0_0) shapeCasts_S1x1x64_S1x64
def row2 (s : FVec F S3x1x64 .f32) : FVec F S1x64 .f32 :=
  shapeCast S1x64 (extractStridedSlice S1x1x64 ![2, 0, 0] s slices_S3x1x64_S1x1x64_2_0_0) shapeCasts_S1x1x64_S1x64

/-- The result table: the starting embeddings and the three layers' unit rows side by side. -/
def table (e0 u1 u2 u3 : FVec F S150000x64 .f32) : FVec F S150000x256 .f32 :=
  concatenate S150000x256 1 [⟨S150000x64, e0⟩, ⟨S150000x64, u1⟩, ⟨S150000x64, u2⟩, ⟨S150000x64, u3⟩]
    concatenates_S150000x64_S150000x64_S150000x64_S150000x64_S150000x256_d1

/-- The table's rows at a batch of index words. -/
def rowsAt (t : FVec F S150000x256 .f32) (a : IVec S16384 32) : FVec F S16384x256 .f32 :=
  Host.gather gather_S150000x256_S16384x1_S16384x256_1_0_n_n_0_1_1256 t
    (broadcastInDim S16384x1 ![0] bcast_S16384_S16384x1_0 (batchRow a))

section Whole
variable (a0 : FVec F S100000x64 .f32) (a1 : FVec F S50000x64 .f32) (a2 : FVec F S3x64x64 .f32) (a3 : FVec F S3x1x64 .f32)
  (a4 : FVec F S3x64x64 .f32) (a5 : FVec F S3x1x64 .f32) (a6 : FVec F S2400000 .f32) (a7 a8 : IVec S2400000 32)

/-- The embeddings entering layers 1, 2 and the last layer's (unused by the results, named for symmetry). -/
def ego1 : FVec F S150000x64 .f32 :=
  layerNew (nodes a0 a1) (side (nodes a0 a1) a6 a7 a8) (mat0 a2) (row0 a3) (mat0 a4) (row0 a5)
def ego2 : FVec F S150000x64 .f32 :=
  layerNew (ego1 a0 a1 a2 a3 a4 a5 a6 a7 a8) (side (ego1 a0 a1 a2 a3 a4 a5 a6 a7 a8) a6 a7 a8) (mat1 a2) (row1 a3) (mat1 a4) (row1 a5)
def ego3 : FVec F S150000x64 .f32 :=
  layerNew (ego2 a0 a1 a2 a3 a4 a5 a6 a7 a8) (side (ego2 a0 a1 a2 a3 a4 a5 a6 a7 a8) a6 a7 a8) (mat2 a2) (row2 a3) (mat2 a4) (row2 a5)

/-- The whole result table from the argument arrays. -/
def result : FVec F S150000x256 .f32 :=
  table (nodes a0 a1) (unitRows (ego1 a0 a1 a2 a3 a4 a5 a6 a7 a8)) (unitRows (ego2 a0 a1 a2 a3 a4 a5 a6 a7 a8))
    (unitRows (ego3 a0 a1 a2 a3 a4 a5 a6 a7 a8))

end Whole

end Cert.Spec

end
-- ==== Proof.KRegion0.lean ====
/- The class-A half of pallas_call 0 (graph-convolution layer 0's kernel) at a parameter valuation `V` of the
   TensorCore's buffers: each window's block at a grid point, what the body leaves in the two output windows'
   staging buffers, the body's triple, the pipeline's proof data and its body obligation. -/
import proofs.«140510_j10118942950095_1_alg».proof.Proof.Gen.Kernel.Launch
import proofs.«140510_j10118942950095_1_alg».proof.Proof.Gen.Kernel.Skeleton
import proofs.«140510_j10118942950095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole staging buffer -/

/-- The whole 3000×64 row block. -/
abbrev rBlk : Rect S3000x64 := Rect.unit (s := S3000x64) ![0, 0] S3000x64.size inb_S3000x64_S3000x64_0_0
/-- The whole 64×64 weight matrix. -/
abbrev rW : Rect S64x64 := Rect.unit (s := S64x64) ![0, 0] S64x64.size inb_S64x64_S64x64_0_0
/-- The whole 1×64 bias row. -/
abbrev rB : Rect S1x64 := Rect.unit (s := S1x64) ![0, 0] S1x64.size inb_S1x64_S1x64_0_0

/-! ## What the body leaves in each output window's buffer -/

/-- Window 6 (the layer's new embedding rows) after the body, from the six input blocks: the sum of the two
    leaky-rectified affine maps, stored over the whole buffer. -/
def out0_6 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k0_pay2 (View.ld x0 rBlk) (View.ld x1 rBlk) (View.ld x2 rW) (View.ld x3 rB) (View.ld x4 rW) (View.ld x5 rB)⟩]

/-- Window 7 (the row-normalized embedding) after the body: the new rows divided by the larger of their
    Euclidean norm and the floor constant, stored over the whole buffer. -/
def out0_7 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k0_pay1 (k0_pay2 (View.ld x0 rBlk) (View.ld x1 rBlk) (View.ld x2 rW) (View.ld x3 rB) (View.ld x4 rW) (View.ld x5 rB))
    (k0_pay3 (View.ld x0 rBlk) (View.ld x1 rBlk) (View.ld x2 rW) (View.ld x3 rB) (View.ld x4 rW) (View.ld x5 rB)) (k0_pay4 (F := F))⟩]

/-- A single store of the whole row block covers the buffer. -/
theorem cover0_blk (p0 : Vec F S3000x64 .f32) (y : S3000x64.Idx) :
    ∃ pc ∈ ([⟨rBlk, p0⟩] : List (View.Piece (Elt F) S3000x64 .f32)), y ∈ pc.1.set :=
  View.cover_of_tiled [⟨rBlk, p0⟩] S3000x64.size (by rfl) y

/-! ## The pipeline's proof data -/

/-- The proof data of the pipeline on core `c`: the arrays as the region finds them; after the body at point `t`
    each input's buffer still at its block and each output's at its function of the six input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) := by dsimp only [dat0]

/-! ## Each input's staging buffer holds its block -/

/-- Input window 0's current staging buffer holds its block at every point, fetched there or not, for any proof
    data whose array is the region-entry contents and whose body leaves the block in place: where the window is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is the region-entry contents and whose body leaves the block in place: where the window is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is the region-entry contents and whose body leaves the block in place: where the window is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is the region-entry contents and whose body leaves the block in place: where the window is not
    fetched its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is the region-entry contents and whose body leaves the block in place: where the window is not
    fetched its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is the region-entry contents and whose body leaves the block in place: where the window is not
    fetched its block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The kernel body on whole staging memrefs, the six inputs' at read contents `x0 … x5` and the two outputs' at
    anything, runs to the continuation holding the inputs' as they were, the first output's at the sum of the two
    leaky-rectified affine maps of the inputs and the second's at that sum row-normalized. -/
theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_blk _)
  iexists _; isplitr
  swap; · iexact H7
  ipureintro
  exact View.read_writes_eq_canon _ _ _ (cover0_blk _)

/-! ## The inputs' buffers before the body, for this proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' staging memrefs hold their blocks, so the body's triple applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/- The class-A half of pallas_call 1 (graph-convolution layer 1's kernel) at a parameter valuation `V` of the
   TensorCore's buffers: each window's block at a grid point, what the body leaves in the two output windows'
   staging buffers, the body's triple, the pipeline's proof data and its body obligation. -/
import proofs.«140510_j10118942950095_1_alg».proof.Proof.Gen.Kernel.Launch
import proofs.«140510_j10118942950095_1_alg».proof.Proof.Gen.Kernel.Skeleton
import proofs.«140510_j10118942950095_1_alg».proof.Proof.Gen.Kernel.Points
import proofs.«140510_j10118942950095_1_alg».proof.Proof.KRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in each output window's buffer -/

/-- Window 6 (the layer's new embedding rows) after the body, from the six input blocks: the sum of the two
    leaky-rectified affine maps, stored over the whole buffer. -/
def out1_6 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k1_pay2 (View.ld x0 rBlk) (View.ld x1 rBlk) (View.ld x2 rW) (View.ld x3 rB) (View.ld x4 rW) (View.ld x5 rB)⟩]

/-- Window 7 (the row-normalized embedding) after the body: the new rows divided by the larger of their
    Euclidean norm and the floor constant, stored over the whole buffer. -/
def out1_7 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k1_pay1 (k1_pay2 (View.ld x0 rBlk) (View.ld x1 rBlk) (View.ld x2 rW) (View.ld x3 rB) (View.ld x4 rW) (View.ld x5 rB))
    (k1_pay3 (View.ld x0 rBlk) (View.ld x1 rBlk) (View.ld x2 rW) (View.ld x3 rB) (View.ld x4 rW) (View.ld x5 rB)) (k1_pay4 (F := F))⟩]

/-- A single store of the whole row block covers the buffer. -/
theorem cover1_blk (p0 : Vec F S3000x64 .f32) (y : S3000x64.Idx) :
    ∃ pc ∈ ([⟨rBlk, p0⟩] : List (View.Piece (Elt F) S3000x64 .f32)), y ∈ pc.1.set :=
  View.cover_of_tiled [⟨rBlk, p0⟩] S3000x64.size (by rfl) y

/-! ## The pipeline's proof data -/

/-- The proof data of the pipeline on core `c`: the arrays as the region finds them; after the body at point `t`
    each input's buffer still at its block and each output's at its function of the six input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) := by dsimp only [dat1]

/-! ## Each input's staging buffer holds its block -/

/-- Input window 0's current staging buffer holds its block at every point, fetched there or not, for any proof
    data whose array is the region-entry contents and whose body leaves the block in place: where the window is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is the region-entry contents and whose body leaves the block in place: where the window is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is the region-entry contents and whose body leaves the block in place: where the window is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is the region-entry contents and whose body leaves the block in place: where the window is not
    fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is the region-entry contents and whose body leaves the block in place: where the window is not
    fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is the region-entry contents and whose body leaves the block in place: where the window is not
    fetched its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The kernel body on whole staging memrefs, the six inputs' at read contents `x0 … x5` and the two outputs' at
    anything, runs to the continuation holding the inputs' as they were, the first output's at the sum of the two
    leaky-rectified affine maps of the inputs and the second's at that sum row-normalized. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_blk _)
  iexists _; isplitr
  swap; · iexact H7
  ipureintro
  exact View.read_writes_eq_canon _ _ _ (cover1_blk _)

/-! ## The inputs' buffers before the body, for this proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' staging memrefs hold their blocks, so the body's triple applies; the
    invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/- The class-A half of pallas_call 2 (graph-convolution layer 2's kernel) at a parameter valuation `V` of the
   TensorCore's buffers: each window's block at a grid point, what the body leaves in the two output windows'
   staging buffers, the body's triple, the pipeline's proof data and its body obligation. -/
import proofs.«140510_j10118942950095_1_alg».proof.Proof.Gen.Kernel.Launch
import proofs.«140510_j10118942950095_1_alg».proof.Proof.Gen.Kernel.Skeleton
import proofs.«140510_j10118942950095_1_alg».proof.Proof.Gen.Kernel.Points
import proofs.«140510_j10118942950095_1_alg».proof.Proof.KRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body leaves in each output window's buffer -/

/-- Window 6 (the layer's new embedding rows) after the body, from the six input blocks: the sum of the two
    leaky-rectified affine maps, stored over the whole buffer. -/
def out2_6 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k2_pay2 (View.ld x0 rBlk) (View.ld x1 rBlk) (View.ld x2 rW) (View.ld x3 rB) (View.ld x4 rW) (View.ld x5 rB)⟩]

/-- Window 7 (the row-normalized embedding) after the body: the new rows divided by the larger of their
    Euclidean norm and the floor constant, stored over the whole buffer. -/
def out2_7 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k2_pay1 (k2_pay2 (View.ld x0 rBlk) (View.ld x1 rBlk) (View.ld x2 rW) (View.ld x3 rB) (View.ld x4 rW) (View.ld x5 rB))
    (k2_pay3 (View.ld x0 rBlk) (View.ld x1 rBlk) (View.ld x2 rW) (View.ld x3 rB) (View.ld x4 rW) (View.ld x5 rB)) (k2_pay4 (F := F))⟩]

/-- A single store of the whole row block covers the buffer. -/
theorem cover2_blk (p0 : Vec F S3000x64 .f32) (y : S3000x64.Idx) :
    ∃ pc ∈ ([⟨rBlk, p0⟩] : List (View.Piece (Elt F) S3000x64 .f32)), y ∈ pc.1.set :=
  View.cover_of_tiled [⟨rBlk, p0⟩] S3000x64.size (by rfl) y

/-! ## The pipeline's proof data -/

/-- The proof data of the pipeline on core `c`: the arrays as the region finds them; after the body at point `t`
    each input's buffer still at its block and each output's at its function of the six input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) := by dsimp only [dat2]

/-! ## Each input's staging buffer holds its block -/

/-- Input window 0's current staging buffer holds its block at every point, fetched there or not, for any proof
    data whose array is the region-entry contents and whose body leaves the block in place: where the window is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is the region-entry contents and whose body leaves the block in place: where the window is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is the region-entry contents and whose body leaves the block in place: where the window is not
    fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is the region-entry contents and whose body leaves the block in place: where the window is not
    fetched its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is the region-entry contents and whose body leaves the block in place: where the window is not
    fetched its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is the region-entry contents and whose body leaves the block in place: where the window is not
    fetched its block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 1000000 in
/-- The kernel body on whole staging memrefs, the six inputs' at read contents `x0 … x5` and the two outputs' at
    anything, runs to the continuation holding the inputs' as they were, the first output's at the sum of the two
    leaky-rectified affine maps of the inputs and the second's at that sum row-normalized. -/
theorem sound_kernel2 (c : Dev nD) (E : Set ℕ) (i : grid2.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_blk _)
  iexists _; isplitr
  swap; · iexact H7
  ipureintro
  exact View.read_writes_eq_canon _ _ _ (cover2_blk _)

/-! ## The inputs' buffers before the body, for this proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' staging memrefs hold their blocks, so the body's triple applies; the
    invariant and the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The kernel's whole run (the program over machine words), at any float instance: @main is four stretches of host operations around three
  launches of the layer kernel. Between two items every unscoped buffer of a core is held whole at a known
  valuation — the launch memory, then what a stretch of host operations computes from it, then, after a launch, the
  same with the launch's arrays replaced by what its write-backs leave (an input array as entered; an output array
  the fold of its fifty row blocks). The run ends with every unscoped buffer at the last of these valuations; the
  arguments are never written, so they end as launched.
-/
import proofs.«140510_j10118942950095_1_alg».proof.Proof.KRegion0
import proofs.«140510_j10118942950095_1_alg».proof.Proof.KRegion1
import proofs.«140510_j10118942950095_1_alg».proof.Proof.KRegion2
import proofs.«140510_j10118942950095_1_alg».proof.Proof.Gen.Kernel.Regions
import Idealize.ShloMosaic.Lib.Pipeline.Frame
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first stretch of host operations (layer 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input as entered, an output its write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (layer 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input as entered, an output its write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch (layer 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (an input as entered, an output its write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last stretch: the contents the run ends with. -/
abbrev W7 : Dev nD → Valuation τ sig (Elt F) := fun c => StableHlo.after hostOps3 (W6 m c)

/-! ## A buffer that no stretch writes and that is no launch's array ends as launched -/

theorem W7_untouched (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m c (Proc.devRef .tc r) = m ((c : Thread nD τ).loc r) :=
  (StableHlo.after_of_writes_sub hostOps3 _ hostOps3_writes h3).trans <|
  (W6_of_ne m c r a2).trans <|
  (StableHlo.after_of_writes_sub hostOps2 _ hostOps2_writes h2).trans <|
  (W4_of_ne m c r a1).trans <|
  (StableHlo.after_of_writes_sub hostOps1 _ hostOps1_writes h1).trans <|
  (W2_of_ne m c r a0).trans <|
  (StableHlo.after_of_writes_sub hostOps0 _ hostOps0_writes h0).trans rfl

theorem W7_main_arg0 (c : Dev nD) : W7 m c (Proc.devRef .tc main_arg0) = m ((c : Thread nD τ).loc main_arg0) :=
  W7_untouched m c main_arg0 (by decide) (by decide) (by decide) (by decide) (by decide) (by decide) (by decide)
theorem W7_main_arg1 (c : Dev nD) : W7 m c (Proc.devRef .tc main_arg1) = m ((c : Thread nD τ).loc main_arg1) :=
  W7_untouched m c main_arg1 (by decide) (by decide) (by decide) (by decide) (by decide) (by decide) (by decide)
theorem W7_main_arg2 (c : Dev nD) : W7 m c (Proc.devRef .tc main_arg2) = m ((c : Thread nD τ).loc main_arg2) :=
  W7_untouched m c main_arg2 (by decide) (by decide) (by decide) (by decide) (by decide) (by decide) (by decide)
theorem W7_main_arg3 (c : Dev nD) : W7 m c (Proc.devRef .tc main_arg3) = m ((c : Thread nD τ).loc main_arg3) :=
  W7_untouched m c main_arg3 (by decide) (by decide) (by decide) (by decide) (by decide) (by decide) (by decide)
theorem W7_main_arg4 (c : Dev nD) : W7 m c (Proc.devRef .tc main_arg4) = m ((c : Thread nD τ).loc main_arg4) :=
  W7_untouched m c main_arg4 (by decide) (by decide) (by decide) (by decide) (by decide) (by decide) (by decide)
theorem W7_main_arg5 (c : Dev nD) : W7 m c (Proc.devRef .tc main_arg5) = m ((c : Thread nD τ).loc main_arg5) :=
  W7_untouched m c main_arg5 (by decide) (by decide) (by decide) (by decide) (by decide) (by decide) (by decide)
theorem W7_main_arg6 (c : Dev nD) : W7 m c (Proc.devRef .tc main_arg6) = m ((c : Thread nD τ).loc main_arg6) :=
  W7_untouched m c main_arg6 (by decide) (by decide) (by decide) (by decide) (by decide) (by decide) (by decide)
theorem W7_main_arg7 (c : Dev nD) : W7 m c (Proc.devRef .tc main_arg7) = m ((c : Thread nD τ).loc main_arg7) :=
  W7_untouched m c main_arg7 (by decide) (by decide) (by decide) (by decide) (by decide) (by decide) (by decide)
theorem W7_main_arg8 (c : Dev nD) : W7 m c (Proc.devRef .tc main_arg8) = m ((c : Thread nD τ).loc main_arg8) :=
  W7_untouched m c main_arg8 (by decide) (by decide) (by decide) (by decide) (by decide) (by decide) (by decide)
theorem W7_main_arg9 (c : Dev nD) : W7 m c (Proc.devRef .tc main_arg9) = m ((c : Thread nD τ).loc main_arg9) :=
  W7_untouched m c main_arg9 (by decide) (by decide) (by decide) (by decide) (by decide) (by decide) (by decide)
theorem W7_main_arg10 (c : Dev nD) : W7 m c (Proc.devRef .tc main_arg10) = m ((c : Thread nD τ).loc main_arg10) :=
  W7_untouched m c main_arg10 (by decide) (by decide) (by decide) (by decide) (by decide) (by decide) (by decide)
theorem W7_main_arg11 (c : Dev nD) : W7 m c (Proc.devRef .tc main_arg11) = m ((c : Thread nD τ).loc main_arg11) :=
  W7_untouched m c main_arg11 (by decide) (by decide) (by decide) (by decide) (by decide) (by decide) (by decide)

/-! ## The proof data family and the thread state -/

/-- No launch has a prefetched table. -/
abbrev adm : (p : Fin 3) → (pcfgs (F := F) p).Adm := fun p => (cfgs p).toPCfg_adm
/-- Every launch's proof data, each at its own entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as an item: the unscoped buffers from `W` to what the stretch computes from it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W7 m c) ∗ ∃ r, prngReg c r)

/-! ## The three launches as items -/

set_option backward.isDefEq.respectTransparency.types false in
/-- Region 0 over the thread state: entered with every unscoped buffer at `W1`, left with them at `W2`. Its arrays
    are split out of the unscoped buffers on entry and put back at what the write-backs leave on exit; the generator
    register goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays
    are split out of the unscoped buffers on entry and put back at what the write-backs leave on exit; the generator
    register goes into the class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays
    are split out of the unscoped buffers on entry and put back at what the write-backs leave on exit; the generator
    register goes into the class invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and the final
    memory holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- Every weakly fair execution terminates with the twelve argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c)⟩) (run_all m ρ)

end Cert.Kernel.Hand

end
-- ==== Proof.KIRegion0.lean ====
/- The class-A half of pallas_call 0 (graph-convolution layer 0's kernel) at a parameter valuation `V` of the
   TensorCore's buffers: each window's block at a grid point, what the body leaves in the two output windows'
   staging buffers, the body's triple, the pipeline's proof data and its body obligation. -/
import proofs.«140510_j10118942950095_1_alg».proof.Proof.Gen.KernelIdeal.Launch
import proofs.«140510_j10118942950095_1_alg».proof.Proof.Gen.KernelIdeal.Skeleton
import proofs.«140510_j10118942950095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole staging buffer -/

/-- The whole 3000×64 row block. -/
abbrev rBlk : Rect S3000x64 := Rect.unit (s := S3000x64) ![0, 0] S3000x64.size inb_S3000x64_S3000x64_0_0
/-- The whole 64×64 weight matrix. -/
abbrev rW : Rect S64x64 := Rect.unit (s := S64x64) ![0, 0] S64x64.size inb_S64x64_S64x64_0_0
/-- The whole 1×64 bias row. -/
abbrev rB : Rect S1x64 := Rect.unit (s := S1x64) ![0, 0] S1x64.size inb_S1x64_S1x64_0_0

/-! ## What the body leaves in each output window's buffer -/

/-- Window 6 (the layer's new embedding rows) after the body, from the six input blocks: the sum of the two
    leaky-rectified affine maps, stored over the whole buffer. -/
def out0_6 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k0_pay2 (View.ld x0 rBlk) (View.ld x1 rBlk) (View.ld x2 rW) (View.ld x3 rB) (View.ld x4 rW) (View.ld x5 rB)⟩]

/-- Window 7 (the row-normalized embedding) after the body: the new rows divided by the larger of their
    Euclidean norm and the floor constant, stored over the whole buffer. -/
def out0_7 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k0_pay1 (k0_pay2 (View.ld x0 rBlk) (View.ld x1 rBlk) (View.ld x2 rW) (View.ld x3 rB) (View.ld x4 rW) (View.ld x5 rB))
    (k0_pay3 (View.ld x0 rBlk) (View.ld x1 rBlk) (View.ld x2 rW) (View.ld x3 rB) (View.ld x4 rW) (View.ld x5 rB)) (k0_pay4 (F := F))⟩]

/-- A single store of the whole row block covers the buffer. -/
theorem cover0_blk (p0 : Vec F S3000x64 .f32) (y : S3000x64.Idx) :
    ∃ pc ∈ ([⟨rBlk, p0⟩] : List (View.Piece (Elt F) S3000x64 .f32)), y ∈ pc.1.set :=
  View.cover_of_tiled [⟨rBlk, p0⟩] S3000x64.size (by rfl) y

/-! ## The pipeline's proof data -/

/-- The proof data of the pipeline on core `c`: the arrays as the region finds them; after the body at point `t`
    each input's buffer still at its block and each output's at its function of the six input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) := by dsimp only [dat0]

/-! ## Each input's staging buffer holds its block -/

/-- Input window 0's current staging buffer holds its block at every point, fetched there or not, for any proof
    data whose array is the region-entry contents and whose body leaves the block in place: where the window is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is the region-entry contents and whose body leaves the block in place: where the window is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is the region-entry contents and whose body leaves the block in place: where the window is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is the region-entry contents and whose body leaves the block in place: where the window is not
    fetched its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is the region-entry contents and whose body leaves the block in place: where the window is not
    fetched its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is the region-entry contents and whose body leaves the block in place: where the window is not
    fetched its block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The kernel body on whole staging memrefs, the six inputs' at read contents `x0 … x5` and the two outputs' at
    anything, runs to the continuation holding the inputs' as they were, the first output's at the sum of the two
    leaky-rectified affine maps of the inputs and the second's at that sum row-normalized. -/
theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_blk _)
  iexists _; isplitr
  swap; · iexact H7
  ipureintro
  exact View.read_writes_eq_canon _ _ _ (cover0_blk _)

/-! ## The inputs' buffers before the body, for this proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' staging memrefs hold their blocks, so the body's triple applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/- The class-A half of pallas_call 1 (graph-convolution layer 1's kernel) at a parameter valuation `V` of the
   TensorCore's buffers: each window's block at a grid point, what the body leaves in the two output windows'
   staging buffers, the body's triple, the pipeline's proof data and its body obligation. -/
import proofs.«140510_j10118942950095_1_alg».proof.Proof.Gen.KernelIdeal.Launch
import proofs.«140510_j10118942950095_1_alg».proof.Proof.Gen.KernelIdeal.Skeleton
import proofs.«140510_j10118942950095_1_alg».proof.Proof.Gen.KernelIdeal.Points
import proofs.«140510_j10118942950095_1_alg».proof.Proof.KIRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in each output window's buffer -/

/-- Window 6 (the layer's new embedding rows) after the body, from the six input blocks: the sum of the two
    leaky-rectified affine maps, stored over the whole buffer. -/
def out1_6 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k1_pay2 (View.ld x0 rBlk) (View.ld x1 rBlk) (View.ld x2 rW) (View.ld x3 rB) (View.ld x4 rW) (View.ld x5 rB)⟩]

/-- Window 7 (the row-normalized embedding) after the body: the new rows divided by the larger of their
    Euclidean norm and the floor constant, stored over the whole buffer. -/
def out1_7 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k1_pay1 (k1_pay2 (View.ld x0 rBlk) (View.ld x1 rBlk) (View.ld x2 rW) (View.ld x3 rB) (View.ld x4 rW) (View.ld x5 rB))
    (k1_pay3 (View.ld x0 rBlk) (View.ld x1 rBlk) (View.ld x2 rW) (View.ld x3 rB) (View.ld x4 rW) (View.ld x5 rB)) (k1_pay4 (F := F))⟩]

/-- A single store of the whole row block covers the buffer. -/
theorem cover1_blk (p0 : Vec F S3000x64 .f32) (y : S3000x64.Idx) :
    ∃ pc ∈ ([⟨rBlk, p0⟩] : List (View.Piece (Elt F) S3000x64 .f32)), y ∈ pc.1.set :=
  View.cover_of_tiled [⟨rBlk, p0⟩] S3000x64.size (by rfl) y

/-! ## The pipeline's proof data -/

/-- The proof data of the pipeline on core `c`: the arrays as the region finds them; after the body at point `t`
    each input's buffer still at its block and each output's at its function of the six input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) := by dsimp only [dat1]

/-! ## Each input's staging buffer holds its block -/

/-- Input window 0's current staging buffer holds its block at every point, fetched there or not, for any proof
    data whose array is the region-entry contents and whose body leaves the block in place: where the window is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is the region-entry contents and whose body leaves the block in place: where the window is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is the region-entry contents and whose body leaves the block in place: where the window is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is the region-entry contents and whose body leaves the block in place: where the window is not
    fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is the region-entry contents and whose body leaves the block in place: where the window is not
    fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is the region-entry contents and whose body leaves the block in place: where the window is not
    fetched its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The kernel body on whole staging memrefs, the six inputs' at read contents `x0 … x5` and the two outputs' at
    anything, runs to the continuation holding the inputs' as they were, the first output's at the sum of the two
    leaky-rectified affine maps of the inputs and the second's at that sum row-normalized. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_blk _)
  iexists _; isplitr
  swap; · iexact H7
  ipureintro
  exact View.read_writes_eq_canon _ _ _ (cover1_blk _)

/-! ## The inputs' buffers before the body, for this proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' staging memrefs hold their blocks, so the body's triple applies; the
    invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/- The class-A half of pallas_call 2 (graph-convolution layer 2's kernel) at a parameter valuation `V` of the
   TensorCore's buffers: each window's block at a grid point, what the body leaves in the two output windows'
   staging buffers, the body's triple, the pipeline's proof data and its body obligation. -/
import proofs.«140510_j10118942950095_1_alg».proof.Proof.Gen.KernelIdeal.Launch
import proofs.«140510_j10118942950095_1_alg».proof.Proof.Gen.KernelIdeal.Skeleton
import proofs.«140510_j10118942950095_1_alg».proof.Proof.Gen.KernelIdeal.Points
import proofs.«140510_j10118942950095_1_alg».proof.Proof.KIRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body leaves in each output window's buffer -/

/-- Window 6 (the layer's new embedding rows) after the body, from the six input blocks: the sum of the two
    leaky-rectified affine maps, stored over the whole buffer. -/
def out2_6 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k2_pay2 (View.ld x0 rBlk) (View.ld x1 rBlk) (View.ld x2 rW) (View.ld x3 rB) (View.ld x4 rW) (View.ld x5 rB)⟩]

/-- Window 7 (the row-normalized embedding) after the body: the new rows divided by the larger of their
    Euclidean norm and the floor constant, stored over the whole buffer. -/
def out2_7 (x0 x1 : Vec F S3000x64 .f32) (x2 : Vec F S64x64 .f32) (x3 : Vec F S1x64 .f32) (x4 : Vec F S64x64 .f32) (x5 : Vec F S1x64 .f32) : Vec F S3000x64 .f32 :=
  View.canon [⟨rBlk, k2_pay1 (k2_pay2 (View.ld x0 rBlk) (View.ld x1 rBlk) (View.ld x2 rW) (View.ld x3 rB) (View.ld x4 rW) (View.ld x5 rB))
    (k2_pay3 (View.ld x0 rBlk) (View.ld x1 rBlk) (View.ld x2 rW) (View.ld x3 rB) (View.ld x4 rW) (View.ld x5 rB)) (k2_pay4 (F := F))⟩]

/-- A single store of the whole row block covers the buffer. -/
theorem cover2_blk (p0 : Vec F S3000x64 .f32) (y : S3000x64.Idx) :
    ∃ pc ∈ ([⟨rBlk, p0⟩] : List (View.Piece (Elt F) S3000x64 .f32)), y ∈ pc.1.set :=
  View.cover_of_tiled [⟨rBlk, p0⟩] S3000x64.size (by rfl) y

/-! ## The pipeline's proof data -/

/-- The proof data of the pipeline on core `c`: the arrays as the region finds them; after the body at point `t`
    each input's buffer still at its block and each output's at its function of the six input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) := by dsimp only [dat2]

/-! ## Each input's staging buffer holds its block -/

/-- Input window 0's current staging buffer holds its block at every point, fetched there or not, for any proof
    data whose array is the region-entry contents and whose body leaves the block in place: where the window is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is the region-entry contents and whose body leaves the block in place: where the window is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is the region-entry contents and whose body leaves the block in place: where the window is not
    fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is the region-entry contents and whose body leaves the block in place: where the window is not
    fetched its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is the region-entry contents and whose body leaves the block in place: where the window is not
    fetched its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is the region-entry contents and whose body leaves the block in place: where the window is not
    fetched its block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 1000000 in
/-- The kernel body on whole staging memrefs, the six inputs' at read contents `x0 … x5` and the two outputs' at
    anything, runs to the continuation holding the inputs' as they were, the first output's at the sum of the two
    leaky-rectified affine maps of the inputs and the second's at that sum row-normalized. -/
theorem sound_kernel2 (c : Dev nD) (E : Set ℕ) (i : grid2.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_blk _)
  iexists _; isplitr
  swap; · iexact H7
  ipureintro
  exact View.read_writes_eq_canon _ _ _ (cover2_blk _)

/-! ## The inputs' buffers before the body, for this proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' staging memrefs hold their blocks, so the body's triple applies; the
    invariant and the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The idealized kernel's whole run, at any float instance: @main is four stretches of host operations around three
  launches of the layer kernel. Between two items every unscoped buffer of a core is held whole at a known
  valuation — the launch memory, then what a stretch of host operations computes from it, then, after a launch, the
  same with the launch's arrays replaced by what its write-backs leave (an input array as entered; an output array
  the fold of its fifty row blocks). The run ends with every unscoped buffer at the last of these valuations; the
  arguments are never written, so they end as launched.
-/
import proofs.«140510_j10118942950095_1_alg».proof.Proof.KIRegion0
import proofs.«140510_j10118942950095_1_alg».proof.Proof.KIRegion1
import proofs.«140510_j10118942950095_1_alg».proof.Proof.KIRegion2
import proofs.«140510_j10118942950095_1_alg».proof.Proof.Gen.KernelIdeal.Regions
import Idealize.ShloMosaic.Lib.Pipeline.Frame
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first stretch of host operations (layer 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input as entered, an output its write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (layer 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input as entered, an output its write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch (layer 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (an input as entered, an output its write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last stretch: the contents the run ends with. -/
abbrev W7 : Dev nD → Valuation τ sig (Elt F) := fun c => StableHlo.after hostOps3 (W6 m c)

/-! ## A buffer that no stretch writes and that is no launch's array ends as launched -/

theorem W7_untouched (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m c (Proc.devRef .tc r) = m ((c : Thread nD τ).loc r) :=
  (StableHlo.after_of_writes_sub hostOps3 _ hostOps3_writes h3).trans <|
  (W6_of_ne m c r a2).trans <|
  (StableHlo.after_of_writes_sub hostOps2 _ hostOps2_writes h2).trans <|
  (W4_of_ne m c r a1).trans <|
  (StableHlo.after_of_writes_sub hostOps1 _ hostOps1_writes h1).trans <|
  (W2_of_ne m c r a0).trans <|
  (StableHlo.after_of_writes_sub hostOps0 _ hostOps0_writes h0).trans rfl

theorem W7_main_arg0 (c : Dev nD) : W7 m c (Proc.devRef .tc main_arg0) = m ((c : Thread nD τ).loc main_arg0) :=
  W7_untouched m c main_arg0 (by decide) (by decide) (by decide) (by decide) (by decide) (by decide) (by decide)
theorem W7_main_arg1 (c : Dev nD) : W7 m c (Proc.devRef .tc main_arg1) = m ((c : Thread nD τ).loc main_arg1) :=
  W7_untouched m c main_arg1 (by decide) (by decide) (by decide) (by decide) (by decide) (by decide) (by decide)
theorem W7_main_arg2 (c : Dev nD) : W7 m c (Proc.devRef .tc main_arg2) = m ((c : Thread nD τ).loc main_arg2) :=
  W7_untouched m c main_arg2 (by decide) (by decide) (by decide) (by decide) (by decide) (by decide) (by decide)
theorem W7_main_arg3 (c : Dev nD) : W7 m c (Proc.devRef .tc main_arg3) = m ((c : Thread nD τ).loc main_arg3) :=
  W7_untouched m c main_arg3 (by decide) (by decide) (by decide) (by decide) (by decide) (by decide) (by decide)
theorem W7_main_arg4 (c : Dev nD) : W7 m c (Proc.devRef .tc main_arg4) = m ((c : Thread nD τ).loc main_arg4) :=
  W7_untouched m c main_arg4 (by decide) (by decide) (by decide) (by decide) (by decide) (by decide) (by decide)
theorem W7_main_arg5 (c : Dev nD) : W7 m c (Proc.devRef .tc main_arg5) = m ((c : Thread nD τ).loc main_arg5) :=
  W7_untouched m c main_arg5 (by decide) (by decide) (by decide) (by decide) (by decide) (by decide) (by decide)
theorem W7_main_arg6 (c : Dev nD) : W7 m c (Proc.devRef .tc main_arg6) = m ((c : Thread nD τ).loc main_arg6) :=
  W7_untouched m c main_arg6 (by decide) (by decide) (by decide) (by decide) (by decide) (by decide) (by decide)
theorem W7_main_arg7 (c : Dev nD) : W7 m c (Proc.devRef .tc main_arg7) = m ((c : Thread nD τ).loc main_arg7) :=
  W7_untouched m c main_arg7 (by decide) (by decide) (by decide) (by decide) (by decide) (by decide) (by decide)
theorem W7_main_arg8 (c : Dev nD) : W7 m c (Proc.devRef .tc main_arg8) = m ((c : Thread nD τ).loc main_arg8) :=
  W7_untouched m c main_arg8 (by decide) (by decide) (by decide) (by decide) (by decide) (by decide) (by decide)
theorem W7_main_arg9 (c : Dev nD) : W7 m c (Proc.devRef .tc main_arg9) = m ((c : Thread nD τ).loc main_arg9) :=
  W7_untouched m c main_arg9 (by decide) (by decide) (by decide) (by decide) (by decide) (by decide) (by decide)
theorem W7_main_arg10 (c : Dev nD) : W7 m c (Proc.devRef .tc main_arg10) = m ((c : Thread nD τ).loc main_arg10) :=
  W7_untouched m c main_arg10 (by decide) (by decide) (by decide) (by decide) (by decide) (by decide) (by decide)
theorem W7_main_arg11 (c : Dev nD) : W7 m c (Proc.devRef .tc main_arg11) = m ((c : Thread nD τ).loc main_arg11) :=
  W7_untouched m c main_arg11 (by decide) (by decide) (by decide) (by decide) (by decide) (by decide) (by decide)

/-! ## The proof data family and the thread state -/

/-- No launch has a prefetched table. -/
abbrev adm : (p : Fin 3) → (pcfgs (F := F) p).Adm := fun p => (cfgs p).toPCfg_adm
/-- Every launch's proof data, each at its own entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as an item: the unscoped buffers from `W` to what the stretch computes from it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W7 m c) ∗ ∃ r, prngReg c r)

/-! ## The three launches as items -/

set_option backward.isDefEq.respectTransparency.types false in
/-- Region 0 over the thread state: entered with every unscoped buffer at `W1`, left with them at `W2`. Its arrays
    are split out of the unscoped buffers on entry and put back at what the write-backs leave on exit; the generator
    register goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays
    are split out of the unscoped buffers on entry and put back at what the write-backs leave on exit; the generator
    register goes into the class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays
    are split out of the unscoped buffers on entry and put back at what the write-backs leave on exit; the generator
    register goes into the class invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and the final
    memory holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- Every weakly fair execution terminates with the twelve argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c)⟩) (run_all m ρ)

end Cert.KernelIdeal.Hand

end
-- ==== Proof.LibSsa.lean ====
import Idealize.ShloMosaic.Lib.StableHlo.Run

/-!
# Reading a straight line of host operations one operation at a time

A line of host operations in which every operation writes one buffer, no buffer is written twice and no
operation reads a buffer written at or after its own place, leaves contents that satisfy every operation's own
equation: the result buffer of operation `k` holds the operation's function of what the line leaves in its
operand buffers. `Writes ops W` records which buffer each operation writes (operation `k` at most the `k`-th
reference of `W`); the lemmas `read_nullary` … `read_reshape` read one operation, given its place `k`, that its
result is not written later (`∉ W.drop (k + 1)`) and that its operands are not written at or after `k`
(`∉ W.drop k`) — both decided on the list of references.
-/

namespace Cert.Ssa

open Idealize.ShloMosaic Idealize.ShloMosaic.TcCoe Idealize.ShloMosaic.StableHlo

variable {τ : Topo} {sig : RefSig} {Val : EltTy → Type}

/-- The fold over two lines one after the other is the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation `k` of the line writes at most the `k`-th reference of the list, and the two have one length. -/
def Writes : List (HloOp τ sig Val) → List (Ref sig .tc) → Prop
  | [], [] => True
  | op :: ops, w :: W => op.writes ⊆ {Proc.devRef .tc w} ∧ Writes ops W
  | [], _ :: _ => False
  | _ :: _, [] => False

theorem Writes.append {l₁ l₂ : List (HloOp τ sig Val)} {W₁ W₂ : List (Ref sig .tc)}
    (h₁ : Writes l₁ W₁) (h₂ : Writes l₂ W₂) : Writes (l₁ ++ l₂) (W₁ ++ W₂) := by
  induction l₁ generalizing W₁ with
  | nil =>
    cases W₁ with
    | nil => exact h₂
    | cons w W => exact False.elim h₁
  | cons op l ih =>
    cases W₁ with
    | nil => exact False.elim h₁
    | cons w W => exact ⟨h₁.1, ih h₁.2⟩

theorem Writes.drop {ops : List (HloOp τ sig Val)} {W : List (Ref sig .tc)} (h : Writes ops W) (n : Nat) :
    Writes (ops.drop n) (W.drop n) := by
  induction n generalizing ops W with
  | zero => exact h
  | succ n ih =>
    cases ops with
    | nil =>
      cases W with
      | nil => exact h
      | cons w W => exact False.elim h
    | cons op l =>
      cases W with
      | nil => exact False.elim h
      | cons w W => exact ih h.2

/-- A buffer outside the list keeps its contents through the line. -/
theorem Writes.keep {ops : List (HloOp τ sig Val)} {W : List (Ref sig .tc)} (h : Writes ops W)
    {r : Ref sig .tc} (hr : r ∉ W) (V : Valuation τ sig Val) :
    after ops V (Proc.devRef .tc r) = V (Proc.devRef .tc r) := by
  induction ops generalizing W V with
  | nil => rfl
  | cons op l ih =>
    cases W with
    | nil => exact False.elim h
    | cons w W =>
      have hw : Proc.devRef (τ := τ) .tc r ∉ op.writes := fun hm =>
        hr (List.mem_cons.mpr (Or.inl (Proc.devRef_injective _ (Finset.mem_singleton.mp (h.1 hm)))))
      rw [after_cons, ih h.2 (fun hm => hr (List.mem_cons_of_mem _ hm)), op.result_of_not_mem V hw]

/-- The line's contents at a buffer not written after place `k`: operation `k`'s result over the contents
    the operations before it leave. -/
theorem read_at {ops : List (HloOp τ sig Val)} {W : List (Ref sig .tc)} (h : Writes ops W) (k : Nat)
    {op : HloOp τ sig Val} (hop : ops[k]? = some op) (V : Valuation τ sig Val) {r : Ref sig .tc}
    (hr : r ∉ W.drop (k + 1)) :
    after ops V (Proc.devRef .tc r) = op.result (after (ops.take k) V) (Proc.devRef .tc r) := by
  obtain ⟨hk, rfl⟩ := List.getElem?_eq_some_iff.mp hop
  have hsplit : ops.take k ++ ops[k] :: ops.drop (k + 1) = ops := by
    rw [List.getElem_cons_drop]; exact List.take_append_drop k ops
  refine (congrArg (fun l => after l V (Proc.devRef .tc r)) hsplit.symm).trans ?_
  show after (ops.take k ++ ops[k] :: ops.drop (k + 1)) V (Proc.devRef .tc r) = _
  rw [after_append, after_cons, (h.drop (k + 1)).keep hr]

/-- The line's contents at a buffer not written at or after place `k`: what the operations before `k` leave. -/
theorem read_before {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  refine (congrArg (fun l => after l V (Proc.devRef .tc r)) (List.take_append_drop k ops).symm).trans ?_
  show after (ops.take k ++ ops.drop k) V (Proc.devRef .tc r) = _
  rw [after_append, (h.drop k).keep hr]

section Builders

variable {ops : List (HloOp τ sig Val)} {W : List (Ref sig .tc)} (h : Writes ops W) (k : Nat)
include h

theorem read_nullary (y : Ref sig .tc) (v : y.ty.Contents Val) (hy)
    (hop : ops[k]? = some (nullary (τ := τ) y v hy)) (V : Valuation τ sig Val) (hy' : y ∉ W.drop (k + 1)) :
    after ops V (Proc.devRef .tc y) = v := by
  rw [read_at h k hop V hy', nullary_result]

theorem read_unary (x y : Ref sig .tc) (f : x.ty.Contents Val → y.ty.Contents Val) (hx hy)
    (hop : ops[k]? = some (unary (τ := τ) x y f hx hy)) (V : Valuation τ sig Val)
    (hy' : y ∉ W.drop (k + 1)) (hx' : x ∉ W.drop k) :
    after ops V (Proc.devRef .tc y) = f (after ops V (Proc.devRef .tc x)) := by
  rw [read_at h k hop V hy', unary_result, read_before h k V hx']

theorem read_binary (a b y : Ref sig .tc) (f : a.ty.Contents Val → b.ty.Contents Val → y.ty.Contents Val) (ha hb hy)
    (hop : ops[k]? = some (binary (τ := τ) a b y f ha hb hy)) (V : Valuation τ sig Val)
    (hy' : y ∉ W.drop (k + 1)) (ha' : a ∉ W.drop k) (hb' : b ∉ W.drop k) :
    after ops V (Proc.devRef .tc y) = f (after ops V (Proc.devRef .tc a)) (after ops V (Proc.devRef .tc b)) := by
  rw [read_at h k hop V hy', binary_result, read_before h k V ha', read_before h k V hb']

theorem read_ternary (c a b y : Ref sig .tc)
    (f : c.ty.Contents Val → a.ty.Contents Val → b.ty.Contents Val → y.ty.Contents Val) (hc ha hb hy)
    (hop : ops[k]? = some (ternary (τ := τ) c a b y f hc ha hb hy)) (V : Valuation τ sig Val)
    (hy' : y ∉ W.drop (k + 1)) (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [read_at h k hop V hy', ternary_result, read_before h k V hc', read_before h k V ha', read_before h k V hb']

theorem read_reshape (x y : Ref sig .tc) (he : x.ty.elt = y.ty.elt) (hn : x.ty.shape.ShapeCasts y.ty.shape) (hx hy)
    (hop : ops[k]? = some (reshape (τ := τ) (Val := Val) x y he hn hx hy)) (V : Valuation τ sig Val)
    (hy' : y ∉ W.drop (k + 1)) (hx' : x ∉ W.drop k) :
    after ops V (Proc.devRef .tc y) = fun i => he ▸ shapeCast y.ty.shape (after ops V (Proc.devRef .tc x)) hn i := by
  rw [read_at h k hop V hy', reshape_result, read_before h k V hx']

end Builders

end Cert.Ssa
-- ==== Proof.LibSsaNary.lean ====
import proofs.«140510_j10118942950095_1_alg».proof.Proof.LibSsa

/-!
# Reading an operation with a family of operands

The companion of the one-, two- and three-operand readings of a straight line of host operations: an operation
that takes a whole family of operand buffers, each at its own type (a concatenation of several arrays), leaves in
its result buffer its function of what the line leaves in the operand buffers, provided the result is not
written later and no operand is written at or after the operation's place.
-/

namespace Cert.Ssa

open Idealize.ShloMosaic Idealize.ShloMosaic.TcCoe Idealize.ShloMosaic.StableHlo

variable {τ : Topo} {sig : RefSig} {Val : EltTy → Type}

theorem read_nary {ops : List (HloOp τ sig Val)} {W : List (Ref sig .tc)} (h : Writes ops W) (k : Nat)
    {n : Nat} (xs : Fin n → Ref sig .tc) (y : Ref sig .tc)
    (f : ((j : Fin n) → (xs j).ty.Contents Val) → y.ty.Contents Val) (hxs hy)
    (hop : ops[k]? = some (nary (τ := τ) xs y f hxs hy)) (V : Valuation τ sig Val)
    (hy' : y ∉ W.drop (k + 1)) (hxs' : ∀ j, xs j ∉ W.drop k) :
    after ops V (Proc.devRef .tc y) = f (fun j => after ops V (Proc.devRef .tc (xs j))) := by
  rw [read_at h k hop V hy', nary_result]
  exact congrArg f (funext fun j => (read_before h k V (hxs' j)).symm)

end Cert.Ssa
-- ==== Proof.KIGlue.lean ====
/-
  The idealized kernel's four stretches of host operations, each read one operation at a time at an arbitrary
  valuation `M` of the buffers it starts from: the buffers a launch takes as its arrays, and the three results, are
  the specification's functions of what the stretch finds. No stretch writes a buffer twice or reads one it writes
  later, so an operation's result read at the stretch's end is its function of its operands read at the stretch's end.
-/
import proofs.«140510_j10118942950095_1_alg».proof.Proof.Gen.KernelIdeal.Regions
import proofs.«140510_j10118942950095_1_alg».proof.Proof.Gen.ReferenceIdeal
import proofs.«140510_j10118942950095_1_alg».proof.Proof.Spec
import proofs.«140510_j10118942950095_1_alg».proof.Proof.LibSsaNary

set_option maxRecDepth 16384

noncomputable section

namespace Cert.KernelIdeal.Hand

open Idealize.ShloMosaic Idealize.ShloMosaic.TcCoe
open Cert.KernelIdeal Cert.KernelIdeal.Gen

variable {F : FTy → Type} [FloatOps F]

/-- Operation `k` of the stretch writes the `k`-th reference of its list, and nothing else. -/
theorem writes0 : Cert.Ssa.Writes (hostOps0 (F := F)) hostOps0_W :=
  ⟨Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, trivial⟩

/-- Operation `k` of the stretch writes the `k`-th reference of its list, and nothing else. -/
theorem writes1 : Cert.Ssa.Writes (hostOps1 (F := F)) hostOps1_W :=
  ⟨Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, trivial⟩

/-- Operation `k` of the stretch writes the `k`-th reference of its list, and nothing else. -/
theorem writes2 : Cert.Ssa.Writes (hostOps2 (F := F)) hostOps2_W :=
  ⟨Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, trivial⟩

/-- Operation `k` of the stretch writes the `k`-th reference of its list, and nothing else. -/
theorem writes3 : Cert.Ssa.Writes (hostOps3 (F := F)) hostOps3_W :=
  ⟨Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, Finset.Subset.refl _, trivial⟩

/-! ## Before layer 0: the node table, its neighbourhood sums, layer 0's parameters -/

theorem read0_nodes (M : Valuation τ sig (Elt F)) :
    StableHlo.after (hostOps0 (F := F)) M (Proc.devRef .tc main_v0) = Cert.Spec.nodes (M (Proc.devRef .tc main_arg0)) (M (Proc.devRef .tc main_arg1)) := by
  have HW := writes0 (F := F)
  rw [Cert.Ssa.read_binary HW 0 _ _ _ _ _ _ _ rfl M (by decide) (by decide) (by decide)]
  rw [HW.keep (r := main_arg0) (by decide) M]
  rw [HW.keep (r := main_arg1) (by decide) M]
  rfl

theorem read0_side (M : Valuation τ sig (Elt F)) :
    StableHlo.after (hostOps0 (F := F)) M (Proc.devRef .tc main_v13) = Cert.Spec.side (Cert.Spec.nodes (M (Proc.devRef .tc main_arg0)) (M (Proc.devRef .tc main_arg1))) (M (Proc.devRef .tc main_arg6)) (M (Proc.devRef .tc main_arg7)) (M (Proc.devRef .tc main_arg8)) := by
  have HW := writes0 (F := F)
  rw [Cert.Ssa.read_ternary HW 16 _ _ _ _ _ _ _ _ _ rfl M (by decide) (by decide) (by decide) (by decide)]
  rw [Cert.Ssa.read_unary HW 15 _ _ _ _ _ rfl M (by decide) (by decide)]
  rw [Cert.Ssa.read_unary HW 14 _ _ _ _ _ rfl M (by decide) (by decide)]
  rw [Cert.Ssa.read_nullary HW 13 _ _ _ rfl M (by decide)]
  rw [Cert.Ssa.read_binary HW 12 _ _ _ _ _ _ _ rfl M (by decide) (by decide) (by decide)]
  rw [Cert.Ssa.read_unary HW 11 _ _ _ _ _ rfl M (by decide) (by decide)]
  rw [Cert.Ssa.read_unary HW 10 _ _ _ _ _ rfl M (by decide) (by decide)]
  rw [Cert.Ssa.read_binary HW 9 _ _ _ _ _ _ _ rfl M (by decide) (by decide) (by decide)]
  rw [Cert.Ssa.read_unary HW 8 _ _ _ _ _ rfl M (by decide) (by decide)]
  rw [Cert.Ssa.read_ternary HW 7 _ _ _ _ _ _ _ _ _ rfl M (by decide) (by decide) (by decide) (by decide)]
  rw [Cert.Ssa.read_binary HW 6 _ _ _ _ _ _ _ rfl M (by decide) (by decide) (by decide)]
  rw [Cert.Ssa.read_unary HW 5 _ _ _ _ _ rfl M (by decide) (by decide)]
  rw [Cert.Ssa.read_nullary HW 4 _ _ _ rfl M (by decide)]
  rw [Cert.Ssa.read_binary HW 3 _ _ _ _ _ _ _ rfl M (by decide) (by decide) (by decide)]
  rw [Cert.Ssa.read_unary HW 2 _ _ _ _ _ rfl M (by decide) (by decide)]
  rw [Cert.Ssa.read_nullary HW 1 _ _ _ rfl M (by decide)]
  rw [Cert.Ssa.read_binary HW 0 _ _ _ _ _ _ _ rfl M (by decide) (by decide) (by decide)]
  rw [HW.keep (r := main_arg0) (by decide) M]
  rw [HW.keep (r := main_arg1) (by decide) M]
  rw [HW.keep (r := main_arg6) (by decide) M]
  rw [HW.keep (r := main_arg7) (by decide) M]
  rw [HW.keep (r := main_arg8) (by decide) M]
  rfl

theorem read0_w (M : Valuation τ sig (Elt F)) :
    StableHlo.after (hostOps0 (F := F)) M (Proc.devRef .tc main_v15) = Cert.Spec.mat0 (M (Proc.devRef .tc main_arg2)) := by
  have HW := writes0 (F := F)
  rw [Cert.Ssa.read_reshape HW 18 _ _ _ _ _ _ rfl M (by decide) (by decide)]
  rw [Cert.Ssa.read_unary HW 17 _ _ _ _ _ rfl M (by decide) (by decide)]
  rw [HW.keep (r := main_arg2) (by decide) M]
  rfl

theorem read0_b (M : Valuation τ sig (Elt F)) :
    StableHlo.after (hostOps0 (F := F)) M (Proc.devRef .tc main_v17) = Cert.Spec.row0 (M (Proc.devRef .tc main_arg3)) := by
  have HW := writes0 (F := F)
  rw [Cert.Ssa.read_reshape HW 20 _ _ _ _ _ _ rfl M (by decide) (by decide)]
  rw [Cert.Ssa.read_unary HW 19 _ _ _ _ _ rfl M (by decide) (by decide)]
  rw [HW.keep (r := main_arg3) (by decide) M]
  rfl

theorem read0_w' (M : Valuation τ sig (Elt F)) :
    StableHlo.after (hostOps0 (F := F)) M (Proc.devRef .tc main_v19) = Cert.Spec.mat0 (M (Proc.devRef .tc main_arg4)) := by
  have HW := writes0 (F := F)
  rw [Cert.Ssa.read_reshape HW 22 _ _ _ _ _ _ rfl M (by decide) (by decide)]
  rw [Cert.Ssa.read_unary HW 21 _ _ _ _ _ rfl M (by decide) (by decide)]
  rw [HW.keep (r := main_arg4) (by decide) M]
  rfl

theorem read0_b' (M : Valuation τ sig (Elt F)) :
    StableHlo.after (hostOps0 (F := F)) M (Proc.devRef .tc main_v21) = Cert.Spec.row0 (M (Proc.devRef .tc main_arg5)) := by
  have HW := writes0 (F := F)
  rw [Cert.Ssa.read_reshape HW 24 _ _ _ _ _ _ rfl M (by decide) (by decide)]
  rw [Cert.Ssa.read_unary HW 23 _ _ _ _ _ rfl M (by decide) (by decide)]
  rw [HW.keep (r := main_arg5) (by decide) M]
  rfl

/-! ## Between layers 0 and 1 -/

theorem read1_side (M : Valuation τ sig (Elt F)) :
    StableHlo.after (hostOps1 (F := F)) M (Proc.devRef .tc main_v35) = Cert.Spec.side (M (Proc.devRef .tc main_v22_0)) (M (Proc.devRef .tc main_arg6)) (M (Proc.devRef .tc main_arg7)) (M (Proc.devRef .tc main_arg8)) := by
  have HW := writes1 (F := F)
  rw [Cert.Ssa.read_ternary HW 15 _ _ _ _ _ _ _ _ _ rfl M (by decide) (by decide) (by decide) (by decide)]
  rw [Cert.Ssa.read_unary HW 14 _ _ _ _ _ rfl M (by decide) (by decide)]
  rw [Cert.Ssa.read_unary HW 13 _ _ _ _ _ rfl M (by decide) (by decide)]
  rw [Cert.Ssa.read_nullary HW 12 _ _ _ rfl M (by decide)]
  rw [Cert.Ssa.read_binary HW 11 _ _ _ _ _ _ _ rfl M (by decide) (by decide) (by decide)]
  rw [Cert.Ssa.read_unary HW 10 _ _ _ _ _ rfl M (by decide) (by decide)]
  rw [Cert.Ssa.read_unary HW 9 _ _ _ _ _ rfl M (by decide) (by decide)]
  rw [Cert.Ssa.read_binary HW 8 _ _ _ _ _ _ _ rfl M (by decide) (by decide) (by decide)]
  rw [Cert.Ssa.read_unary HW 7 _ _ _ _ _ rfl M (by decide) (by decide)]
  rw [Cert.Ssa.read_ternary HW 6 _ _ _ _ _ _ _ _ _ rfl M (by decide) (by decide) (by decide) (by decide)]
  rw [Cert.Ssa.read_binary HW 5 _ _ _ _ _ _ _ rfl M (by decide) (by decide) (by decide)]
  rw [Cert.Ssa.read_unary HW 4 _ _ _ _ _ rfl M (by decide) (by decide)]
  rw [Cert.Ssa.read_nullary HW 3 _ _ _ rfl M (by decide)]
  rw [Cert.Ssa.read_binary HW 2 _ _ _ _ _ _ _ rfl M (by decide) (by decide) (by decide)]
  rw [Cert.Ssa.read_unary HW 1 _ _ _ _ _ rfl M (by decide) (by decide)]
  rw [Cert.Ssa.read_nullary HW 0 _ _ _ rfl M (by decide)]
  rw [HW.keep (r := main_arg6) (by decide) M]
  rw [HW.keep (r := main_arg7) (by decide) M]
  rw [HW.keep (r := main_arg8) (by decide) M]
  rw [HW.keep (r := main_v22_0) (by decide) M]
  rfl

theorem read1_w (M : Valuation τ sig (Elt F)) :
    StableHlo.after (hostOps1 (F := F)) M (Proc.devRef .tc main_v37) = Cert.Spec.mat1 (M (Proc.devRef .tc main_arg2)) := by
  have HW := writes1 (F := F)
  rw [Cert.Ssa.read_reshape HW 17 _ _ _ _ _ _ rfl M (by decide) (by decide)]
  rw [Cert.Ssa.read_unary HW 16 _ _ _ _ _ rfl M (by decide) (by decide)]
  rw [HW.keep (r := main_arg2) (by decide) M]
  rfl

theorem read1_b (M : Valuation τ sig (Elt F)) :
    StableHlo.after (hostOps1 (F := F)) M (Proc.devRef .tc main_v39) = Cert.Spec.row1 (M (Proc.devRef .tc main_arg3)) := by
  have HW := writes1 (F := F)
  rw [Cert.Ssa.read_reshape HW 19 _ _ _ _ _ _ rfl M (by decide) (by decide)]
  rw [Cert.Ssa.read_unary HW 18 _ _ _ _ _ rfl M (by decide) (by decide)]
  rw [HW.keep (r := main_arg3) (by decide) M]
  rfl

theorem read1_w' (M : Valuation τ sig (Elt F)) :
    StableHlo.after (hostOps1 (F := F)) M (Proc.devRef .tc main_v41) = Cert.Spec.mat1 (M (Proc.devRef .tc main_arg4)) := by
  have HW := writes1 (F := F)
  rw [Cert.Ssa.read_reshape HW 21 _ _ _ _ _ _ rfl M (by decide) (by decide)]
  rw [Cert.Ssa.read_unary HW 20 _ _ _ _ _ rfl M (by decide) (by decide)]
  rw [HW.keep (r := main_arg4) (by decide) M]
  rfl

theorem read1_b' (M : Valuation τ sig (Elt F)) :
    StableHlo.after (hostOps1 (F := F)) M (Proc.devRef .tc main_v43) = Cert.Spec.row1 (M (Proc.devRef .tc main_arg5)) := by
  have HW := writes1 (F := F)
  rw [Cert.Ssa.read_reshape HW 23 _ _ _ _ _ _ rfl M (by decide) (by decide)]
  rw [Cert.Ssa.read_unary HW 22 _ _ _ _ _ rfl M (by decide) (by decide)]
  rw [HW.keep (r := main_arg5) (by decide) M]
  rfl

/-! ## Between layers 1 and 2 -/

theorem read2_side (M : Valuation τ sig (Elt F)) :
    StableHlo.after (hostOps2 (F := F)) M (Proc.devRef .tc main_v57) = Cert.Spec.side (M (Proc.devRef .tc main_v44_0)) (M (Proc.devRef .tc main_arg6)) (M (Proc.devRef .tc main_arg7)) (M (Proc.devRef .tc main_arg8)) := by
  have HW := writes2 (F := F)
  rw [Cert.Ssa.read_ternary HW 15 _ _ _ _ _ _ _ _ _ rfl M (by decide) (by decide) (by decide) (by decide)]
  rw [Cert.Ssa.read_unary HW 14 _ _ _ _ _ rfl M (by decide) (by decide)]
  rw [Cert.Ssa.read_unary HW 13 _ _ _ _ _ rfl M (by decide) (by decide)]
  rw [Cert.Ssa.read_nullary HW 12 _ _ _ rfl M (by decide)]
  rw [Cert.Ssa.read_binary HW 11 _ _ _ _ _ _ _ rfl M (by decide) (by decide) (by decide)]
  rw [Cert.Ssa.read_unary HW 10 _ _ _ _ _ rfl M (by decide) (by decide)]
  rw [Cert.Ssa.read_unary HW 9 _ _ _ _ _ rfl M (by decide) (by decide)]
  rw [Cert.Ssa.read_binary HW 8 _ _ _ _ _ _ _ rfl M (by decide) (by decide) (by decide)]
  rw [Cert.Ssa.read_unary HW 7 _ _ _ _ _ rfl M (by decide) (by decide)]
  rw [Cert.Ssa.read_ternary HW 6 _ _ _ _ _ _ _ _ _ rfl M (by decide) (by decide) (by decide) (by decide)]
  rw [Cert.Ssa.read_binary HW 5 _ _ _ _ _ _ _ rfl M (by decide) (by decide) (by decide)]
  rw [Cert.Ssa.read_unary HW 4 _ _ _ _ _ rfl M (by decide) (by decide)]
  rw [Cert.Ssa.read_nullary HW 3 _ _ _ rfl M (by decide)]
  rw [Cert.Ssa.read_binary HW 2 _ _ _ _ _ _ _ rfl M (by decide) (by decide) (by decide)]
  rw [Cert.Ssa.read_unary HW 1 _ _ _ _ _ rfl M (by decide) (by decide)]
  rw [Cert.Ssa.read_nullary HW 0 _ _ _ rfl M (by decide)]
  rw [HW.keep (r := main_arg6) (by decide) M]
  rw [HW.keep (r := main_arg7) (by decide) M]
  rw [HW.keep (r := main_arg8) (by decide) M]
  rw [HW.keep (r := main_v44_0) (by decide) M]
  rfl

theorem read2_w (M : Valuation τ sig (Elt F)) :
    StableHlo.after (hostOps2 (F := F)) M (Proc.devRef .tc main_v59) = Cert.Spec.mat2 (M (Proc.devRef .tc main_arg2)) := by
  have HW := writes2 (F := F)
  rw [Cert.Ssa.read_reshape HW 17 _ _ _ _ _ _ rfl M (by decide) (by decide)]
  rw [Cert.Ssa.read_unary HW 16 _ _ _ _ _ rfl M (by decide) (by decide)]
  rw [HW.keep (r := main_arg2) (by decide) M]
  rfl

theorem read2_b (M : Valuation τ sig (Elt F)) :
    StableHlo.after (hostOps2 (F := F)) M (Proc.devRef .tc main_v61) = Cert.Spec.row2 (M (Proc.devRef .tc main_arg3)) := by
  have HW := writes2 (F := F)
  rw [Cert.Ssa.read_reshape HW 19 _ _ _ _ _ _ rfl M (by decide) (by decide)]
  rw [Cert.Ssa.read_unary HW 18 _ _ _ _ _ rfl M (by decide) (by decide)]
  rw [HW.keep (r := main_arg3) (by decide) M]
  rfl

theorem read2_w' (M : Valuation τ sig (Elt F)) :
    StableHlo.after (hostOps2 (F := F)) M (Proc.devRef .tc main_v63) = Cert.Spec.mat2 (M (Proc.devRef .tc main_arg4)) := by
  have HW := writes2 (F := F)
  rw [Cert.Ssa.read_reshape HW 21 _ _ _ _ _ _ rfl M (by decide) (by decide)]
  rw [Cert.Ssa.read_unary HW 20 _ _ _ _ _ rfl M (by decide) (by decide)]
  rw [HW.keep (r := main_arg4) (by decide) M]
  rfl

theorem read2_b' (M : Valuation τ sig (Elt F)) :
    StableHlo.after (hostOps2 (F := F)) M (Proc.devRef .tc main_v65) = Cert.Spec.row2 (M (Proc.devRef .tc main_arg5)) := by
  have HW := writes2 (F := F)
  rw [Cert.Ssa.read_reshape HW 23 _ _ _ _ _ _ rfl M (by decide) (by decide)]
  rw [Cert.Ssa.read_unary HW 22 _ _ _ _ _ rfl M (by decide) (by decide)]
  rw [HW.keep (r := main_arg5) (by decide) M]
  rfl

/-! ## After layer 2: the result table and its rows at the three batches of indices -/

theorem read3_u (M : Valuation τ sig (Elt F)) :
    StableHlo.after (hostOps3 (F := F)) M (Proc.devRef .tc main_v74) = Cert.Spec.rowsAt (Cert.Spec.table (M (Proc.devRef .tc main_v0)) (M (Proc.devRef .tc main_v22_1)) (M (Proc.devRef .tc main_v44_1)) (M (Proc.devRef .tc main_v66_1))) (M (Proc.devRef .tc main_arg9)) := by
  have HW := writes3 (F := F)
  rw [Cert.Ssa.read_binary HW 9 _ _ _ _ _ _ _ rfl M (by decide) (by decide) (by decide)]
  rw [Cert.Ssa.read_unary HW 8 _ _ _ _ _ rfl M (by decide) (by decide)]
  rw [Cert.Ssa.read_ternary HW 7 _ _ _ _ _ _ _ _ _ rfl M (by decide) (by decide) (by decide) (by decide)]
  rw [Cert.Ssa.read_binary HW 6 _ _ _ _ _ _ _ rfl M (by decide) (by decide) (by decide)]
  rw [Cert.Ssa.read_unary HW 5 _ _ _ _ _ rfl M (by decide) (by decide)]
  rw [Cert.Ssa.read_nullary HW 4 _ _ _ rfl M (by decide)]
  rw [Cert.Ssa.read_binary HW 3 _ _ _ _ _ _ _ rfl M (by decide) (by decide) (by decide)]
  rw [Cert.Ssa.read_unary HW 2 _ _ _ _ _ rfl M (by decide) (by decide)]
  rw [Cert.Ssa.read_nullary HW 1 _ _ _ rfl M (by decide)]
  rw [Cert.Ssa.read_nary HW 0 _ _ _ _ _ rfl M (by decide) (by decide)]
  rw [HW.keep (r := main_arg9) (by decide) M]
  rw [show (fun j => StableHlo.after (hostOps3 (F := F)) M (Proc.devRef .tc ((![main_v0, main_v22_1, main_v44_1, main_v66_1] : Fin 4 → Ref sig .tc) j)))
      = (fun j => M (Proc.devRef .tc ((![main_v0, main_v22_1, main_v44_1, main_v66_1] : Fin 4 → Ref sig .tc) j))) from
    funext fun j => by
      match j with
      | ⟨0, _⟩ => exact HW.keep (r := main_v0) (by decide) M
      | ⟨1, _⟩ => exact HW.keep (r := main_v22_1) (by decide) M
      | ⟨2, _⟩ => exact HW.keep (r := main_v44_1) (by decide) M
      | ⟨3, _⟩ => exact HW.keep (r := main_v66_1) (by decide) M]
  rfl

theorem read3_i (M : Valuation τ sig (Elt F)) :
    StableHlo.after (hostOps3 (F := F)) M (Proc.devRef .tc main_v83) = Cert.Spec.rowsAt (Cert.Spec.table (M (Proc.devRef .tc main_v0)) (M (Proc.devRef .tc main_v22_1)) (M (Proc.devRef .tc main_v44_1)) (M (Proc.devRef .tc main_v66_1))) (Cert.Spec.itemWord (M (Proc.devRef .tc main_arg10))) := by
  have HW := writes3 (F := F)
  rw [Cert.Ssa.read_binary HW 21 _ _ _ _ _ _ _ rfl M (by decide) (by decide) (by decide)]
  rw [Cert.Ssa.read_unary HW 20 _ _ _ _ _ rfl M (by decide) (by decide)]
  rw [Cert.Ssa.read_ternary HW 19 _ _ _ _ _ _ _ _ _ rfl M (by decide) (by decide) (by decide) (by decide)]
  rw [Cert.Ssa.read_binary HW 18 _ _ _ _ _ _ _ rfl M (by decide) (by decide) (by decide)]
  rw [Cert.Ssa.read_unary HW 17 _ _ _ _ _ rfl M (by decide) (by decide)]
  rw [Cert.Ssa.read_nullary HW 16 _ _ _ rfl M (by decide)]
  rw [Cert.Ssa.read_binary HW 15 _ _ _ _ _ _ _ rfl M (by decide) (by decide) (by decide)]
  rw [Cert.Ssa.read_unary HW 14 _ _ _ _ _ rfl M (by decide) (by decide)]
  rw [Cert.Ssa.read_nullary HW 13 _ _ _ rfl M (by decide)]
  rw [Cert.Ssa.read_binary HW 12 _ _ _ _ _ _ _ rfl M (by decide) (by decide) (by decide)]
  rw [Cert.Ssa.read_unary HW 11 _ _ _ _ _ rfl M (by decide) (by decide)]
  rw [Cert.Ssa.read_nullary HW 10 _ _ _ rfl M (by decide)]
  rw [Cert.Ssa.read_nary HW 0 _ _ _ _ _ rfl M (by decide) (by decide)]
  rw [HW.keep (r := main_arg10) (by decide) M]
  rw [show (fun j => StableHlo.after (hostOps3 (F := F)) M (Proc.devRef .tc ((![main_v0, main_v22_1, main_v44_1, main_v66_1] : Fin 4 → Ref sig .tc) j)))
      = (fun j => M (Proc.devRef .tc ((![main_v0, main_v22_1, main_v44_1, main_v66_1] : Fin 4 → Ref sig .tc) j))) from
    funext fun j => by
      match j with
      | ⟨0, _⟩ => exact HW.keep (r := main_v0) (by decide) M
      | ⟨1, _⟩ => exact HW.keep (r := main_v22_1) (by decide) M
      | ⟨2, _⟩ => exact HW.keep (r := main_v44_1) (by decide) M
      | ⟨3, _⟩ => exact HW.keep (r := main_v66_1) (by decide) M]
  rfl

theorem read3_j (M : Valuation τ sig (Elt F)) :
    StableHlo.after (hostOps3 (F := F)) M (Proc.devRef .tc main_v92) = Cert.Spec.rowsAt (Cert.Spec.table (M (Proc.devRef .tc main_v0)) (M (Proc.devRef .tc main_v22_1)) (M (Proc.devRef .tc main_v44_1)) (M (Proc.devRef .tc main_v66_1))) (Cert.Spec.itemWord (M (Proc.devRef .tc main_arg11))) := by
  have HW := writes3 (F := F)
  rw [Cert.Ssa.read_binary HW 33 _ _ _ _ _ _ _ rfl M (by decide) (by decide) (by decide)]
  rw [Cert.Ssa.read_unary HW 32 _ _ _ _ _ rfl M (by decide) (by decide)]
  rw [Cert.Ssa.read_ternary HW 31 _ _ _ _ _ _ _ _ _ rfl M (by decide) (by decide) (by decide) (by decide)]
  rw [Cert.Ssa.read_binary HW 30 _ _ _ _ _ _ _ rfl M (by decide) (by decide) (by decide)]
  rw [Cert.Ssa.read_unary HW 29 _ _ _ _ _ rfl M (by decide) (by decide)]
  rw [Cert.Ssa.read_nullary HW 28 _ _ _ rfl M (by decide)]
  rw [Cert.Ssa.read_binary HW 27 _ _ _ _ _ _ _ rfl M (by decide) (by decide) (by decide)]
  rw [Cert.Ssa.read_unary HW 26 _ _ _ _ _ rfl M (by decide) (by decide)]
  rw [Cert.Ssa.read_nullary HW 25 _ _ _ rfl M (by decide)]
  rw [Cert.Ssa.read_binary HW 24 _ _ _ _ _ _ _ rfl M (by decide) (by decide) (by decide)]
  rw [Cert.Ssa.read_unary HW 23 _ _ _ _ _ rfl M (by decide) (by decide)]
  rw [Cert.Ssa.read_nullary HW 22 _ _ _ rfl M (by decide)]
  rw [Cert.Ssa.read_nary HW 0 _ _ _ _ _ rfl M (by decide) (by decide)]
  rw [HW.keep (r := main_arg11) (by decide) M]
  rw [show (fun j => StableHlo.after (hostOps3 (F := F)) M (Proc.devRef .tc ((![main_v0, main_v22_1, main_v44_1, main_v66_1] : Fin 4 → Ref sig .tc) j)))
      = (fun j => M (Proc.devRef .tc ((![main_v0, main_v22_1, main_v44_1, main_v66_1] : Fin 4 → Ref sig .tc) j))) from
    funext fun j => by
      match j with
      | ⟨0, _⟩ => exact HW.keep (r := main_v0) (by decide) M
      | ⟨1, _⟩ => exact HW.keep (r := main_v22_1) (by decide) M
      | ⟨2, _⟩ => exact HW.keep (r := main_v44_1) (by decide) M
      | ⟨3, _⟩ => exact HW.keep (r := main_v66_1) (by decide) M]
  rfl

end Cert.KernelIdeal.Hand

end
-- ==== Proof.LayerValue.lean ====
/-
  One layer's arithmetic read at an index, at the ideal values (floats are extended reals).

  A row block of the node table holds 3000 consecutive rows: block t is rows 3000·t … 3000·t + 2999. The layer's
  arithmetic works row by row: the new embedding of a node at channel q depends only on that node's row of `ego` and of
  `side` (two products of a row with a 64×64 matrix, a bias, the leaky rectifier, a sum), and the unit row only on the
  node's new row (its sum of squares, a square root, a floor, a quotient). So the kernel's body on block t and the
  specification's layer on the whole table agree at every index of the block, once both are read as the same function
  of the node's rows: `newAt` and `unitAt` below. On the extended reals a change of float format is the identity, a
  product accumulated onto a zero accumulator is the plain sum over the contracted coordinate, and a reduction from the
  initial value zero is the plain sum, so no rounding and no order of summation is left to compare.
-/
import proofs.«140510_j10118942950095_1_alg».proof.Proof.Spec
import proofs.«140510_j10118942950095_1_alg».proof.Proof.Gen.KernelIdeal.Skeleton
import proofs.«140510_j10118942950095_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.Lib.StackMember

noncomputable section

namespace Cert.KernelIdeal.Hand

open Idealize.ShloMosaic Idealize.ShloMosaic.ValueIdx Cert.KernelIdeal.Gen
open scoped BigOperators

/-! ## A block's index as an index of the table -/

/-- Index (r, q) of row block `t` is index (3000·t + r, q) of the table. -/
def rowAt (t : Fin 50) (y : S3000x64.Idx) : S150000x64.Idx :=
  ix2 (⟨3000 * t.val + (y 0).val, by have := idx2_lt0 y; have := t.isLt; omega⟩ : Fin 150000)
    (⟨(y 1).val, idx2_lt1 y⟩ : Fin 64)

theorem rowAt_val0 (t : Fin 50) (y : S3000x64.Idx) : (rowAt t y 0).val = 3000 * t.val + (y 0).val := rfl
theorem rowAt_val1 (t : Fin 50) (y : S3000x64.Idx) : (rowAt t y 1).val = (y 1).val := rfl

/-- The table's row of block `t`'s row `p`. -/
def rowOf (t : Fin 50) (p : Fin 3000) : Fin 150000 := ⟨3000 * t.val + p.val, by have := t.isLt; have := p.isLt; omega⟩

theorem rowAt_ix2 (t : Fin 50) (p : Fin 3000) (q : Fin 64) : rowAt t (ix2 p q) = ix2 (rowOf t p) q := rfl

/-! ## The scalar functions -/

/-- The leaky rectifier on one value: `x` where `x ≥ 0`, else `0.2 · x` (the constants by their bit patterns). -/
def leakyS (x : EReal) : EReal :=
  Scalar.select (FloatOps.cmpf (F := Ideal) (φ := .f32) .oge x (Scalar.ofBits (F := Ideal) .f32 0x00000000#32)) x
    (FloatOps.mulf (F := Ideal) (φ := .f32) (Scalar.ofBits (F := Ideal) .f32 0x3E4CCCCD#32) x)

/-- The layer's new embedding at channel `q` of a node whose rows of `ego` and `side` are `e` and `s`. -/
def newAt (e s : Fin 64 → EReal) (w : S64x64.Idx → EReal) (b : S1x64.Idx → EReal) (w' : S64x64.Idx → EReal)
    (b' : S1x64.Idx → EReal) (q : Fin 64) : EReal :=
  leakyS ((∑ c : Fin 64, s c * w (ix2 c q)) + b (ix2 (0 : Fin 1) q))
    + leakyS ((∑ c : Fin 64, (e c * s c) * w' (ix2 c q)) + b' (ix2 (0 : Fin 1) q))

/-- A row divided by its length, the length floored at 1e-12 (by its bit pattern), at channel `q`. -/
def unitAt (r : Fin 64 → EReal) (q : Fin 64) : EReal :=
  Ideal.div (r q) (max (Ideal.sqrt (∑ c : Fin 64, r c * r c)) (Ideal.ofBits .f32 0x2B8CBCCC#32))

/-! ## The products -/

theorem dotK_eq : dot_S3000x64_S64x64_S3000x64_1_0_0_1_n_n = DotDims.plain 3000 64 64 := rfl
theorem dotR_eq : Cert.ReferenceIdeal.dot_S150000x64_S64x64_S150000x64_1_0_0_1_n_n = DotDims.plain 150000 64 64 := rfl

/-- The kernel's product of a block (narrowed to bf16, as is the matrix) onto a zero accumulator, at (p, q): the sum
    over the contracted coordinate. -/
theorem matmulK_apply (x : FVec Ideal S3000x64 .f32) (w : FVec Ideal S64x64 .f32) (p : Fin 3000) (q : Fin 64) :
    matmul dot_S3000x64_S64x64_S3000x64_1_0_0_1_n_n none (truncf .bf16 x bitsLt_bf16_f32) (truncf .bf16 w bitsLt_bf16_f32)
        (constant S3000x64 .f32 0x00000000#32) (ix2 p q)
      = ∑ c : Fin 64, x (ix2 p c) * w (ix2 c q) := by
  rw [dotK_eq, matmul_zero_eq_dotGeneral]
  exact StackMember.dotGeneral_plain_apply none _ _ p q

/-- The host's product of the whole table with a matrix, at (P, q): the same sum over row P. -/
theorem dotR_apply (x : FVec Ideal S150000x64 .f32) (w : FVec Ideal S64x64 .f32) (P : Fin 150000) (q : Fin 64) :
    Host.dotGeneral Cert.ReferenceIdeal.dot_S150000x64_S64x64_S150000x64_1_0_0_1_n_n none x w (ix2 P q)
      = ∑ c : Fin 64, x (ix2 P c) * w (ix2 c q) := by
  rw [dotR_eq]
  exact StackMember.dotGeneral_plain_apply none _ _ P q

/-! ## The bias row laid along every row -/

/-- The kernel's bias broadcast down the block's rows, at (p, q): the bias at channel q. -/
theorem biasK_apply (b : FVec Ideal S1x64 .f32) (p : Fin 3000) (q : Fin 64) :
    broadcastTo S3000x64 b broadcasts_S1x64_S3000x64 (ix2 p q) = b (ix2 (0 : Fin 1) q) := by
  refine broadcastTo_apply b broadcasts_S1x64_S3000x64 (ix2 p q) (ix2 (0 : Fin 1) q) ?_
  intro a
  match a with
  | ⟨0, _⟩ => rfl
  | ⟨1, _⟩ => rfl

/-- The host's bias broadcast down the table's rows, at (P, q): the bias at channel q. -/
theorem biasR_apply (b : FVec Ideal S1x64 .f32) (P : Fin 150000) (q : Fin 64) :
    broadcastInDim Cert.ReferenceIdeal.S150000x64 ![0, 1] Cert.ReferenceIdeal.Facts₀.bcast_S1x64_S150000x64_0_1 b (ix2 P q)
      = b (ix2 (0 : Fin 1) q) :=
  broadcastInDim_oneRow_apply _ b P q

/-! ## The new embeddings -/

/-- The kernel's new embeddings at (p, q) of a block: `newAt` of row p of the two blocks. -/
theorem newK_apply (x0 x1 : FVec Ideal S3000x64 .f32) (w : FVec Ideal S64x64 .f32) (b : FVec Ideal S1x64 .f32)
    (w' : FVec Ideal S64x64 .f32) (b' : FVec Ideal S1x64 .f32) (p : Fin 3000) (q : Fin 64) :
    k0_pay2 (F := Ideal) x0 x1 w b w' b' (ix2 p q)
      = newAt (fun c => x0 (ix2 p c)) (fun c => x1 (ix2 p c)) w b w' b' q := by
  unfold k0_pay2
  simp only [shapeCast_self]
  simp only [addf_apply, select_apply, cmpf_apply, mulf_apply, broadcast_apply]
  rw [matmulK_apply x1 w p q, matmulK_apply (mulf x0 x1) w' p q, biasK_apply b p q, biasK_apply b' p q]
  rfl

/-- The specification's new embeddings at (P, q) of the table: `newAt` of row P of the two tables. -/
theorem newR_apply (ego sd : FVec Ideal S150000x64 .f32) (w : FVec Ideal S64x64 .f32) (b : FVec Ideal S1x64 .f32)
    (w' : FVec Ideal S64x64 .f32) (b' : FVec Ideal S1x64 .f32) (P : Fin 150000) (q : Fin 64) :
    Cert.Spec.layerNew (F := Ideal) ego sd w b w' b' (ix2 P q)
      = newAt (fun c => ego (ix2 P c)) (fun c => sd (ix2 P c)) w b w' b' q := by
  unfold Cert.Spec.layerNew Cert.Spec.branch Cert.Spec.leaky
  simp only [addf_apply, select_apply, cmpf_apply, mulf_apply]
  rw [dotR_apply sd w P q, dotR_apply (mulf ego sd) w' P q, biasR_apply b P q, biasR_apply b' P q]
  rfl

/-- THE NEW EMBEDDINGS OF A BLOCK: on blocks `t` of `ego` and `side`, the kernel's new embeddings are block `t` of the
    specification's. -/
theorem new_block (t : Fin 50) (ego sd : FVec Ideal S150000x64 .f32) (x0 x1 : FVec Ideal S3000x64 .f32)
    (w : FVec Ideal S64x64 .f32) (b : FVec Ideal S1x64 .f32) (w' : FVec Ideal S64x64 .f32) (b' : FVec Ideal S1x64 .f32)
    (h0 : ∀ y, x0 y = ego (rowAt t y)) (h1 : ∀ y, x1 y = sd (rowAt t y)) (y : S3000x64.Idx) :
    k0_pay2 (F := Ideal) x0 x1 w b w' b' y = Cert.Spec.layerNew (F := Ideal) ego sd w b w' b' (rowAt t y) := by
  obtain ⟨p, q, rfl⟩ : ∃ (p : Fin 3000) (q : Fin 64), y = ix2 p q := ⟨y 0, y 1, eq_ix2 y⟩
  have e0 : (fun c : Fin 64 => x0 (ix2 p c)) = fun c => ego (ix2 (rowOf t p) c) := funext fun c => h0 (ix2 p c)
  have e1 : (fun c : Fin 64 => x1 (ix2 p c)) = fun c => sd (ix2 (rowOf t p) c) := funext fun c => h1 (ix2 p c)
  rw [newK_apply, rowAt_ix2, newR_apply, e0, e1]

/-! ## The unit rows -/

/-- The kernel's sum over the lanes of a block's squares, at row p. -/
theorem sumsqK_apply (v : FVec Ideal S3000x64 .f32) (p : Fin 3000) :
    multiReduction (F := Ideal) .add [1] S3000 (mulf v v) 0x00000000#32 reduces_S3000x64_S3000 (.inl rfl) rfl (ix1 p)
      = ∑ c : Fin 64, v (ix2 p c) * v (ix2 p c) := by
  refine (Ideal.multiReduction_add_single (mulf v v) _ reduces_S3000x64_S3000 (.inl rfl) rfl (ix1 p)).trans ?_
  show ∑ c : Fin 64, (mulf v v) (reduces_S3000x64_S3000.lift (ix1 p) c) = _
  refine Finset.sum_congr rfl fun c _ => ?_
  have e : reduces_S3000x64_S3000.lift (ix1 p) c = ix2 p c := by
    funext a
    match a with
    | ⟨0, _⟩ => rfl
    | ⟨1, _⟩ => rfl
  rw [e]; rfl

/-- A vector of 3000 entries kept as a column, at (p, 0). -/
theorem colK_apply {α : Type} (z : S3000.Idx → α) (p : Fin 3000) :
    shapeCast S3000x1 z shapeCasts_S3000_S3000x1 (ix2 p (0 : Fin 1)) = z (ix1 p) := by
  refine shapeCast_apply z _ (ix2 p (0 : Fin 1)) (ix1 p) ?_
  rw [Shape.rowMajor_val_two, Shape.rowMajor_val_one]
  show p.val = p.val * 1 + 0
  omega

/-- A column of 3000 entries laid along every lane, at (p, q). -/
theorem lanesK_apply {α : Type} (z : S3000x1.Idx → α) (p : Fin 3000) (q : Fin 64) :
    broadcastTo S3000x64 z broadcasts_S3000x1_S3000x64 (ix2 p q) = z (ix2 p (0 : Fin 1)) := by
  refine broadcastTo_apply z broadcasts_S3000x1_S3000x64 (ix2 p q) (ix2 p (0 : Fin 1)) ?_
  intro a
  match a with
  | ⟨0, _⟩ => rfl
  | ⟨1, _⟩ => rfl

/-- The kernel's unit rows at (p, q) of a block `v`: `unitAt` of row p. -/
theorem unitK_apply (v : FVec Ideal S3000x64 .f32) (p : Fin 3000) (q : Fin 64) :
    k0_pay1 (F := Ideal) v
        (sqrt (shapeCast S3000x1
          (multiReduction (F := Ideal) .add [1] S3000 (mulf v v) 0x00000000#32 reduces_S3000x64_S3000 (.inl rfl) rfl)
          shapeCasts_S3000_S3000x1))
        k0_pay4 (ix2 p q)
      = unitAt (fun c => v (ix2 p c)) q := by
  unfold k0_pay1 k0_pay4
  simp only [divf_apply]
  rw [lanesK_apply]
  simp only [maximumf_apply]
  show Ideal.div (v (ix2 p q))
      (max (Ideal.sqrt (shapeCast S3000x1 _ shapeCasts_S3000_S3000x1 (ix2 p (0 : Fin 1)))) (Ideal.ofBits .f32 0x2B8CBCCC#32)) = _
  rw [colK_apply, sumsqK_apply]
  rfl

/-- The host's sum over the channels of the table's squares (from the initial value zero), at row P. -/
theorem sumsqR_apply (x : FVec Ideal S150000x64 .f32) (P : Fin 150000) :
    Host.reduceAdd (mulf x x) (constant (F := Ideal) Cert.ReferenceIdeal.S_ .f32 0x00000000#32)
        Cert.ReferenceIdeal.Facts₀.reducesTo_S150000x64_S150000_d1 Cert.ReferenceIdeal.Facts₀.h_S_ (ix1 P)
      = ∑ c : Fin 64, x (ix2 P c) * x (ix2 P c) := by
  have hR : Cert.ReferenceIdeal.S150000x64.Reduces [1] Cert.ReferenceIdeal.S150000 := by decide
  rw [hostReduceAdd_apply, Ideal.hostReduceAdd_single _ hR]
  show Ideal.ofBits .f32 0x00000000#32 + ∑ c : Fin 64, (mulf x x) (hR.lift (ix1 P) c) = _
  rw [Ideal.ofBits_zero_f32, zero_add]
  refine Finset.sum_congr rfl fun c _ => ?_
  have e : hR.lift (ix1 P) c = ix2 P c := by
    funext a
    match a with
    | ⟨0, _⟩ => rfl
    | ⟨1, _⟩ => rfl
  rw [e]; rfl

/-- A vector of 150000 entries kept as a column, at (P, 0). -/
theorem colR_apply {α : Type} (z : Cert.ReferenceIdeal.S150000.Idx → α) (P : Fin 150000) :
    broadcastInDim Cert.ReferenceIdeal.S150000x1 ![0] Cert.ReferenceIdeal.Facts₀.bcast_S150000_S150000x1_0 z (ix2 P (0 : Fin 1))
      = z (ix1 P) := by
  refine broadcastInDim_apply ![0] _ z (ix2 P (0 : Fin 1)) (ix1 P) ?_
  intro a
  match a with
  | ⟨0, _⟩ => rfl

/-- A column of 150000 entries laid along every channel, at (P, q). -/
theorem lanesR_apply {α : Type} (z : Cert.ReferenceIdeal.S150000x1.Idx → α) (P : Fin 150000) (q : Fin 64) :
    broadcastInDim Cert.ReferenceIdeal.S150000x64 ![0, 1] Cert.ReferenceIdeal.Facts₀.bcast_S150000x1_S150000x64_0_1 z (ix2 P q)
      = z (ix2 P (0 : Fin 1)) := by
  refine broadcastInDim_apply ![0, 1] _ z (ix2 P q) (ix2 P (0 : Fin 1)) ?_
  intro a
  match a with
  | ⟨0, _⟩ => rfl
  | ⟨1, _⟩ => rfl

/-- The specification's unit rows at (P, q) of a table `x`: `unitAt` of row P. -/
theorem unitR_apply (x : FVec Ideal S150000x64 .f32) (P : Fin 150000) (q : Fin 64) :
    Cert.Spec.unitRows (F := Ideal) x (ix2 P q) = unitAt (fun c => x (ix2 P c)) q := by
  unfold Cert.Spec.unitRows Cert.Spec.rowNorm
  simp only [hostDivf_apply]
  rw [lanesR_apply]
  simp only [maximumf_apply]
  have hs : ∀ {s : Shape} (z : FVec Ideal s .f32) (i : s.Idx), Host.sqrt z i = Ideal.sqrt (z i) := fun _ _ => rfl
  rw [hs, colR_apply, sumsqR_apply, broadcastInDim_scalar_apply]
  rfl

/-- THE UNIT ROWS OF A BLOCK: on blocks `t` of `ego` and `side`, the kernel's second output is block `t` of the
    specification's unit rows. -/
theorem unit_block (t : Fin 50) (ego sd : FVec Ideal S150000x64 .f32) (x0 x1 : FVec Ideal S3000x64 .f32)
    (w : FVec Ideal S64x64 .f32) (b : FVec Ideal S1x64 .f32) (w' : FVec Ideal S64x64 .f32) (b' : FVec Ideal S1x64 .f32)
    (h0 : ∀ y, x0 y = ego (rowAt t y)) (h1 : ∀ y, x1 y = sd (rowAt t y)) (y : S3000x64.Idx) :
    k0_pay1 (F := Ideal) (k0_pay2 x0 x1 w b w' b') (k0_pay3 x0 x1 w b w' b') k0_pay4 y
      = Cert.Spec.layerUnit (F := Ideal) ego sd w b w' b' (rowAt t y) := by
  obtain ⟨p, q, rfl⟩ : ∃ (p : Fin 3000) (q : Fin 64), y = ix2 p q := ⟨y 0, y 1, eq_ix2 y⟩
  refine (unitK_apply (k0_pay2 (F := Ideal) x0 x1 w b w' b') p q).trans ?_
  have e : (fun c : Fin 64 => k0_pay2 (F := Ideal) x0 x1 w b w' b' (ix2 p c))
      = fun c => Cert.Spec.layerNew (F := Ideal) ego sd w b w' b' (ix2 (rowOf t p) c) :=
    funext fun c => new_block t ego sd x0 x1 w b w' b' h0 h1 (ix2 p c)
  rw [rowAt_ix2, e]
  unfold Cert.Spec.layerUnit
  rw [unitR_apply]

/-! ## The three layers' bodies are one body -/

section OneBody
variable {F : FTy → Type} [FloatOps F]

theorem pay1_1 : @k1_pay1 F _ = @k0_pay1 F _ := rfl
theorem pay2_1 : @k1_pay2 F _ = @k0_pay2 F _ := rfl
theorem pay3_1 : @k1_pay3 F _ = @k0_pay3 F _ := rfl
theorem pay4_1 : @k1_pay4 F _ = @k0_pay4 F _ := rfl
theorem pay1_2 : @k2_pay1 F _ = @k0_pay1 F _ := rfl
theorem pay2_2 : @k2_pay2 F _ = @k0_pay2 F _ := rfl
theorem pay3_2 : @k2_pay3 F _ = @k0_pay3 F _ := rfl
theorem pay4_2 : @k2_pay4 F _ = @k0_pay4 F _ := rfl

end OneBody

end Cert.KernelIdeal.Hand

end
-- ==== Proof.KIValue.lean ====
/-
  What each launch of the layer kernel leaves in its two output arrays, at the exact instance: the fifty row blocks
  written back, one per grid point, tile the 150000-row table, and block `t` is rows `3000·t … 3000·t + 2999` of the
  specification's layer applied to the launch's six input arrays — the new embeddings in the first output, the
  unit-length rows in the second.
-/
import proofs.«140510_j10118942950095_1_alg».proof.Proof.KIRegion0
import proofs.«140510_j10118942950095_1_alg».proof.Proof.KIRegion1
import proofs.«140510_j10118942950095_1_alg».proof.Proof.KIRegion2
import proofs.«140510_j10118942950095_1_alg».proof.Proof.LayerValue
import Idealize.ShloMosaic.Lib.Pipeline.Value

set_option maxRecDepth 16384

noncomputable section

namespace Cert.KernelIdeal.Hand

open Idealize.ShloMosaic Idealize.ShloMosaic.TcCoe
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-! ## Launch 0 -/

/-- The printed index maps, decided over the grid: the four row-block windows sit at block `(t, 0)`, the four
    parameter windows at block `(0, 0)`. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- A grid point as one of the fifty row blocks. -/
def pt0 (t : Fin cfg0.N) : Fin 50 := ⟨t.val, lt_of_lt_of_eq t.isLt N_0⟩

/-- Element `y` of window 0's block at point `t` sits at row `3000 · t + y₀`, channel `y₁` of its array. -/
theorem rows0_0 (t : Fin cfg0.N) (y : S3000x64.Idx) : ((cfg0.win 0).blk t).view.emb y = rowAt (pt0 t) y := by
  obtain ⟨e0, e1⟩ := (idx0 t).1
  funext a; apply Fin.ext
  match a with
  | ⟨0, _⟩ => show win0_0.index t (0 : Fin 2) * 3000 + 1 * (y 0).val = 3000 * t.val + (y 0).val; omega
  | ⟨1, _⟩ => show win0_0.index t (1 : Fin 2) * 64 + 1 * (y 1).val = (y 1).val; omega

/-- Element `y` of window 1's block at point `t` sits at row `3000 · t + y₀`, channel `y₁` of its array. -/
theorem rows0_1 (t : Fin cfg0.N) (y : S3000x64.Idx) : ((cfg0.win 1).blk t).view.emb y = rowAt (pt0 t) y := by
  obtain ⟨e0, e1⟩ := (idx0 t).2.1
  funext a; apply Fin.ext
  match a with
  | ⟨0, _⟩ => show win0_1.index t (0 : Fin 2) * 3000 + 1 * (y 0).val = 3000 * t.val + (y 0).val; omega
  | ⟨1, _⟩ => show win0_1.index t (1 : Fin 2) * 64 + 1 * (y 1).val = (y 1).val; omega

/-- Element `y` of window 6's block at point `t` sits at row `3000 · t + y₀`, channel `y₁` of its array. -/
theorem rows0_6 (t : Fin cfg0.N) (y : S3000x64.Idx) : ((cfg0.win 6).blk t).view.emb y = rowAt (pt0 t) y := by
  obtain ⟨e0, e1⟩ := (idx0 t).2.2.2.2.2.2.1
  funext a; apply Fin.ext
  match a with
  | ⟨0, _⟩ => show win0_6.index t (0 : Fin 2) * 3000 + 1 * (y 0).val = 3000 * t.val + (y 0).val; omega
  | ⟨1, _⟩ => show win0_6.index t (1 : Fin 2) * 64 + 1 * (y 1).val = (y 1).val; omega

/-- Element `y` of window 7's block at point `t` sits at row `3000 · t + y₀`, channel `y₁` of its array. -/
theorem rows0_7 (t : Fin cfg0.N) (y : S3000x64.Idx) : ((cfg0.win 7).blk t).view.emb y = rowAt (pt0 t) y := by
  obtain ⟨e0, e1⟩ := (idx0 t).2.2.2.2.2.2.2
  funext a; apply Fin.ext
  match a with
  | ⟨0, _⟩ => show win0_7.index t (0 : Fin 2) * 3000 + 1 * (y 0).val = 3000 * t.val + (y 0).val; omega
  | ⟨1, _⟩ => show win0_7.index t (1 : Fin 2) * 64 + 1 * (y 1).val = (y 1).val; omega

/-- Window 2's one block is its whole array. -/
theorem whole0_2 (c : Dev nD) (t : Fin cfg0.N) : iblk0 V c 2 t = V c main_v15 := by
  obtain ⟨e0, e1⟩ := (idx0 t).2.2.1
  funext y
  show V c main_v15 (((cfg0.win 2).blk t).view.emb y) = V c main_v15 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's one block is its whole array. -/
theorem whole0_3 (c : Dev nD) (t : Fin cfg0.N) : iblk0 V c 3 t = V c main_v17 := by
  obtain ⟨e0, e1⟩ := (idx0 t).2.2.2.1
  funext y
  show V c main_v17 (((cfg0.win 3).blk t).view.emb y) = V c main_v17 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's one block is its whole array. -/
theorem whole0_4 (c : Dev nD) (t : Fin cfg0.N) : iblk0 V c 4 t = V c main_v19 := by
  obtain ⟨e0, e1⟩ := (idx0 t).2.2.2.2.1
  funext y
  show V c main_v19 (((cfg0.win 4).blk t).view.emb y) = V c main_v19 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5's one block is its whole array. -/
theorem whole0_5 (c : Dev nD) (t : Fin cfg0.N) : iblk0 V c 5 t = V c main_v21 := by
  obtain ⟨e0, e1⟩ := (idx0 t).2.2.2.2.2.1
  funext y
  show V c main_v21 (((cfg0.win 5).blk t).view.emb y) = V c main_v21 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- What point `t` writes back to the first output is block `t` of the layer's new embeddings. -/
theorem flushed0_6 (c : Dev nD) (t : Fin cfg0.N) :
    (dat0 V c).flushed 6 t = ((cfg0.win 6).blk t).view.read (Elt Ideal) (Cert.Spec.layerNew (F := Ideal) (V c main_v0) (V c main_v13) (V c main_v15) (V c main_v17) (V c main_v19) (V c main_v21)) := by
  show (cfg0.win 6).cut (grid0.coords t) ((dat0 V c).after 6 t) = _
  rw [after0_6]
  unfold out0_6
  rw [View.canon_unit_zero zero2]
  simp only [View.ld_unit_zero (S := S3000x64) zero2, View.ld_unit_zero (S := S64x64) zero2, View.ld_unit_zero (S := S1x64) zero2]
  funext j
  show k0_pay2 (F := Ideal) (iblk0 V c 0 t) (iblk0 V c 1 t) (iblk0 V c 2 t) (iblk0 V c 3 t) (iblk0 V c 4 t) (iblk0 V c 5 t) j = Cert.Spec.layerNew (F := Ideal) (V c main_v0) (V c main_v13) (V c main_v15) (V c main_v17) (V c main_v19) (V c main_v21) (((cfg0.win 6).blk t).view.emb j)
  rw [rows0_6 t j, whole0_2 V c t, whole0_3 V c t, whole0_4 V c t, whole0_5 V c t]
  exact new_block (pt0 t) (V c main_v0) (V c main_v13) (iblk0 V c 0 t) (iblk0 V c 1 t) (V c main_v15) (V c main_v17) (V c main_v19) (V c main_v21)
    (fun y => congrArg (V c main_v0) (rows0_0 t y)) (fun y => congrArg (V c main_v13) (rows0_1 t y)) j

/-- What point `t` writes back to the second output is block `t` of the layer's unit-length rows. -/
theorem flushed0_7 (c : Dev nD) (t : Fin cfg0.N) :
    (dat0 V c).flushed 7 t = ((cfg0.win 7).blk t).view.read (Elt Ideal) (Cert.Spec.layerUnit (F := Ideal) (V c main_v0) (V c main_v13) (V c main_v15) (V c main_v17) (V c main_v19) (V c main_v21)) := by
  show (cfg0.win 7).cut (grid0.coords t) ((dat0 V c).after 7 t) = _
  rw [after0_7]
  unfold out0_7
  rw [View.canon_unit_zero zero2]
  simp only [View.ld_unit_zero (S := S3000x64) zero2, View.ld_unit_zero (S := S64x64) zero2, View.ld_unit_zero (S := S1x64) zero2]
  funext j
  show k0_pay1 (F := Ideal) (k0_pay2 (iblk0 V c 0 t) (iblk0 V c 1 t) (iblk0 V c 2 t) (iblk0 V c 3 t) (iblk0 V c 4 t) (iblk0 V c 5 t)) (k0_pay3 (iblk0 V c 0 t) (iblk0 V c 1 t) (iblk0 V c 2 t) (iblk0 V c 3 t) (iblk0 V c 4 t) (iblk0 V c 5 t)) k0_pay4 j
    = Cert.Spec.layerUnit (F := Ideal) (V c main_v0) (V c main_v13) (V c main_v15) (V c main_v17) (V c main_v19) (V c main_v21) (((cfg0.win 7).blk t).view.emb j)
  rw [rows0_7 t j, whole0_2 V c t, whole0_3 V c t, whole0_4 V c t, whole0_5 V c t]
  exact unit_block (pt0 t) (V c main_v0) (V c main_v13) (iblk0 V c 0 t) (iblk0 V c 1 t) (V c main_v15) (V c main_v17) (V c main_v19) (V c main_v21)
    (fun y => congrArg (V c main_v0) (rows0_0 t y)) (fun y => congrArg (V c main_v13) (rows0_1 t y)) j

/-- An index of the table is in point `t`'s block of output 1 iff its row is among the block's 3000 and its channel among the 64. -/
theorem mem_blk0_6 (t : Fin cfg0.N) (i : S150000x64.Idx) :
    i ∈ ((cfg0.win 6).blk t).view.set ↔ ∀ a : Fin 2, win0_6.index t a * S3000x64.size a ≤ (i a).val ∧ (i a).val < win0_6.index t a * S3000x64.size a + S3000x64.size a := by
  show i ∈ ((View.whole main_v22_0).slice (win0_6.rect t)).set ↔ _
  rw [View.set_slice_whole, Rect.mem_set_unit]
  exact Iff.rfl

/-- Every index of the table is in the block of the point `row / 3000`. -/
theorem cover0_6 (i : S150000x64.Idx) : ∃ t : Fin cfg0.N, (cfg0.win 6).flush t = true ∧ i ∈ ((cfg0.win 6).blk t).view.set := by
  have hi0 : (i 0).val < 150000 := (i 0).isLt
  have hi1 : (i 1).val < 64 := (i 1).isLt
  have hN : cfg0.N = 50 := N_0
  let t : Fin cfg0.N := ⟨(i 0).val / 3000, by rw [hN]; omega⟩
  have ht : t.val = (i 0).val / 3000 := rfl
  obtain ⟨e0, e1⟩ := (idx0 t).2.2.2.2.2.2.1
  refine ⟨t, flush0_6 t, ?_⟩
  rw [mem_blk0_6]
  intro a
  match a with
  | ⟨0, _⟩ => show win0_6.index t (0 : Fin 2) * 3000 ≤ (i 0).val ∧ (i 0).val < win0_6.index t (0 : Fin 2) * 3000 + 3000; omega
  | ⟨1, _⟩ => show win0_6.index t (1 : Fin 2) * 64 ≤ (i 1).val ∧ (i 1).val < win0_6.index t (1 : Fin 2) * 64 + 64; omega

/-- An index of the table is in point `t`'s block of output 2 iff its row is among the block's 3000 and its channel among the 64. -/
theorem mem_blk0_7 (t : Fin cfg0.N) (i : S150000x64.Idx) :
    i ∈ ((cfg0.win 7).blk t).view.set ↔ ∀ a : Fin 2, win0_7.index t a * S3000x64.size a ≤ (i a).val ∧ (i a).val < win0_7.index t a * S3000x64.size a + S3000x64.size a := by
  show i ∈ ((View.whole main_v22_1).slice (win0_7.rect t)).set ↔ _
  rw [View.set_slice_whole, Rect.mem_set_unit]
  exact Iff.rfl

/-- Every index of the table is in the block of the point `row / 3000`. -/
theorem cover0_7 (i : S150000x64.Idx) : ∃ t : Fin cfg0.N, (cfg0.win 7).flush t = true ∧ i ∈ ((cfg0.win 7).blk t).view.set := by
  have hi0 : (i 0).val < 150000 := (i 0).isLt
  have hi1 : (i 1).val < 64 := (i 1).isLt
  have hN : cfg0.N = 50 := N_0
  let t : Fin cfg0.N := ⟨(i 0).val / 3000, by rw [hN]; omega⟩
  have ht : t.val = (i 0).val / 3000 := rfl
  obtain ⟨e0, e1⟩ := (idx0 t).2.2.2.2.2.2.2
  refine ⟨t, flush0_7 t, ?_⟩
  rw [mem_blk0_7]
  intro a
  match a with
  | ⟨0, _⟩ => show win0_7.index t (0 : Fin 2) * 3000 ≤ (i 0).val ∧ (i 0).val < win0_7.index t (0 : Fin 2) * 3000 + 3000; omega
  | ⟨1, _⟩ => show win0_7.index t (1 : Fin 2) * 64 ≤ (i 1).val ∧ (i 1).val < win0_7.index t (1 : Fin 2) * 64 + 64; omega

/-- After the launch its first output array holds the layer's new embeddings of its six input arrays. -/
theorem arr0_new (c : Dev nD) : (dat0 V c).arrAt 6 cfg0.N = Cert.Spec.layerNew (F := Ideal) (V c main_v0) (V c main_v13) (V c main_v15) (V c main_v17) (V c main_v19) (V c main_v21) :=
  (dat0 V c).arrAt_eq_of_cover 6 _ (fun t _ => flushed0_6 V c t) cover0_6

/-- and its second the layer's unit-length rows. -/
theorem arr0_unit (c : Dev nD) : (dat0 V c).arrAt 7 cfg0.N = Cert.Spec.layerUnit (F := Ideal) (V c main_v0) (V c main_v13) (V c main_v15) (V c main_v17) (V c main_v19) (V c main_v21) :=
  (dat0 V c).arrAt_eq_of_cover 7 _ (fun t _ => flushed0_7 V c t) cover0_7

/-! ## Launch 1 -/

/-- The printed index maps, decided over the grid: the four row-block windows sit at block `(t, 0)`, the four
    parameter windows at block `(0, 0)`. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- A grid point as one of the fifty row blocks. -/
def pt1 (t : Fin cfg1.N) : Fin 50 := ⟨t.val, lt_of_lt_of_eq t.isLt N_1⟩

/-- Element `y` of window 0's block at point `t` sits at row `3000 · t + y₀`, channel `y₁` of its array. -/
theorem rows1_0 (t : Fin cfg1.N) (y : S3000x64.Idx) : ((cfg1.win 0).blk t).view.emb y = rowAt (pt1 t) y := by
  obtain ⟨e0, e1⟩ := (idx1 t).1
  funext a; apply Fin.ext
  match a with
  | ⟨0, _⟩ => show win1_0.index t (0 : Fin 2) * 3000 + 1 * (y 0).val = 3000 * t.val + (y 0).val; omega
  | ⟨1, _⟩ => show win1_0.index t (1 : Fin 2) * 64 + 1 * (y 1).val = (y 1).val; omega

/-- Element `y` of window 1's block at point `t` sits at row `3000 · t + y₀`, channel `y₁` of its array. -/
theorem rows1_1 (t : Fin cfg1.N) (y : S3000x64.Idx) : ((cfg1.win 1).blk t).view.emb y = rowAt (pt1 t) y := by
  obtain ⟨e0, e1⟩ := (idx1 t).2.1
  funext a; apply Fin.ext
  match a with
  | ⟨0, _⟩ => show win1_1.index t (0 : Fin 2) * 3000 + 1 * (y 0).val = 3000 * t.val + (y 0).val; omega
  | ⟨1, _⟩ => show win1_1.index t (1 : Fin 2) * 64 + 1 * (y 1).val = (y 1).val; omega

/-- Element `y` of window 6's block at point `t` sits at row `3000 · t + y₀`, channel `y₁` of its array. -/
theorem rows1_6 (t : Fin cfg1.N) (y : S3000x64.Idx) : ((cfg1.win 6).blk t).view.emb y = rowAt (pt1 t) y := by
  obtain ⟨e0, e1⟩ := (idx1 t).2.2.2.2.2.2.1
  funext a; apply Fin.ext
  match a with
  | ⟨0, _⟩ => show win1_6.index t (0 : Fin 2) * 3000 + 1 * (y 0).val = 3000 * t.val + (y 0).val; omega
  | ⟨1, _⟩ => show win1_6.index t (1 : Fin 2) * 64 + 1 * (y 1).val = (y 1).val; omega

/-- Element `y` of window 7's block at point `t` sits at row `3000 · t + y₀`, channel `y₁` of its array. -/
theorem rows1_7 (t : Fin cfg1.N) (y : S3000x64.Idx) : ((cfg1.win 7).blk t).view.emb y = rowAt (pt1 t) y := by
  obtain ⟨e0, e1⟩ := (idx1 t).2.2.2.2.2.2.2
  funext a; apply Fin.ext
  match a with
  | ⟨0, _⟩ => show win1_7.index t (0 : Fin 2) * 3000 + 1 * (y 0).val = 3000 * t.val + (y 0).val; omega
  | ⟨1, _⟩ => show win1_7.index t (1 : Fin 2) * 64 + 1 * (y 1).val = (y 1).val; omega

/-- Window 2's one block is its whole array. -/
theorem whole1_2 (c : Dev nD) (t : Fin cfg1.N) : iblk1 V c 2 t = V c main_v37 := by
  obtain ⟨e0, e1⟩ := (idx1 t).2.2.1
  funext y
  show V c main_v37 (((cfg1.win 2).blk t).view.emb y) = V c main_v37 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3's one block is its whole array. -/
theorem whole1_3 (c : Dev nD) (t : Fin cfg1.N) : iblk1 V c 3 t = V c main_v39 := by
  obtain ⟨e0, e1⟩ := (idx1 t).2.2.2.1
  funext y
  show V c main_v39 (((cfg1.win 3).blk t).view.emb y) = V c main_v39 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's one block is its whole array. -/
theorem whole1_4 (c : Dev nD) (t : Fin cfg1.N) : iblk1 V c 4 t = V c main_v41 := by
  obtain ⟨e0, e1⟩ := (idx1 t).2.2.2.2.1
  funext y
  show V c main_v41 (((cfg1.win 4).blk t).view.emb y) = V c main_v41 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Window 5's one block is its whole array. -/
theorem whole1_5 (c : Dev nD) (t : Fin cfg1.N) : iblk1 V c 5 t = V c main_v43 := by
  obtain ⟨e0, e1⟩ := (idx1 t).2.2.2.2.2.1
  funext y
  show V c main_v43 (((cfg1.win 5).blk t).view.emb y) = V c main_v43 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- What point `t` writes back to the first output is block `t` of the layer's new embeddings. -/
theorem flushed1_6 (c : Dev nD) (t : Fin cfg1.N) :
    (dat1 V c).flushed 6 t = ((cfg1.win 6).blk t).view.read (Elt Ideal) (Cert.Spec.layerNew (F := Ideal) (V c main_v22_0) (V c main_v35) (V c main_v37) (V c main_v39) (V c main_v41) (V c main_v43)) := by
  show (cfg1.win 6).cut (grid1.coords t) ((dat1 V c).after 6 t) = _
  rw [after1_6]
  unfold out1_6
  rw [View.canon_unit_zero zero2]
  simp only [View.ld_unit_zero (S := S3000x64) zero2, View.ld_unit_zero (S := S64x64) zero2, View.ld_unit_zero (S := S1x64) zero2]
  rw [pay2_1]
  funext j
  show k0_pay2 (F := Ideal) (iblk1 V c 0 t) (iblk1 V c 1 t) (iblk1 V c 2 t) (iblk1 V c 3 t) (iblk1 V c 4 t) (iblk1 V c 5 t) j = Cert.Spec.layerNew (F := Ideal) (V c main_v22_0) (V c main_v35) (V c main_v37) (V c main_v39) (V c main_v41) (V c main_v43) (((cfg1.win 6).blk t).view.emb j)
  rw [rows1_6 t j, whole1_2 V c t, whole1_3 V c t, whole1_4 V c t, whole1_5 V c t]
  exact new_block (pt1 t) (V c main_v22_0) (V c main_v35) (iblk1 V c 0 t) (iblk1 V c 1 t) (V c main_v37) (V c main_v39) (V c main_v41) (V c main_v43)
    (fun y => congrArg (V c main_v22_0) (rows1_0 t y)) (fun y => congrArg (V c main_v35) (rows1_1 t y)) j

/-- What point `t` writes back to the second output is block `t` of the layer's unit-length rows. -/
theorem flushed1_7 (c : Dev nD) (t : Fin cfg1.N) :
    (dat1 V c).flushed 7 t = ((cfg1.win 7).blk t).view.read (Elt Ideal) (Cert.Spec.layerUnit (F := Ideal) (V c main_v22_0) (V c main_v35) (V c main_v37) (V c main_v39) (V c main_v41) (V c main_v43)) := by
  show (cfg1.win 7).cut (grid1.coords t) ((dat1 V c).after 7 t) = _
  rw [after1_7]
  unfold out1_7
  rw [View.canon_unit_zero zero2]
  simp only [View.ld_unit_zero (S := S3000x64) zero2, View.ld_unit_zero (S := S64x64) zero2, View.ld_unit_zero (S := S1x64) zero2]
  rw [pay1_1, pay2_1, pay3_1, pay4_1]
  funext j
  show k0_pay1 (F := Ideal) (k0_pay2 (iblk1 V c 0 t) (iblk1 V c 1 t) (iblk1 V c 2 t) (iblk1 V c 3 t) (iblk1 V c 4 t) (iblk1 V c 5 t)) (k0_pay3 (iblk1 V c 0 t) (iblk1 V c 1 t) (iblk1 V c 2 t) (iblk1 V c 3 t) (iblk1 V c 4 t) (iblk1 V c 5 t)) k0_pay4 j
    = Cert.Spec.layerUnit (F := Ideal) (V c main_v22_0) (V c main_v35) (V c main_v37) (V c main_v39) (V c main_v41) (V c main_v43) (((cfg1.win 7).blk t).view.emb j)
  rw [rows1_7 t j, whole1_2 V c t, whole1_3 V c t, whole1_4 V c t, whole1_5 V c t]
  exact unit_block (pt1 t) (V c main_v22_0) (V c main_v35) (iblk1 V c 0 t) (iblk1 V c 1 t) (V c main_v37) (V c main_v39) (V c main_v41) (V c main_v43)
    (fun y => congrArg (V c main_v22_0) (rows1_0 t y)) (fun y => congrArg (V c main_v35) (rows1_1 t y)) j

/-- An index of the table is in point `t`'s block of output 1 iff its row is among the block's 3000 and its channel among the 64. -/
theorem mem_blk1_6 (t : Fin cfg1.N) (i : S150000x64.Idx) :
    i ∈ ((cfg1.win 6).blk t).view.set ↔ ∀ a : Fin 2, win1_6.index t a * S3000x64.size a ≤ (i a).val ∧ (i a).val < win1_6.index t a * S3000x64.size a + S3000x64.size a := by
  show i ∈ ((View.whole main_v44_0).slice (win1_6.rect t)).set ↔ _
  rw [View.set_slice_whole, Rect.mem_set_unit]
  exact Iff.rfl

/-- Every index of the table is in the block of the point `row / 3000`. -/
theorem cover1_6 (i : S150000x64.Idx) : ∃ t : Fin cfg1.N, (cfg1.win 6).flush t = true ∧ i ∈ ((cfg1.win 6).blk t).view.set := by
  have hi0 : (i 0).val < 150000 := (i 0).isLt
  have hi1 : (i 1).val < 64 := (i 1).isLt
  have hN : cfg1.N = 50 := N_1
  let t : Fin cfg1.N := ⟨(i 0).val / 3000, by rw [hN]; omega⟩
  have ht : t.val = (i 0).val / 3000 := rfl
  obtain ⟨e0, e1⟩ := (idx1 t).2.2.2.2.2.2.1
  refine ⟨t, flush1_6 t, ?_⟩
  rw [mem_blk1_6]
  intro a
  match a with
  | ⟨0, _⟩ => show win1_6.index t (0 : Fin 2) * 3000 ≤ (i 0).val ∧ (i 0).val < win1_6.index t (0 : Fin 2) * 3000 + 3000; omega
  | ⟨1, _⟩ => show win1_6.index t (1 : Fin 2) * 64 ≤ (i 1).val ∧ (i 1).val < win1_6.index t (1 : Fin 2) * 64 + 64; omega

/-- An index of the table is in point `t`'s block of output 2 iff its row is among the block's 3000 and its channel among the 64. -/
theorem mem_blk1_7 (t : Fin cfg1.N) (i : S150000x64.Idx) :
    i ∈ ((cfg1.win 7).blk t).view.set ↔ ∀ a : Fin 2, win1_7.index t a * S3000x64.size a ≤ (i a).val ∧ (i a).val < win1_7.index t a * S3000x64.size a + S3000x64.size a := by
  show i ∈ ((View.whole main_v44_1).slice (win1_7.rect t)).set ↔ _
  rw [View.set_slice_whole, Rect.mem_set_unit]
  exact Iff.rfl

/-- Every index of the table is in the block of the point `row / 3000`. -/
theorem cover1_7 (i : S150000x64.Idx) : ∃ t : Fin cfg1.N, (cfg1.win 7).flush t = true ∧ i ∈ ((cfg1.win 7).blk t).view.set := by
  have hi0 : (i 0).val < 150000 := (i 0).isLt
  have hi1 : (i 1).val < 64 := (i 1).isLt
  have hN : cfg1.N = 50 := N_1
  let t : Fin cfg1.N := ⟨(i 0).val / 3000, by rw [hN]; omega⟩
  have ht : t.val = (i 0).val / 3000 := rfl
  obtain ⟨e0, e1⟩ := (idx1 t).2.2.2.2.2.2.2
  refine ⟨t, flush1_7 t, ?_⟩
  rw [mem_blk1_7]
  intro a
  match a with
  | ⟨0, _⟩ => show win1_7.index t (0 : Fin 2) * 3000 ≤ (i 0).val ∧ (i 0).val < win1_7.index t (0 : Fin 2) * 3000 + 3000; omega
  | ⟨1, _⟩ => show win1_7.index t (1 : Fin 2) * 64 ≤ (i 1).val ∧ (i 1).val < win1_7.index t (1 : Fin 2) * 64 + 64; omega

/-- After the launch its first output array holds the layer's new embeddings of its six input arrays. -/
theorem arr1_new (c : Dev nD) : (dat1 V c).arrAt 6 cfg1.N = Cert.Spec.layerNew (F := Ideal) (V c main_v22_0) (V c main_v35) (V c main_v37) (V c main_v39) (V c main_v41) (V c main_v43) :=
  (dat1 V c).arrAt_eq_of_cover 6 _ (fun t _ => flushed1_6 V c t) cover1_6

/-- and its second the layer's unit-length rows. -/
theorem arr1_unit (c : Dev nD) : (dat1 V c).arrAt 7 cfg1.N = Cert.Spec.layerUnit (F := Ideal) (V c main_v22_0) (V c main_v35) (V c main_v37) (V c main_v39) (V c main_v41) (V c main_v43) :=
  (dat1 V c).arrAt_eq_of_cover 7 _ (fun t _ => flushed1_7 V c t) cover1_7

/-! ## Launch 2 -/

/-- The printed index maps, decided over the grid: the four row-block windows sit at block `(t, 0)`, the four
    parameter windows at block `(0, 0)`. -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-- A grid point as one of the fifty row blocks. -/
def pt2 (t : Fin cfg2.N) : Fin 50 := ⟨t.val, lt_of_lt_of_eq t.isLt N_2⟩

/-- Element `y` of window 0's block at point `t` sits at row `3000 · t + y₀`, channel `y₁` of its array. -/
theorem rows2_0 (t : Fin cfg2.N) (y : S3000x64.Idx) : ((cfg2.win 0).blk t).view.emb y = rowAt (pt2 t) y := by
  obtain ⟨e0, e1⟩ := (idx2 t).1
  funext a; apply Fin.ext
  match a with
  | ⟨0, _⟩ => show win2_0.index t (0 : Fin 2) * 3000 + 1 * (y 0).val = 3000 * t.val + (y 0).val; omega
  | ⟨1, _⟩ => show win2_0.index t (1 : Fin 2) * 64 + 1 * (y 1).val = (y 1).val; omega

/-- Element `y` of window 1's block at point `t` sits at row `3000 · t + y₀`, channel `y₁` of its array. -/
theorem rows2_1 (t : Fin cfg2.N) (y : S3000x64.Idx) : ((cfg2.win 1).blk t).view.emb y = rowAt (pt2 t) y := by
  obtain ⟨e0, e1⟩ := (idx2 t).2.1
  funext a; apply Fin.ext
  match a with
  | ⟨0, _⟩ => show win2_1.index t (0 : Fin 2) * 3000 + 1 * (y 0).val = 3000 * t.val + (y 0).val; omega
  | ⟨1, _⟩ => show win2_1.index t (1 : Fin 2) * 64 + 1 * (y 1).val = (y 1).val; omega

/-- Element `y` of window 6's block at point `t` sits at row `3000 · t + y₀`, channel `y₁` of its array. -/
theorem rows2_6 (t : Fin cfg2.N) (y : S3000x64.Idx) : ((cfg2.win 6).blk t).view.emb y = rowAt (pt2 t) y := by
  obtain ⟨e0, e1⟩ := (idx2 t).2.2.2.2.2.2.1
  funext a; apply Fin.ext
  match a with
  | ⟨0, _⟩ => show win2_6.index t (0 : Fin 2) * 3000 + 1 * (y 0).val = 3000 * t.val + (y 0).val; omega
  | ⟨1, _⟩ => show win2_6.index t (1 : Fin 2) * 64 + 1 * (y 1).val = (y 1).val; omega

/-- Element `y` of window 7's block at point `t` sits at row `3000 · t + y₀`, channel `y₁` of its array. -/
theorem rows2_7 (t : Fin cfg2.N) (y : S3000x64.Idx) : ((cfg2.win 7).blk t).view.emb y = rowAt (pt2 t) y := by
  obtain ⟨e0, e1⟩ := (idx2 t).2.2.2.2.2.2.2
  funext a; apply Fin.ext
  match a with
  | ⟨0, _⟩ => show win2_7.index t (0 : Fin 2) * 3000 + 1 * (y 0).val = 3000 * t.val + (y 0).val; omega
  | ⟨1, _⟩ => show win2_7.index t (1 : Fin 2) * 64 + 1 * (y 1).val = (y 1).val; omega

/-- Window 2's one block is its whole array. -/
theorem whole2_2 (c : Dev nD) (t : Fin cfg2.N) : iblk2 V c 2 t = V c main_v59 := by
  obtain ⟨e0, e1⟩ := (idx2 t).2.2.1
  funext y
  show V c main_v59 (((cfg2.win 2).blk t).view.emb y) = V c main_v59 y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3's one block is its whole array. -/
theorem whole2_3 (c : Dev nD) (t : Fin cfg2.N) : iblk2 V c 3 t = V c main_v61 := by
  obtain ⟨e0, e1⟩ := (idx2 t).2.2.2.1
  funext y
  show V c main_v61 (((cfg2.win 3).blk t).view.emb y) = V c main_v61 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Window 4's one block is its whole array. -/
theorem whole2_4 (c : Dev nD) (t : Fin cfg2.N) : iblk2 V c 4 t = V c main_v63 := by
  obtain ⟨e0, e1⟩ := (idx2 t).2.2.2.2.1
  funext y
  show V c main_v63 (((cfg2.win 4).blk t).view.emb y) = V c main_v63 y
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- Window 5's one block is its whole array. -/
theorem whole2_5 (c : Dev nD) (t : Fin cfg2.N) : iblk2 V c 5 t = V c main_v65 := by
  obtain ⟨e0, e1⟩ := (idx2 t).2.2.2.2.2.1
  funext y
  show V c main_v65 (((cfg2.win 5).blk t).view.emb y) = V c main_v65 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- What point `t` writes back to the first output is block `t` of the layer's new embeddings. -/
theorem flushed2_6 (c : Dev nD) (t : Fin cfg2.N) :
    (dat2 V c).flushed 6 t = ((cfg2.win 6).blk t).view.read (Elt Ideal) (Cert.Spec.layerNew (F := Ideal) (V c main_v44_0) (V c main_v57) (V c main_v59) (V c main_v61) (V c main_v63) (V c main_v65)) := by
  show (cfg2.win 6).cut (grid2.coords t) ((dat2 V c).after 6 t) = _
  rw [after2_6]
  unfold out2_6
  rw [View.canon_unit_zero zero2]
  simp only [View.ld_unit_zero (S := S3000x64) zero2, View.ld_unit_zero (S := S64x64) zero2, View.ld_unit_zero (S := S1x64) zero2]
  rw [pay2_2]
  funext j
  show k0_pay2 (F := Ideal) (iblk2 V c 0 t) (iblk2 V c 1 t) (iblk2 V c 2 t) (iblk2 V c 3 t) (iblk2 V c 4 t) (iblk2 V c 5 t) j = Cert.Spec.layerNew (F := Ideal) (V c main_v44_0) (V c main_v57) (V c main_v59) (V c main_v61) (V c main_v63) (V c main_v65) (((cfg2.win 6).blk t).view.emb j)
  rw [rows2_6 t j, whole2_2 V c t, whole2_3 V c t, whole2_4 V c t, whole2_5 V c t]
  exact new_block (pt2 t) (V c main_v44_0) (V c main_v57) (iblk2 V c 0 t) (iblk2 V c 1 t) (V c main_v59) (V c main_v61) (V c main_v63) (V c main_v65)
    (fun y => congrArg (V c main_v44_0) (rows2_0 t y)) (fun y => congrArg (V c main_v57) (rows2_1 t y)) j

/-- What point `t` writes back to the second output is block `t` of the layer's unit-length rows. -/
theorem flushed2_7 (c : Dev nD) (t : Fin cfg2.N) :
    (dat2 V c).flushed 7 t = ((cfg2.win 7).blk t).view.read (Elt Ideal) (Cert.Spec.layerUnit (F := Ideal) (V c main_v44_0) (V c main_v57) (V c main_v59) (V c main_v61) (V c main_v63) (V c main_v65)) := by
  show (cfg2.win 7).cut (grid2.coords t) ((dat2 V c).after 7 t) = _
  rw [after2_7]
  unfold out2_7
  rw [View.canon_unit_zero zero2]
  simp only [View.ld_unit_zero (S := S3000x64) zero2, View.ld_unit_zero (S := S64x64) zero2, View.ld_unit_zero (S := S1x64) zero2]
  rw [pay1_2, pay2_2, pay3_2, pay4_2]
  funext j
  show k0_pay1 (F := Ideal) (k0_pay2 (iblk2 V c 0 t) (iblk2 V c 1 t) (iblk2 V c 2 t) (iblk2 V c 3 t) (iblk2 V c 4 t) (iblk2 V c 5 t)) (k0_pay3 (iblk2 V c 0 t) (iblk2 V c 1 t) (iblk2 V c 2 t) (iblk2 V c 3 t) (iblk2 V c 4 t) (iblk2 V c 5 t)) k0_pay4 j
    = Cert.Spec.layerUnit (F := Ideal) (V c main_v44_0) (V c main_v57) (V c main_v59) (V c main_v61) (V c main_v63) (V c main_v65) (((cfg2.win 7).blk t).view.emb j)
  rw [rows2_7 t j, whole2_2 V c t, whole2_3 V c t, whole2_4 V c t, whole2_5 V c t]
  exact unit_block (pt2 t) (V c main_v44_0) (V c main_v57) (iblk2 V c 0 t) (iblk2 V c 1 t) (V c main_v59) (V c main_v61) (V c main_v63) (V c main_v65)
    (fun y => congrArg (V c main_v44_0) (rows2_0 t y)) (fun y => congrArg (V c main_v57) (rows2_1 t y)) j

/-- An index of the table is in point `t`'s block of output 1 iff its row is among the block's 3000 and its channel among the 64. -/
theorem mem_blk2_6 (t : Fin cfg2.N) (i : S150000x64.Idx) :
    i ∈ ((cfg2.win 6).blk t).view.set ↔ ∀ a : Fin 2, win2_6.index t a * S3000x64.size a ≤ (i a).val ∧ (i a).val < win2_6.index t a * S3000x64.size a + S3000x64.size a := by
  show i ∈ ((View.whole main_v66_0).slice (win2_6.rect t)).set ↔ _
  rw [View.set_slice_whole, Rect.mem_set_unit]
  exact Iff.rfl

/-- Every index of the table is in the block of the point `row / 3000`. -/
theorem cover2_6 (i : S150000x64.Idx) : ∃ t : Fin cfg2.N, (cfg2.win 6).flush t = true ∧ i ∈ ((cfg2.win 6).blk t).view.set := by
  have hi0 : (i 0).val < 150000 := (i 0).isLt
  have hi1 : (i 1).val < 64 := (i 1).isLt
  have hN : cfg2.N = 50 := N_2
  let t : Fin cfg2.N := ⟨(i 0).val / 3000, by rw [hN]; omega⟩
  have ht : t.val = (i 0).val / 3000 := rfl
  obtain ⟨e0, e1⟩ := (idx2 t).2.2.2.2.2.2.1
  refine ⟨t, flush2_6 t, ?_⟩
  rw [mem_blk2_6]
  intro a
  match a with
  | ⟨0, _⟩ => show win2_6.index t (0 : Fin 2) * 3000 ≤ (i 0).val ∧ (i 0).val < win2_6.index t (0 : Fin 2) * 3000 + 3000; omega
  | ⟨1, _⟩ => show win2_6.index t (1 : Fin 2) * 64 ≤ (i 1).val ∧ (i 1).val < win2_6.index t (1 : Fin 2) * 64 + 64; omega

/-- An index of the table is in point `t`'s block of output 2 iff its row is among the block's 3000 and its channel among the 64. -/
theorem mem_blk2_7 (t : Fin cfg2.N) (i : S150000x64.Idx) :
    i ∈ ((cfg2.win 7).blk t).view.set ↔ ∀ a : Fin 2, win2_7.index t a * S3000x64.size a ≤ (i a).val ∧ (i a).val < win2_7.index t a * S3000x64.size a + S3000x64.size a := by
  show i ∈ ((View.whole main_v66_1).slice (win2_7.rect t)).set ↔ _
  rw [View.set_slice_whole, Rect.mem_set_unit]
  exact Iff.rfl

/-- Every index of the table is in the block of the point `row / 3000`. -/
theorem cover2_7 (i : S150000x64.Idx) : ∃ t : Fin cfg2.N, (cfg2.win 7).flush t = true ∧ i ∈ ((cfg2.win 7).blk t).view.set := by
  have hi0 : (i 0).val < 150000 := (i 0).isLt
  have hi1 : (i 1).val < 64 := (i 1).isLt
  have hN : cfg2.N = 50 := N_2
  let t : Fin cfg2.N := ⟨(i 0).val / 3000, by rw [hN]; omega⟩
  have ht : t.val = (i 0).val / 3000 := rfl
  obtain ⟨e0, e1⟩ := (idx2 t).2.2.2.2.2.2.2
  refine ⟨t, flush2_7 t, ?_⟩
  rw [mem_blk2_7]
  intro a
  match a with
  | ⟨0, _⟩ => show win2_7.index t (0 : Fin 2) * 3000 ≤ (i 0).val ∧ (i 0).val < win2_7.index t (0 : Fin 2) * 3000 + 3000; omega
  | ⟨1, _⟩ => show win2_7.index t (1 : Fin 2) * 64 ≤ (i 1).val ∧ (i 1).val < win2_7.index t (1 : Fin 2) * 64 + 64; omega

/-- After the launch its first output array holds the layer's new embeddings of its six input arrays. -/
theorem arr2_new (c : Dev nD) : (dat2 V c).arrAt 6 cfg2.N = Cert.Spec.layerNew (F := Ideal) (V c main_v44_0) (V c main_v57) (V c main_v59) (V c main_v61) (V c main_v63) (V c main_v65) :=
  (dat2 V c).arrAt_eq_of_cover 6 _ (fun t _ => flushed2_6 V c t) cover2_6

/-- and its second the layer's unit-length rows. -/
theorem arr2_unit (c : Dev nD) : (dat2 V c).arrAt 7 cfg2.N = Cert.Spec.layerUnit (F := Ideal) (V c main_v44_0) (V c main_v57) (V c main_v59) (V c main_v61) (V c main_v63) (V c main_v65) :=
  (dat2 V c).arrAt_eq_of_cover 7 _ (fun t _ => flushed2_7 V c t) cover2_7

end Cert.KernelIdeal.Hand

end
-- ==== Proof.KIResult.lean ====
/-
  The idealized kernel's results, at the exact instance, as the specification's functions of the launch memory: the
  contents of the buffers that matter are followed from boundary to boundary — a stretch of host operations read one
  operation at a time, a launch's two output arrays by the layer's value, every other buffer kept — down to the result
  table and its rows at the three batches of indices.
-/
import proofs.«140510_j10118942950095_1_alg».proof.Proof.KIRun
import proofs.«140510_j10118942950095_1_alg».proof.Proof.KIGlue
import proofs.«140510_j10118942950095_1_alg».proof.Proof.KIValue

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

section Levels
variable (m : (ℓ : Loc nD τ sig) → Buf (Elt Ideal) ℓ) (c : Dev nD)

theorem V1_v0 : V1 m c main_v0 = (Cert.Spec.nodes (F := Ideal) (m ((c : Thread nD τ).loc main_arg0)) (m ((c : Thread nD τ).loc main_arg1))) :=
  read0_nodes (W0 m c)

theorem V1_v13 : V1 m c main_v13 = (Cert.Spec.side (F := Ideal) (Cert.Spec.nodes (F := Ideal) (m ((c : Thread nD τ).loc main_arg0)) (m ((c : Thread nD τ).loc main_arg1))) (m ((c : Thread nD τ).loc main_arg6)) (m ((c : Thread nD τ).loc main_arg7)) (m ((c : Thread nD τ).loc main_arg8))) :=
  read0_side (W0 m c)

theorem V1_v15 : V1 m c main_v15 = Cert.Spec.mat0 (F := Ideal) (m ((c : Thread nD τ).loc main_arg2)) :=
  read0_w (W0 m c)

theorem V1_v17 : V1 m c main_v17 = Cert.Spec.row0 (F := Ideal) (m ((c : Thread nD τ).loc main_arg3)) :=
  read0_b (W0 m c)

theorem V1_v19 : V1 m c main_v19 = Cert.Spec.mat0 (F := Ideal) (m ((c : Thread nD τ).loc main_arg4)) :=
  read0_w' (W0 m c)

theorem V1_v21 : V1 m c main_v21 = Cert.Spec.row0 (F := Ideal) (m ((c : Thread nD τ).loc main_arg5)) :=
  read0_b' (W0 m c)

theorem V1_arg2 : V1 m c main_arg2 = (m ((c : Thread nD τ).loc main_arg2)) :=
  (StableHlo.after_of_writes_sub hostOps0 _ hostOps0_writes (by decide)).trans rfl

theorem V1_arg3 : V1 m c main_arg3 = (m ((c : Thread nD τ).loc main_arg3)) :=
  (StableHlo.after_of_writes_sub hostOps0 _ hostOps0_writes (by decide)).trans rfl

theorem V1_arg4 : V1 m c main_arg4 = (m ((c : Thread nD τ).loc main_arg4)) :=
  (StableHlo.after_of_writes_sub hostOps0 _ hostOps0_writes (by decide)).trans rfl

theorem V1_arg5 : V1 m c main_arg5 = (m ((c : Thread nD τ).loc main_arg5)) :=
  (StableHlo.after_of_writes_sub hostOps0 _ hostOps0_writes (by decide)).trans rfl

theorem V1_arg6 : V1 m c main_arg6 = (m ((c : Thread nD τ).loc main_arg6)) :=
  (StableHlo.after_of_writes_sub hostOps0 _ hostOps0_writes (by decide)).trans rfl

theorem V1_arg7 : V1 m c main_arg7 = (m ((c : Thread nD τ).loc main_arg7)) :=
  (StableHlo.after_of_writes_sub hostOps0 _ hostOps0_writes (by decide)).trans rfl

theorem V1_arg8 : V1 m c main_arg8 = (m ((c : Thread nD τ).loc main_arg8)) :=
  (StableHlo.after_of_writes_sub hostOps0 _ hostOps0_writes (by decide)).trans rfl

theorem V1_arg9 : V1 m c main_arg9 = (m ((c : Thread nD τ).loc main_arg9)) :=
  (StableHlo.after_of_writes_sub hostOps0 _ hostOps0_writes (by decide)).trans rfl

theorem V1_arg10 : V1 m c main_arg10 = (m ((c : Thread nD τ).loc main_arg10)) :=
  (StableHlo.after_of_writes_sub hostOps0 _ hostOps0_writes (by decide)).trans rfl

theorem V1_arg11 : V1 m c main_arg11 = (m ((c : Thread nD τ).loc main_arg11)) :=
  (StableHlo.after_of_writes_sub hostOps0 _ hostOps0_writes (by decide)).trans rfl

theorem V2_v22_0 : V2 m c main_v22_0 = (Cert.Spec.ego1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W2_arr m c 6).trans <| (arr0_new (V1 m) c).trans <| by rw [V1_v0 m c, V1_v13 m c, V1_v15 m c, V1_v17 m c, V1_v19 m c, V1_v21 m c]; rfl

theorem V2_v22_1 : V2 m c main_v22_1 = (Cert.Spec.unitRows (F := Ideal) (Cert.Spec.ego1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (W2_arr m c 7).trans <| (arr0_unit (V1 m) c).trans <| by rw [V1_v0 m c, V1_v13 m c, V1_v15 m c, V1_v17 m c, V1_v19 m c, V1_v21 m c]; rfl

theorem V2_v0 : V2 m c main_v0 = (Cert.Spec.nodes (F := Ideal) (m ((c : Thread nD τ).loc main_arg0)) (m ((c : Thread nD τ).loc main_arg1))) :=
  (W2_arr m c 0).trans <| ((dat0 (V1 m) c).arrAt_in 0 rfl _).trans <| (A_eq0 (V1 m) c 0).trans (V1_v0 m c)

theorem V2_arg2 : V2 m c main_arg2 = (m ((c : Thread nD τ).loc main_arg2)) :=
  (W2_of_ne m c main_arg2 (by decide)).trans (V1_arg2 m c)

theorem V2_arg3 : V2 m c main_arg3 = (m ((c : Thread nD τ).loc main_arg3)) :=
  (W2_of_ne m c main_arg3 (by decide)).trans (V1_arg3 m c)

theorem V2_arg4 : V2 m c main_arg4 = (m ((c : Thread nD τ).loc main_arg4)) :=
  (W2_of_ne m c main_arg4 (by decide)).trans (V1_arg4 m c)

theorem V2_arg5 : V2 m c main_arg5 = (m ((c : Thread nD τ).loc main_arg5)) :=
  (W2_of_ne m c main_arg5 (by decide)).trans (V1_arg5 m c)

theorem V2_arg6 : V2 m c main_arg6 = (m ((c : Thread nD τ).loc main_arg6)) :=
  (W2_of_ne m c main_arg6 (by decide)).trans (V1_arg6 m c)

theorem V2_arg7 : V2 m c main_arg7 = (m ((c : Thread nD τ).loc main_arg7)) :=
  (W2_of_ne m c main_arg7 (by decide)).trans (V1_arg7 m c)

theorem V2_arg8 : V2 m c main_arg8 = (m ((c : Thread nD τ).loc main_arg8)) :=
  (W2_of_ne m c main_arg8 (by decide)).trans (V1_arg8 m c)

theorem V2_arg9 : V2 m c main_arg9 = (m ((c : Thread nD τ).loc main_arg9)) :=
  (W2_of_ne m c main_arg9 (by decide)).trans (V1_arg9 m c)

theorem V2_arg10 : V2 m c main_arg10 = (m ((c : Thread nD τ).loc main_arg10)) :=
  (W2_of_ne m c main_arg10 (by decide)).trans (V1_arg10 m c)

theorem V2_arg11 : V2 m c main_arg11 = (m ((c : Thread nD τ).loc main_arg11)) :=
  (W2_of_ne m c main_arg11 (by decide)).trans (V1_arg11 m c)

theorem V3_v35 : V3 m c main_v35 = (Cert.Spec.side (F := Ideal) (Cert.Spec.ego1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg6)) (m ((c : Thread nD τ).loc main_arg7)) (m ((c : Thread nD τ).loc main_arg8))) := by
  refine (read1_side (W2 m c)).trans ?_
  show Cert.Spec.side (F := Ideal) (V2 m c main_v22_0) (V2 m c main_arg6) (V2 m c main_arg7) (V2 m c main_arg8) = _
  rw [V2_v22_0 m c, V2_arg6 m c, V2_arg7 m c, V2_arg8 m c]

theorem V3_v37 : V3 m c main_v37 = Cert.Spec.mat1 (F := Ideal) (m ((c : Thread nD τ).loc main_arg2)) := by
  refine (read1_w (W2 m c)).trans ?_
  show Cert.Spec.mat1 (F := Ideal) (V2 m c main_arg2) = _
  rw [V2_arg2 m c]

theorem V3_v39 : V3 m c main_v39 = Cert.Spec.row1 (F := Ideal) (m ((c : Thread nD τ).loc main_arg3)) := by
  refine (read1_b (W2 m c)).trans ?_
  show Cert.Spec.row1 (F := Ideal) (V2 m c main_arg3) = _
  rw [V2_arg3 m c]

theorem V3_v41 : V3 m c main_v41 = Cert.Spec.mat1 (F := Ideal) (m ((c : Thread nD τ).loc main_arg4)) := by
  refine (read1_w' (W2 m c)).trans ?_
  show Cert.Spec.mat1 (F := Ideal) (V2 m c main_arg4) = _
  rw [V2_arg4 m c]

theorem V3_v43 : V3 m c main_v43 = Cert.Spec.row1 (F := Ideal) (m ((c : Thread nD τ).loc main_arg5)) := by
  refine (read1_b' (W2 m c)).trans ?_
  show Cert.Spec.row1 (F := Ideal) (V2 m c main_arg5) = _
  rw [V2_arg5 m c]

theorem V3_v22_0 : V3 m c main_v22_0 = (Cert.Spec.ego1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_writes_sub hostOps1 _ hostOps1_writes (by decide)).trans (V2_v22_0 m c)

theorem V3_v22_1 : V3 m c main_v22_1 = (Cert.Spec.unitRows (F := Ideal) (Cert.Spec.ego1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (StableHlo.after_of_writes_sub hostOps1 _ hostOps1_writes (by decide)).trans (V2_v22_1 m c)

theorem V3_v0 : V3 m c main_v0 = (Cert.Spec.nodes (F := Ideal) (m ((c : Thread nD τ).loc main_arg0)) (m ((c : Thread nD τ).loc main_arg1))) :=
  (StableHlo.after_of_writes_sub hostOps1 _ hostOps1_writes (by decide)).trans (V2_v0 m c)

theorem V3_arg9 : V3 m c main_arg9 = (m ((c : Thread nD τ).loc main_arg9)) :=
  (StableHlo.after_of_writes_sub hostOps1 _ hostOps1_writes (by decide)).trans (V2_arg9 m c)

theorem V3_arg10 : V3 m c main_arg10 = (m ((c : Thread nD τ).loc main_arg10)) :=
  (StableHlo.after_of_writes_sub hostOps1 _ hostOps1_writes (by decide)).trans (V2_arg10 m c)

theorem V3_arg11 : V3 m c main_arg11 = (m ((c : Thread nD τ).loc main_arg11)) :=
  (StableHlo.after_of_writes_sub hostOps1 _ hostOps1_writes (by decide)).trans (V2_arg11 m c)

theorem V3_arg2 : V3 m c main_arg2 = (m ((c : Thread nD τ).loc main_arg2)) :=
  (StableHlo.after_of_writes_sub hostOps1 _ hostOps1_writes (by decide)).trans (V2_arg2 m c)

theorem V3_arg3 : V3 m c main_arg3 = (m ((c : Thread nD τ).loc main_arg3)) :=
  (StableHlo.after_of_writes_sub hostOps1 _ hostOps1_writes (by decide)).trans (V2_arg3 m c)

theorem V3_arg4 : V3 m c main_arg4 = (m ((c : Thread nD τ).loc main_arg4)) :=
  (StableHlo.after_of_writes_sub hostOps1 _ hostOps1_writes (by decide)).trans (V2_arg4 m c)

theorem V3_arg5 : V3 m c main_arg5 = (m ((c : Thread nD τ).loc main_arg5)) :=
  (StableHlo.after_of_writes_sub hostOps1 _ hostOps1_writes (by decide)).trans (V2_arg5 m c)

theorem V3_arg6 : V3 m c main_arg6 = (m ((c : Thread nD τ).loc main_arg6)) :=
  (StableHlo.after_of_writes_sub hostOps1 _ hostOps1_writes (by decide)).trans (V2_arg6 m c)

theorem V3_arg7 : V3 m c main_arg7 = (m ((c : Thread nD τ).loc main_arg7)) :=
  (StableHlo.after_of_writes_sub hostOps1 _ hostOps1_writes (by decide)).trans (V2_arg7 m c)

theorem V3_arg8 : V3 m c main_arg8 = (m ((c : Thread nD τ).loc main_arg8)) :=
  (StableHlo.after_of_writes_sub hostOps1 _ hostOps1_writes (by decide)).trans (V2_arg8 m c)

theorem V4_v44_0 : V4 m c main_v44_0 = (Cert.Spec.ego2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W4_arr m c 6).trans <| (arr1_new (V3 m) c).trans <| by rw [V3_v22_0 m c, V3_v35 m c, V3_v37 m c, V3_v39 m c, V3_v41 m c, V3_v43 m c]; rfl

theorem V4_v44_1 : V4 m c main_v44_1 = (Cert.Spec.unitRows (F := Ideal) (Cert.Spec.ego2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (W4_arr m c 7).trans <| (arr1_unit (V3 m) c).trans <| by rw [V3_v22_0 m c, V3_v35 m c, V3_v37 m c, V3_v39 m c, V3_v41 m c, V3_v43 m c]; rfl

theorem V4_v0 : V4 m c main_v0 = (Cert.Spec.nodes (F := Ideal) (m ((c : Thread nD τ).loc main_arg0)) (m ((c : Thread nD τ).loc main_arg1))) :=
  (W4_of_ne m c main_v0 (by decide)).trans (V3_v0 m c)

theorem V4_v22_1 : V4 m c main_v22_1 = (Cert.Spec.unitRows (F := Ideal) (Cert.Spec.ego1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (W4_of_ne m c main_v22_1 (by decide)).trans (V3_v22_1 m c)

theorem V4_arg2 : V4 m c main_arg2 = (m ((c : Thread nD τ).loc main_arg2)) :=
  (W4_of_ne m c main_arg2 (by decide)).trans (V3_arg2 m c)

theorem V4_arg3 : V4 m c main_arg3 = (m ((c : Thread nD τ).loc main_arg3)) :=
  (W4_of_ne m c main_arg3 (by decide)).trans (V3_arg3 m c)

theorem V4_arg4 : V4 m c main_arg4 = (m ((c : Thread nD τ).loc main_arg4)) :=
  (W4_of_ne m c main_arg4 (by decide)).trans (V3_arg4 m c)

theorem V4_arg5 : V4 m c main_arg5 = (m ((c : Thread nD τ).loc main_arg5)) :=
  (W4_of_ne m c main_arg5 (by decide)).trans (V3_arg5 m c)

theorem V4_arg6 : V4 m c main_arg6 = (m ((c : Thread nD τ).loc main_arg6)) :=
  (W4_of_ne m c main_arg6 (by decide)).trans (V3_arg6 m c)

theorem V4_arg7 : V4 m c main_arg7 = (m ((c : Thread nD τ).loc main_arg7)) :=
  (W4_of_ne m c main_arg7 (by decide)).trans (V3_arg7 m c)

theorem V4_arg8 : V4 m c main_arg8 = (m ((c : Thread nD τ).loc main_arg8)) :=
  (W4_of_ne m c main_arg8 (by decide)).trans (V3_arg8 m c)

theorem V4_arg9 : V4 m c main_arg9 = (m ((c : Thread nD τ).loc main_arg9)) :=
  (W4_of_ne m c main_arg9 (by decide)).trans (V3_arg9 m c)

theorem V4_arg10 : V4 m c main_arg10 = (m ((c : Thread nD τ).loc main_arg10)) :=
  (W4_of_ne m c main_arg10 (by decide)).trans (V3_arg10 m c)

theorem V4_arg11 : V4 m c main_arg11 = (m ((c : Thread nD τ).loc main_arg11)) :=
  (W4_of_ne m c main_arg11 (by decide)).trans (V3_arg11 m c)

theorem V5_v57 : V5 m c main_v57 = (Cert.Spec.side (F := Ideal) (Cert.Spec.ego2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg6)) (m ((c : Thread nD τ).loc main_arg7)) (m ((c : Thread nD τ).loc main_arg8))) := by
  refine (read2_side (W4 m c)).trans ?_
  show Cert.Spec.side (F := Ideal) (V4 m c main_v44_0) (V4 m c main_arg6) (V4 m c main_arg7) (V4 m c main_arg8) = _
  rw [V4_v44_0 m c, V4_arg6 m c, V4_arg7 m c, V4_arg8 m c]

theorem V5_v59 : V5 m c main_v59 = Cert.Spec.mat2 (F := Ideal) (m ((c : Thread nD τ).loc main_arg2)) := by
  refine (read2_w (W4 m c)).trans ?_
  show Cert.Spec.mat2 (F := Ideal) (V4 m c main_arg2) = _
  rw [V4_arg2 m c]

theorem V5_v61 : V5 m c main_v61 = Cert.Spec.row2 (F := Ideal) (m ((c : Thread nD τ).loc main_arg3)) := by
  refine (read2_b (W4 m c)).trans ?_
  show Cert.Spec.row2 (F := Ideal) (V4 m c main_arg3) = _
  rw [V4_arg3 m c]

theorem V5_v63 : V5 m c main_v63 = Cert.Spec.mat2 (F := Ideal) (m ((c : Thread nD τ).loc main_arg4)) := by
  refine (read2_w' (W4 m c)).trans ?_
  show Cert.Spec.mat2 (F := Ideal) (V4 m c main_arg4) = _
  rw [V4_arg4 m c]

theorem V5_v65 : V5 m c main_v65 = Cert.Spec.row2 (F := Ideal) (m ((c : Thread nD τ).loc main_arg5)) := by
  refine (read2_b' (W4 m c)).trans ?_
  show Cert.Spec.row2 (F := Ideal) (V4 m c main_arg5) = _
  rw [V4_arg5 m c]

theorem V5_v44_0 : V5 m c main_v44_0 = (Cert.Spec.ego2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_writes_sub hostOps2 _ hostOps2_writes (by decide)).trans (V4_v44_0 m c)

theorem V5_v44_1 : V5 m c main_v44_1 = (Cert.Spec.unitRows (F := Ideal) (Cert.Spec.ego2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (StableHlo.after_of_writes_sub hostOps2 _ hostOps2_writes (by decide)).trans (V4_v44_1 m c)

theorem V5_v22_1 : V5 m c main_v22_1 = (Cert.Spec.unitRows (F := Ideal) (Cert.Spec.ego1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (StableHlo.after_of_writes_sub hostOps2 _ hostOps2_writes (by decide)).trans (V4_v22_1 m c)

theorem V5_v0 : V5 m c main_v0 = (Cert.Spec.nodes (F := Ideal) (m ((c : Thread nD τ).loc main_arg0)) (m ((c : Thread nD τ).loc main_arg1))) :=
  (StableHlo.after_of_writes_sub hostOps2 _ hostOps2_writes (by decide)).trans (V4_v0 m c)

theorem V5_arg9 : V5 m c main_arg9 = (m ((c : Thread nD τ).loc main_arg9)) :=
  (StableHlo.after_of_writes_sub hostOps2 _ hostOps2_writes (by decide)).trans (V4_arg9 m c)

theorem V5_arg10 : V5 m c main_arg10 = (m ((c : Thread nD τ).loc main_arg10)) :=
  (StableHlo.after_of_writes_sub hostOps2 _ hostOps2_writes (by decide)).trans (V4_arg10 m c)

theorem V5_arg11 : V5 m c main_arg11 = (m ((c : Thread nD τ).loc main_arg11)) :=
  (StableHlo.after_of_writes_sub hostOps2 _ hostOps2_writes (by decide)).trans (V4_arg11 m c)

theorem V6_v66_0 : V6 m c main_v66_0 = (Cert.Spec.ego3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W6_arr m c 6).trans <| (arr2_new (V5 m) c).trans <| by rw [V5_v44_0 m c, V5_v57 m c, V5_v59 m c, V5_v61 m c, V5_v63 m c, V5_v65 m c]; rfl

theorem V6_v66_1 : V6 m c main_v66_1 = (Cert.Spec.unitRows (F := Ideal) (Cert.Spec.ego3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (W6_arr m c 7).trans <| (arr2_unit (V5 m) c).trans <| by rw [V5_v44_0 m c, V5_v57 m c, V5_v59 m c, V5_v61 m c, V5_v63 m c, V5_v65 m c]; rfl

theorem V6_v0 : V6 m c main_v0 = (Cert.Spec.nodes (F := Ideal) (m ((c : Thread nD τ).loc main_arg0)) (m ((c : Thread nD τ).loc main_arg1))) :=
  (W6_of_ne m c main_v0 (by decide)).trans (V5_v0 m c)

theorem V6_v22_1 : V6 m c main_v22_1 = (Cert.Spec.unitRows (F := Ideal) (Cert.Spec.ego1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (W6_of_ne m c main_v22_1 (by decide)).trans (V5_v22_1 m c)

theorem V6_v44_1 : V6 m c main_v44_1 = (Cert.Spec.unitRows (F := Ideal) (Cert.Spec.ego2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (W6_of_ne m c main_v44_1 (by decide)).trans (V5_v44_1 m c)

theorem V6_arg9 : V6 m c main_arg9 = (m ((c : Thread nD τ).loc main_arg9)) :=
  (W6_of_ne m c main_arg9 (by decide)).trans (V5_arg9 m c)

theorem V6_arg10 : V6 m c main_arg10 = (m ((c : Thread nD τ).loc main_arg10)) :=
  (W6_of_ne m c main_arg10 (by decide)).trans (V5_arg10 m c)

theorem V6_arg11 : V6 m c main_arg11 = (m ((c : Thread nD τ).loc main_arg11)) :=
  (W6_of_ne m c main_arg11 (by decide)).trans (V5_arg11 m c)

theorem out_u : W7 m c (Proc.devRef .tc main_v74) = Cert.Spec.rowsAt (F := Ideal) (Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  refine (read3_u (W6 m c)).trans ?_
  show Cert.Spec.rowsAt (F := Ideal) (Cert.Spec.table (V6 m c main_v0) (V6 m c main_v22_1) (V6 m c main_v44_1) (V6 m c main_v66_1)) (V6 m c main_arg9) = _
  rw [V6_v0 m c, V6_v22_1 m c, V6_v44_1 m c, V6_v66_1 m c, V6_arg9 m c]
  rfl

theorem out_i : W7 m c (Proc.devRef .tc main_v83) = Cert.Spec.rowsAt (F := Ideal) (Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Spec.itemWord (m ((c : Thread nD τ).loc main_arg10))) := by
  refine (read3_i (W6 m c)).trans ?_
  show Cert.Spec.rowsAt (F := Ideal) (Cert.Spec.table (V6 m c main_v0) (V6 m c main_v22_1) (V6 m c main_v44_1) (V6 m c main_v66_1)) (Cert.Spec.itemWord (V6 m c main_arg10)) = _
  rw [V6_v0 m c, V6_v22_1 m c, V6_v44_1 m c, V6_v66_1 m c, V6_arg10 m c]
  rfl

theorem out_j : W7 m c (Proc.devRef .tc main_v92) = Cert.Spec.rowsAt (F := Ideal) (Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Spec.itemWord (m ((c : Thread nD τ).loc main_arg11))) := by
  refine (read3_j (W6 m c)).trans ?_
  show Cert.Spec.rowsAt (F := Ideal) (Cert.Spec.table (V6 m c main_v0) (V6 m c main_v22_1) (V6 m c main_v44_1) (V6 m c main_v66_1)) (Cert.Spec.itemWord (V6 m c main_arg11)) = _
  rw [V6_v0 m c, V6_v22_1 m c, V6_v44_1 m c, V6_v66_1 m c, V6_arg11 m c]
  rfl

end Levels

/-- From any memory with zero counters every weakly fair execution of the idealized kernel terminates with its three
    results at the specification's rows of the result table and its twelve arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v74) = Cert.Spec.rowsAt (F := Ideal) (Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))
      ∧ r.2.mem ((c.tc : Thread nD τ).loc main_v83) = Cert.Spec.rowsAt (F := Ideal) (Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Spec.itemWord (m ((c : Thread nD τ).loc main_arg10)))
      ∧ r.2.mem ((c.tc : Thread nD τ).loc main_v92) = Cert.Spec.rowsAt (F := Ideal) (Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Spec.itemWord (m ((c : Thread nD τ).loc main_arg11)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v74 (by decide))).trans (out_u m c),
    (h c _ (mem_uc main_v83 (by decide))).trans (out_i m c),
    (h c _ (mem_uc main_v92 (by decide))).trans (out_j m c),
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c)⟩) (run_all m ρ)

end Cert.KernelIdeal.Hand

end
-- ==== Proof.RefRun.lean ====
/-
  The reference program's @main as ONE straight line of host operations, and its run.

  @main is three consecutive windows of statements; nine of them are calls of the module's own functions
  (six of `leaky_relu`, which itself calls `_where`, and three of `norm`). A call executes the callee's body on the
  caller's buffers, so the line lists, at each call site, the callee's operations over that call's buffer record:
  `leaky_relu (x, slope)` is seven operations (the zero, its broadcast, the comparison `x ≥ 0`, the slope converted
  and broadcast, the product `slope · x`, and `_where`'s select), `norm x` is five (the squares, the zero, the sum
  along the rows, its broadcast to a column, the square root). Window by window the program IS that list
  (`main_partK_eq`: the functions unfolded at their calls and the sequencing reassociated), hence so is @main
  (`main_eq`), and the library's theorem on straight lines (`run_seq`) gives the run: every weakly fair execution
  terminates with every buffer at the fold of the operations over the launch contents. No operation writes an
  argument's buffer (`writes`: operation k writes the k-th buffer of the list `W`, and no argument is in `W`), so
  the arguments end unchanged.
-/
import proofs.«140510_j10118942950095_1_alg».proof.Proof.Gen.ReferenceIdeal
import proofs.«140510_j10118942950095_1_alg».proof.Proof.LibSsa
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]

open Facts₀ Facts

/-! ## The line -/

/-- The first window's 76 operations: the node table, layer 0 whole (its neighbourhood sum, the two affine
    branches with their `leaky_relu`, the sum, the row lengths by `norm`, the unit rows) and layer 1 up to the
    slice of its first matrix. -/
abbrev ops0 : List (HloOp τ sig (Elt F)) :=
  [ binary main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    nullary main_c (constantI S_ 32 0#32),
    unary main_c main_v1 (broadcastInDim S2400000 ![] bcast_S_S2400000 : (⟨S_, .i32⟩ : BufTy).Contents (Elt F) → (⟨S2400000, .i32⟩ : BufTy).Contents (Elt F)),
    binary main_arg8 main_v1 main_v2 (cmpi .slt : (⟨S2400000, .i32⟩ : BufTy).Contents (Elt F) → (⟨S2400000, .i32⟩ : BufTy).Contents (Elt F) → (⟨S2400000, .i1⟩ : BufTy).Contents (Elt F)),
    nullary main_c_0 (constantI S_ 32 150000#32),
    unary main_c_0 main_v3 (broadcastInDim S2400000 ![] bcast_S_S2400000 : (⟨S_, .i32⟩ : BufTy).Contents (Elt F) → (⟨S2400000, .i32⟩ : BufTy).Contents (Elt F)),
    binary main_arg8 main_v3 main_v4 (addi : (⟨S2400000, .i32⟩ : BufTy).Contents (Elt F) → (⟨S2400000, .i32⟩ : BufTy).Contents (Elt F) → (⟨S2400000, .i32⟩ : BufTy).Contents (Elt F)),
    ternary main_v2 main_v4 main_arg8 main_v5 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v5 main_v6 (broadcastInDim S2400000x1 ![0] bcast_S2400000_S2400000x1_0 : (⟨S2400000, .i32⟩ : BufTy).Contents (Elt F) → (⟨S2400000x1, .i32⟩ : BufTy).Contents (Elt F)),
    binary main_v0 main_v6 main_v7 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_arg6 main_v8 (broadcastInDim S2400000x1 ![0] bcast_S2400000_S2400000x1_0 : (⟨S2400000, .f32⟩ : BufTy).Contents (Elt F) → (⟨S2400000x1, .f32⟩ : BufTy).Contents (Elt F)),
    unary main_v8 main_v9 (broadcastInDim S2400000x64 ![0, 1] bcast_S2400000x1_S2400000x64_0_1 : (⟨S2400000x1, .f32⟩ : BufTy).Contents (Elt F) → (⟨S2400000x64, .f32⟩ : BufTy).Contents (Elt F)),
    binary main_v7 main_v9 main_v10 (mulf : (⟨S2400000x64, .f32⟩ : BufTy).Contents (Elt F) → (⟨S2400000x64, .f32⟩ : BufTy).Contents (Elt F) → (⟨S2400000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg7 main_v12 (broadcastInDim S2400000x1 ![0] bcast_S2400000_S2400000x1_0 : (⟨S2400000, .i32⟩ : BufTy).Contents (Elt F) → (⟨S2400000x1, .i32⟩ : BufTy).Contents (Elt F)),
    ternary main_v11 main_v12 main_v10 main_v13 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    binary main_v13 main_v15 main_v16 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v17 main_v18 rfl shapeCasts_S1x1x64_S1x64,
    unary main_v18 main_v19 (broadcastInDim S150000x64 ![0, 1] bcast_S1x64_S150000x64_0_1 : (⟨S1x64, .f32⟩ : BufTy).Contents (Elt F) → (⟨S150000x64, .f32⟩ : BufTy).Contents (Elt F)),
    binary main_v16 main_v19 main_v20 (addf : (⟨S150000x64, .f32⟩ : BufTy).Contents (Elt F) → (⟨S150000x64, .f32⟩ : BufTy).Contents (Elt F) → (⟨S150000x64, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S150000x64 ![] bcast_S_S150000x64),
    TRef.binary (.of main_v20 : TRef sig ⟨S150000x64, .f32⟩) main_call0.v0 main_call0.v1 (cmpf .oge),
    TRef.unary (.of main_cst_1 : TRef sig ⟨S_, .f32⟩) main_call0.v2 id,
    TRef.unary main_call0.v2 main_call0.v3 (broadcastInDim S150000x64 ![] bcast_S_S150000x64),
    TRef.binary main_call0.v3 (.of main_v20 : TRef sig ⟨S150000x64, .f32⟩) main_call0.v4 mulf,
    TRef.ternary main_call0.v1 (.of main_v20 : TRef sig ⟨S150000x64, .f32⟩) main_call0.v4 main_call0.call0.v0 select,
    binary main_v0 main_v13 main_v22 (mulf : (⟨S150000x64, .f32⟩ : BufTy).Contents (Elt F) → (⟨S150000x64, .f32⟩ : BufTy).Contents (Elt F) → (⟨S150000x64, .f32⟩ : BufTy).Contents (Elt F)),
    unary main_arg4 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v23 main_v24 rfl shapeCasts_S1x64x64_S64x64,
    binary main_v22 main_v24 main_v25 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v26 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v26 main_v27 rfl shapeCasts_S1x1x64_S1x64,
    unary main_v27 main_v28 (broadcastInDim S150000x64 ![0, 1] bcast_S1x64_S150000x64_0_1 : (⟨S1x64, .f32⟩ : BufTy).Contents (Elt F) → (⟨S150000x64, .f32⟩ : BufTy).Contents (Elt F)),
    binary main_v25 main_v28 main_v29 (addf : (⟨S150000x64, .f32⟩ : BufTy).Contents (Elt F) → (⟨S150000x64, .f32⟩ : BufTy).Contents (Elt F) → (⟨S150000x64, .f32⟩ : BufTy).Contents (Elt F)),
    nullary main_cst_2 (constant S_ .f32 0x3E4CCCCD#32),
    TRef.nullary main_call1.cst (constant S_ .f32 0x00000000#32),
    TRef.unary main_call1.cst main_call1.v0 (broadcastInDim S150000x64 ![] bcast_S_S150000x64),
    TRef.binary (.of main_v29 : TRef sig ⟨S150000x64, .f32⟩) main_call1.v0 main_call1.v1 (cmpf .oge),
    TRef.unary (.of main_cst_2 : TRef sig ⟨S_, .f32⟩) main_call1.v2 id,
    TRef.unary main_call1.v2 main_call1.v3 (broadcastInDim S150000x64 ![] bcast_S_S150000x64),
    TRef.binary main_call1.v3 (.of main_v29 : TRef sig ⟨S150000x64, .f32⟩) main_call1.v4 mulf,
    TRef.ternary main_call1.v1 (.of main_v29 : TRef sig ⟨S150000x64, .f32⟩) main_call1.v4 main_call1.call0.v0 select,
    binary main_v21 main_v30 main_v31 (addf : (⟨S150000x64, .f32⟩ : BufTy).Contents (Elt F) → (⟨S150000x64, .f32⟩ : BufTy).Contents (Elt F) → (⟨S150000x64, .f32⟩ : BufTy).Contents (Elt F)),
    TRef.binary (.of main_v31 : TRef sig ⟨S150000x64, .f32⟩) (.of main_v31 : TRef sig ⟨S150000x64, .f32⟩) main_call2.v0 mulf,
    TRef.nullary main_call2.cst (constant S_ .f32 0x00000000#32),
    TRef.binary main_call2.v0 main_call2.cst main_call2.v1 (fun x v => Host.reduceAdd x v reducesTo_S150000x64_S150000_d1 h_S_),
    TRef.unary main_call2.v1 main_call2.v2 (broadcastInDim S150000x1 ![0] bcast_S150000_S150000x1_0),
    TRef.unary main_call2.v2 main_call2.v3 Host.sqrt,
    nullary main_cst_3 (constant S_ .f32 0x2B8CBCCC#32),
    unary main_cst_3 main_v33 (broadcastInDim S150000x1 ![] bcast_S_S150000x1 : (⟨S_, .f32⟩ : BufTy).Contents (Elt F) → (⟨S150000x1, .f32⟩ : BufTy).Contents (Elt F)),
    binary main_v32 main_v33 main_v34 (maximumf : (⟨S150000x1, .f32⟩ : BufTy).Contents (Elt F) → (⟨S150000x1, .f32⟩ : BufTy).Contents (Elt F) → (⟨S150000x1, .f32⟩ : BufTy).Contents (Elt F)),
    unary main_v34 main_v35 (broadcastInDim S150000x64 ![0, 1] bcast_S150000x1_S150000x64_0_1 : (⟨S150000x1, .f32⟩ : BufTy).Contents (Elt F) → (⟨S150000x64, .f32⟩ : BufTy).Contents (Elt F)),
    binary main_v31 main_v35 main_v36 (Host.divf : (⟨S150000x64, .f32⟩ : BufTy).Contents (Elt F) → (⟨S150000x64, .f32⟩ : BufTy).Contents (Elt F) → (⟨S150000x64, .f32⟩ : BufTy).Contents (Elt F)),
    nullary main_c_4 (constantI S_ 32 0#32),
    unary main_c_4 main_v37 (broadcastInDim S2400000 ![] bcast_S_S2400000 : (⟨S_, .i32⟩ : BufTy).Contents (Elt F) → (⟨S2400000, .i32⟩ : BufTy).Contents (Elt F)),
    binary main_arg8 main_v37 main_v38 (cmpi .slt : (⟨S2400000, .i32⟩ : BufTy).Contents (Elt F) → (⟨S2400000, .i32⟩ : BufTy).Contents (Elt F) → (⟨S2400000, .i1⟩ : BufTy).Contents (Elt F)),
    nullary main_c_5 (constantI S_ 32 150000#32),
    unary main_c_5 main_v39 (broadcastInDim S2400000 ![] bcast_S_S2400000 : (⟨S_, .i32⟩ : BufTy).Contents (Elt F) → (⟨S2400000, .i32⟩ : BufTy).Contents (Elt F)),
    binary main_arg8 main_v39 main_v40 (addi : (⟨S2400000, .i32⟩ : BufTy).Contents (Elt F) → (⟨S2400000, .i32⟩ : BufTy).Contents (Elt F) → (⟨S2400000, .i32⟩ : BufTy).Contents (Elt F)),
    ternary main_v38 main_v40 main_arg8 main_v41 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v41 main_v42 (broadcastInDim S2400000x1 ![0] bcast_S2400000_S2400000x1_0 : (⟨S2400000, .i32⟩ : BufTy).Contents (Elt F) → (⟨S2400000x1, .i32⟩ : BufTy).Contents (Elt F)),
    binary main_v31 main_v42 main_v43 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_arg6 main_v44 (broadcastInDim S2400000x1 ![0] bcast_S2400000_S2400000x1_0 : (⟨S2400000, .f32⟩ : BufTy).Contents (Elt F) → (⟨S2400000x1, .f32⟩ : BufTy).Contents (Elt F)),
    unary main_v44 main_v45 (broadcastInDim S2400000x64 ![0, 1] bcast_S2400000x1_S2400000x64_0_1 : (⟨S2400000x1, .f32⟩ : BufTy).Contents (Elt F) → (⟨S2400000x64, .f32⟩ : BufTy).Contents (Elt F)),
    binary main_v43 main_v45 main_v46 (mulf : (⟨S2400000x64, .f32⟩ : BufTy).Contents (Elt F) → (⟨S2400000x64, .f32⟩ : BufTy).Contents (Elt F) → (⟨S2400000x64, .f32⟩ : BufTy).Contents (Elt F)),
    nullary main_cst_6 (constant S_ .f32 0x00000000#32),
    unary main_cst_6 main_v47 (broadcastInDim S150000x64 ![] bcast_S_S150000x64 : (⟨S_, .f32⟩ : BufTy).Contents (Elt F) → (⟨S150000x64, .f32⟩ : BufTy).Contents (Elt F)),
    unary main_arg7 main_v48 (broadcastInDim S2400000x1 ![0] bcast_S2400000_S2400000x1_0 : (⟨S2400000, .i32⟩ : BufTy).Contents (Elt F) → (⟨S2400000x1, .i32⟩ : BufTy).Contents (Elt F)),
    ternary main_v47 main_v48 main_v46 main_v49 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    unary main_arg2 main_v50 ((extractStridedSlice S1x64x64 ![1, 0, 0] · slices_S3x64x64_S1x64x64_1_0_0) : (⟨S3x64x64, .f32⟩ : BufTy).Contents (Elt F) → (⟨S1x64x64, .f32⟩ : BufTy).Contents (Elt F)) ]

/-- The second window's 88 operations: the rest of layer 1 and layer 2 up to its second `leaky_relu`. -/
abbrev ops1 : List (HloOp τ sig (Elt F)) :=
  [ reshape main_v50 main_v51 rfl shapeCasts_S1x64x64_S64x64,
    binary main_v49 main_v51 main_v52 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v53 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v53 main_v54 rfl shapeCasts_S1x1x64_S1x64,
    unary main_v54 main_v55 (broadcastInDim S150000x64 ![0, 1] bcast_S1x64_S150000x64_0_1 : (⟨S1x64, .f32⟩ : BufTy).Contents (Elt F) → (⟨S150000x64, .f32⟩ : BufTy).Contents (Elt F)),
    binary main_v52 main_v55 main_v56 (addf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x3E4CCCCD#32),
    TRef.nullary main_call3.cst (constant S_ .f32 0x00000000#32),
    TRef.unary main_call3.cst main_call3.v0 (broadcastInDim S150000x64 ![] bcast_S_S150000x64),
    TRef.binary (.of main_v56 : TRef sig ⟨S150000x64, .f32⟩) main_call3.v0 main_call3.v1 (cmpf .oge),
    TRef.unary (.of main_cst_7 : TRef sig ⟨S_, .f32⟩) main_call3.v2 id,
    TRef.unary main_call3.v2 main_call3.v3 (broadcastInDim S150000x64 ![] bcast_S_S150000x64),
    TRef.binary main_call3.v3 (.of main_v56 : TRef sig ⟨S150000x64, .f32⟩) main_call3.v4 mulf,
    TRef.ternary main_call3.v1 (.of main_v56 : TRef sig ⟨S150000x64, .f32⟩) main_call3.v4 main_call3.call0.v0 select,
    binary main_v31 main_v49 main_v58 (mulf : (⟨S150000x64, .f32⟩ : BufTy).Contents (Elt F) → (⟨S150000x64, .f32⟩ : BufTy).Contents (Elt F) → (⟨S150000x64, .f32⟩ : BufTy).Contents (Elt F)),
    unary main_arg4 main_v59 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v59 main_v60 rfl shapeCasts_S1x64x64_S64x64,
    binary main_v58 main_v60 main_v61 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v62 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v62 main_v63 rfl shapeCasts_S1x1x64_S1x64,
    unary main_v63 main_v64 (broadcastInDim S150000x64 ![0, 1] bcast_S1x64_S150000x64_0_1 : (⟨S1x64, .f32⟩ : BufTy).Contents (Elt F) → (⟨S150000x64, .f32⟩ : BufTy).Contents (Elt F)),
    binary main_v61 main_v64 main_v65 (addf : (⟨S150000x64, .f32⟩ : BufTy).Contents (Elt F) → (⟨S150000x64, .f32⟩ : BufTy).Contents (Elt F) → (⟨S150000x64, .f32⟩ : BufTy).Contents (Elt F)),
    nullary main_cst_8 (constant S_ .f32 0x3E4CCCCD#32),
    TRef.nullary main_call4.cst (constant S_ .f32 0x00000000#32),
    TRef.unary main_call4.cst main_call4.v0 (broadcastInDim S150000x64 ![] bcast_S_S150000x64),
    TRef.binary (.of main_v65 : TRef sig ⟨S150000x64, .f32⟩) main_call4.v0 main_call4.v1 (cmpf .oge),
    TRef.unary (.of main_cst_8 : TRef sig ⟨S_, .f32⟩) main_call4.v2 id,
    TRef.unary main_call4.v2 main_call4.v3 (broadcastInDim S150000x64 ![] bcast_S_S150000x64),
    TRef.binary main_call4.v3 (.of main_v65 : TRef sig ⟨S150000x64, .f32⟩) main_call4.v4 mulf,
    TRef.ternary main_call4.v1 (.of main_v65 : TRef sig ⟨S150000x64, .f32⟩) main_call4.v4 main_call4.call0.v0 select,
    binary main_v57 main_v66 main_v67 (addf : (⟨S150000x64, .f32⟩ : BufTy).Contents (Elt F) → (⟨S150000x64, .f32⟩ : BufTy).Contents (Elt F) → (⟨S150000x64, .f32⟩ : BufTy).Contents (Elt F)),
    TRef.binary (.of main_v67 : TRef sig ⟨S150000x64, .f32⟩) (.of main_v67 : TRef sig ⟨S150000x64, .f32⟩) main_call5.v0 mulf,
    TRef.nullary main_call5.cst (constant S_ .f32 0x00000000#32),
    TRef.binary main_call5.v0 main_call5.cst main_call5.v1 (fun x v => Host.reduceAdd x v reducesTo_S150000x64_S150000_d1 h_S_),
    TRef.unary main_call5.v1 main_call5.v2 (broadcastInDim S150000x1 ![0] bcast_S150000_S150000x1_0),
    TRef.unary main_call5.v2 main_call5.v3 Host.sqrt,
    nullary main_cst_9 (constant S_ .f32 0x2B8CBCCC#32),
    unary main_cst_9 main_v69 (broadcastInDim S150000x1 ![] bcast_S_S150000x1 : (⟨S_, .f32⟩ : BufTy).Contents (Elt F) → (⟨S150000x1, .f32⟩ : BufTy).Contents (Elt F)),
    binary main_v68 main_v69 main_v70 (maximumf : (⟨S150000x1, .f32⟩ : BufTy).Contents (Elt F) → (⟨S150000x1, .f32⟩ : BufTy).Contents (Elt F) → (⟨S150000x1, .f32⟩ : BufTy).Contents (Elt F)),
    unary main_v70 main_v71 (broadcastInDim S150000x64 ![0, 1] bcast_S150000x1_S150000x64_0_1 : (⟨S150000x1, .f32⟩ : BufTy).Contents (Elt F) → (⟨S150000x64, .f32⟩ : BufTy).Contents (Elt F)),
    binary main_v67 main_v71 main_v72 (Host.divf : (⟨S150000x64, .f32⟩ : BufTy).Contents (Elt F) → (⟨S150000x64, .f32⟩ : BufTy).Contents (Elt F) → (⟨S150000x64, .f32⟩ : BufTy).Contents (Elt F)),
    nullary main_c_10 (constantI S_ 32 0#32),
    unary main_c_10 main_v73 (broadcastInDim S2400000 ![] bcast_S_S2400000 : (⟨S_, .i32⟩ : BufTy).Contents (Elt F) → (⟨S2400000, .i32⟩ : BufTy).Contents (Elt F)),
    binary main_arg8 main_v73 main_v74 (cmpi .slt : (⟨S2400000, .i32⟩ : BufTy).Contents (Elt F) → (⟨S2400000, .i32⟩ : BufTy).Contents (Elt F) → (⟨S2400000, .i1⟩ : BufTy).Contents (Elt F)),
    nullary main_c_11 (constantI S_ 32 150000#32),
    unary main_c_11 main_v75 (broadcastInDim S2400000 ![] bcast_S_S2400000 : (⟨S_, .i32⟩ : BufTy).Contents (Elt F) → (⟨S2400000, .i32⟩ : BufTy).Contents (Elt F)),
    binary main_arg8 main_v75 main_v76 (addi : (⟨S2400000, .i32⟩ : BufTy).Contents (Elt F) → (⟨S2400000, .i32⟩ : BufTy).Contents (Elt F) → (⟨S2400000, .i32⟩ : BufTy).Contents (Elt F)),
    ternary main_v74 main_v76 main_arg8 main_v77 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v77 main_v78 (broadcastInDim S2400000x1 ![0] bcast_S2400000_S2400000x1_0 : (⟨S2400000, .i32⟩ : BufTy).Contents (Elt F) → (⟨S2400000x1, .i32⟩ : BufTy).Contents (Elt F)),
    binary main_v67 main_v78 main_v79 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_arg6 main_v80 (broadcastInDim S2400000x1 ![0] bcast_S2400000_S2400000x1_0 : (⟨S2400000, .f32⟩ : BufTy).Contents (Elt F) → (⟨S2400000x1, .f32⟩ : BufTy).Contents (Elt F)),
    unary main_v80 main_v81 (broadcastInDim S2400000x64 ![0, 1] bcast_S2400000x1_S2400000x64_0_1 : (⟨S2400000x1, .f32⟩ : BufTy).Contents (Elt F) → (⟨S2400000x64, .f32⟩ : BufTy).Contents (Elt F)),
    binary main_v79 main_v81 main_v82 (mulf : (⟨S2400000x64, .f32⟩ : BufTy).Contents (Elt F) → (⟨S2400000x64, .f32⟩ : BufTy).Contents (Elt F) → (⟨S2400000x64, .f32⟩ : BufTy).Contents (Elt F)),
    nullary main_cst_12 (constant S_ .f32 0x00000000#32),
    unary main_cst_12 main_v83 (broadcastInDim S150000x64 ![] bcast_S_S150000x64 : (⟨S_, .f32⟩ : BufTy).Contents (Elt F) → (⟨S150000x64, .f32⟩ : BufTy).Contents (Elt F)),
    unary main_arg7 main_v84 (broadcastInDim S2400000x1 ![0] bcast_S2400000_S2400000x1_0 : (⟨S2400000, .i32⟩ : BufTy).Contents (Elt F) → (⟨S2400000x1, .i32⟩ : BufTy).Contents (Elt F)),
    ternary main_v83 main_v84 main_v82 main_v85 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    unary main_arg2 main_v86 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v86 main_v87 rfl shapeCasts_S1x64x64_S64x64,
    binary main_v85 main_v87 main_v88 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v89 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v89 main_v90 rfl shapeCasts_S1x1x64_S1x64,
    unary main_v90 main_v91 (broadcastInDim S150000x64 ![0, 1] bcast_S1x64_S150000x64_0_1 : (⟨S1x64, .f32⟩ : BufTy).Contents (Elt F) → (⟨S150000x64, .f32⟩ : BufTy).Contents (Elt F)),
    binary main_v88 main_v91 main_v92 (addf : (⟨S150000x64, .f32⟩ : BufTy).Contents (Elt F) → (⟨S150000x64, .f32⟩ : BufTy).Contents (Elt F) → (⟨S150000x64, .f32⟩ : BufTy).Contents (Elt F)),
    nullary main_cst_13 (constant S_ .f32 0x3E4CCCCD#32),
    TRef.nullary main_call6.cst (constant S_ .f32 0x00000000#32),
    TRef.unary main_call6.cst main_call6.v0 (broadcastInDim S150000x64 ![] bcast_S_S150000x64),
    TRef.binary (.of main_v92 : TRef sig ⟨S150000x64, .f32⟩) main_call6.v0 main_call6.v1 (cmpf .oge),
    TRef.unary (.of main_cst_13 : TRef sig ⟨S_, .f32⟩) main_call6.v2 id,
    TRef.unary main_call6.v2 main_call6.v3 (broadcastInDim S150000x64 ![] bcast_S_S150000x64),
    TRef.binary main_call6.v3 (.of main_v92 : TRef sig ⟨S150000x64, .f32⟩) main_call6.v4 mulf,
    TRef.ternary main_call6.v1 (.of main_v92 : TRef sig ⟨S150000x64, .f32⟩) main_call6.v4 main_call6.call0.v0 select,
    binary main_v67 main_v85 main_v94 (mulf : (⟨S150000x64, .f32⟩ : BufTy).Contents (Elt F) → (⟨S150000x64, .f32⟩ : BufTy).Contents (Elt F) → (⟨S150000x64, .f32⟩ : BufTy).Contents (Elt F)),
    unary main_arg4 main_v95 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v95 main_v96 rfl shapeCasts_S1x64x64_S64x64,
    binary main_v94 main_v96 main_v97 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v98 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v98 main_v99 rfl shapeCasts_S1x1x64_S1x64,
    unary main_v99 main_v100 (broadcastInDim S150000x64 ![0, 1] bcast_S1x64_S150000x64_0_1 : (⟨S1x64, .f32⟩ : BufTy).Contents (Elt F) → (⟨S150000x64, .f32⟩ : BufTy).Contents (Elt F)),
    binary main_v97 main_v100 main_v101 (addf : (⟨S150000x64, .f32⟩ : BufTy).Contents (Elt F) → (⟨S150000x64, .f32⟩ : BufTy).Contents (Elt F) → (⟨S150000x64, .f32⟩ : BufTy).Contents (Elt F)),
    nullary main_cst_14 (constant S_ .f32 0x3E4CCCCD#32),
    TRef.nullary main_call7.cst (constant S_ .f32 0x00000000#32),
    TRef.unary main_call7.cst main_call7.v0 (broadcastInDim S150000x64 ![] bcast_S_S150000x64),
    TRef.binary (.of main_v101 : TRef sig ⟨S150000x64, .f32⟩) main_call7.v0 main_call7.v1 (cmpf .oge),
    TRef.unary (.of main_cst_14 : TRef sig ⟨S_, .f32⟩) main_call7.v2 id,
    TRef.unary main_call7.v2 main_call7.v3 (broadcastInDim S150000x64 ![] bcast_S_S150000x64),
    TRef.binary main_call7.v3 (.of main_v101 : TRef sig ⟨S150000x64, .f32⟩) main_call7.v4 mulf,
    TRef.ternary main_call7.v1 (.of main_v101 : TRef sig ⟨S150000x64, .f32⟩) main_call7.v4 main_call7.call0.v0 select ]

/-- The third window's 45 operations: layer 2's sum, row lengths and unit rows, the result table (four blocks
    side by side) and its rows at the three batches of index words. -/
abbrev ops2 : List (HloOp τ sig (Elt F)) :=
  [ binary main_v93 main_v102 main_v103 (addf : (⟨S150000x64, .f32⟩ : BufTy).Contents (Elt F) → (⟨S150000x64, .f32⟩ : BufTy).Contents (Elt F) → (⟨S150000x64, .f32⟩ : BufTy).Contents (Elt F)),
    TRef.binary (.of main_v103 : TRef sig ⟨S150000x64, .f32⟩) (.of main_v103 : TRef sig ⟨S150000x64, .f32⟩) main_call8.v0 mulf,
    TRef.nullary main_call8.cst (constant S_ .f32 0x00000000#32),
    TRef.binary main_call8.v0 main_call8.cst main_call8.v1 (fun x v => Host.reduceAdd x v reducesTo_S150000x64_S150000_d1 h_S_),
    TRef.unary main_call8.v1 main_call8.v2 (broadcastInDim S150000x1 ![0] bcast_S150000_S150000x1_0),
    TRef.unary main_call8.v2 main_call8.v3 Host.sqrt,
    nullary main_cst_15 (constant S_ .f32 0x2B8CBCCC#32),
    unary main_cst_15 main_v105 (broadcastInDim S150000x1 ![] bcast_S_S150000x1 : (⟨S_, .f32⟩ : BufTy).Contents (Elt F) → (⟨S150000x1, .f32⟩ : BufTy).Contents (Elt F)),
    binary main_v104 main_v105 main_v106 (maximumf : (⟨S150000x1, .f32⟩ : BufTy).Contents (Elt F) → (⟨S150000x1, .f32⟩ : BufTy).Contents (Elt F) → (⟨S150000x1, .f32⟩ : BufTy).Contents (Elt F)),
    unary main_v106 main_v107 (broadcastInDim S150000x64 ![0, 1] bcast_S150000x1_S150000x64_0_1 : (⟨S150000x1, .f32⟩ : BufTy).Contents (Elt F) → (⟨S150000x64, .f32⟩ : BufTy).Contents (Elt F)),
    binary main_v103 main_v107 main_v108 (Host.divf : (⟨S150000x64, .f32⟩ : BufTy).Contents (Elt F) → (⟨S150000x64, .f32⟩ : BufTy).Contents (Elt F) → (⟨S150000x64, .f32⟩ : BufTy).Contents (Elt F)),
    nary ![main_v0, main_v36, main_v72, main_v108] main_v109 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    nullary main_c_16 (constantI S_ 32 0#32),
    unary main_c_16 main_v110 (broadcastInDim S16384 ![] bcast_S_S16384 : (⟨S_, .i32⟩ : BufTy).Contents (Elt F) → (⟨S16384, .i32⟩ : BufTy).Contents (Elt F)),
    binary main_arg9 main_v110 main_v111 (cmpi .slt : (⟨S16384, .i32⟩ : BufTy).Contents (Elt F) → (⟨S16384, .i32⟩ : BufTy).Contents (Elt F) → (⟨S16384, .i1⟩ : BufTy).Contents (Elt F)),
    nullary main_c_17 (constantI S_ 32 150000#32),
    unary main_c_17 main_v112 (broadcastInDim S16384 ![] bcast_S_S16384 : (⟨S_, .i32⟩ : BufTy).Contents (Elt F) → (⟨S16384, .i32⟩ : BufTy).Contents (Elt F)),
    binary main_arg9 main_v112 main_v113 (addi : (⟨S16384, .i32⟩ : BufTy).Contents (Elt F) → (⟨S16384, .i32⟩ : BufTy).Contents (Elt F) → (⟨S16384, .i32⟩ : BufTy).Contents (Elt F)),
    ternary main_v111 main_v113 main_arg9 main_v114 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v114 main_v115 (broadcastInDim S16384x1 ![0] bcast_S16384_S16384x1_0 : (⟨S16384, .i32⟩ : BufTy).Contents (Elt F) → (⟨S16384x1, .i32⟩ : BufTy).Contents (Elt F)),
    binary main_v109 main_v115 main_v116 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)),
    nullary main_c_18 (constantI S_ 32 100000#32),
    unary main_c_18 main_v117 (broadcastInDim S16384 ![] bcast_S_S16384 : (⟨S_, .i32⟩ : BufTy).Contents (Elt F) → (⟨S16384, .i32⟩ : BufTy).Contents (Elt F)),
    binary main_v117 main_arg10 main_v118 (addi : (⟨S16384, .i32⟩ : BufTy).Contents (Elt F) → (⟨S16384, .i32⟩ : BufTy).Contents (Elt F) → (⟨S16384, .i32⟩ : BufTy).Contents (Elt F)),
    nullary main_c_19 (constantI S_ 32 0#32),
    unary main_c_19 main_v119 (broadcastInDim S16384 ![] bcast_S_S16384 : (⟨S_, .i32⟩ : BufTy).Contents (Elt F) → (⟨S16384, .i32⟩ : BufTy).Contents (Elt F)),
    binary main_v118 main_v119 main_v120 (cmpi .slt : (⟨S16384, .i32⟩ : BufTy).Contents (Elt F) → (⟨S16384, .i32⟩ : BufTy).Contents (Elt F) → (⟨S16384, .i1⟩ : BufTy).Contents (Elt F)),
    nullary main_c_20 (constantI S_ 32 150000#32),
    unary main_c_20 main_v121 (broadcastInDim S16384 ![] bcast_S_S16384 : (⟨S_, .i32⟩ : BufTy).Contents (Elt F) → (⟨S16384, .i32⟩ : BufTy).Contents (Elt F)),
    binary main_v118 main_v121 main_v122 (addi : (⟨S16384, .i32⟩ : BufTy).Contents (Elt F) → (⟨S16384, .i32⟩ : BufTy).Contents (Elt F) → (⟨S16384, .i32⟩ : BufTy).Contents (Elt F)),
    ternary main_v120 main_v122 main_v118 main_v123 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v123 main_v124 (broadcastInDim S16384x1 ![0] bcast_S16384_S16384x1_0 : (⟨S16384, .i32⟩ : BufTy).Contents (Elt F) → (⟨S16384x1, .i32⟩ : BufTy).Contents (Elt F)),
    binary main_v109 main_v124 main_v125 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)),
    nullary main_c_21 (constantI S_ 32 100000#32),
    unary main_c_21 main_v126 (broadcastInDim S16384 ![] bcast_S_S16384 : (⟨S_, .i32⟩ : BufTy).Contents (Elt F) → (⟨S16384, .i32⟩ : BufTy).Contents (Elt F)),
    binary main_v126 main_arg11 main_v127 (addi : (⟨S16384, .i32⟩ : BufTy).Contents (Elt F) → (⟨S16384, .i32⟩ : BufTy).Contents (Elt F) → (⟨S16384, .i32⟩ : BufTy).Contents (Elt F)),
    nullary main_c_22 (constantI S_ 32 0#32),
    unary main_c_22 main_v128 (broadcastInDim S16384 ![] bcast_S_S16384 : (⟨S_, .i32⟩ : BufTy).Contents (Elt F) → (⟨S16384, .i32⟩ : BufTy).Contents (Elt F)),
    binary main_v127 main_v128 main_v129 (cmpi .slt : (⟨S16384, .i32⟩ : BufTy).Contents (Elt F) → (⟨S16384, .i32⟩ : BufTy).Contents (Elt F) → (⟨S16384, .i1⟩ : BufTy).Contents (Elt F)),
    nullary main_c_23 (constantI S_ 32 150000#32),
    unary main_c_23 main_v130 (broadcastInDim S16384 ![] bcast_S_S16384 : (⟨S_, .i32⟩ : BufTy).Contents (Elt F) → (⟨S16384, .i32⟩ : BufTy).Contents (Elt F)),
    binary main_v127 main_v130 main_v131 (addi : (⟨S16384, .i32⟩ : BufTy).Contents (Elt F) → (⟨S16384, .i32⟩ : BufTy).Contents (Elt F) → (⟨S16384, .i32⟩ : BufTy).Contents (Elt F)),
    ternary main_v129 main_v131 main_v127 main_v132 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v132 main_v133 (broadcastInDim S16384x1 ![0] bcast_S16384_S16384x1_0 : (⟨S16384, .i32⟩ : BufTy).Contents (Elt F) → (⟨S16384x1, .i32⟩ : BufTy).Contents (Elt F)),
    binary main_v109 main_v133 main_v134 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)) ]

/-- @main's 209 operations, in order. -/
abbrev ops : List (HloOp τ sig (Elt F)) := ops0 ++ (ops1 ++ ops2)

/-- The buffer each operation writes, in the same order. -/
abbrev W0 : List (Ref sig .tc) :=
  [ main_v0, main_c, main_v1, main_v2, main_c_0, main_v3, main_v4, main_v5,
    main_v6, main_v7, main_v8, main_v9, main_v10, main_cst, main_v11, main_v12,
    main_v13, main_v14, main_v15, main_v16, main_v17, main_v18, main_v19, main_v20,
    main_cst_1, main_call0_cst, main_call0_v0, main_call0_v1, main_call0_v2, main_call0_v3, main_call0_v4, main_v21,
    main_v22, main_v23, main_v24, main_v25, main_v26, main_v27, main_v28, main_v29,
    main_cst_2, main_call1_cst, main_call1_v0, main_call1_v1, main_call1_v2, main_call1_v3, main_call1_v4, main_v30,
    main_v31, main_call2_v0, main_call2_cst, main_call2_v1, main_call2_v2, main_v32, main_cst_3, main_v33,
    main_v34, main_v35, main_v36, main_c_4, main_v37, main_v38, main_c_5, main_v39,
    main_v40, main_v41, main_v42, main_v43, main_v44, main_v45, main_v46, main_cst_6,
    main_v47, main_v48, main_v49, main_v50 ]
abbrev W1 : List (Ref sig .tc) :=
  [ main_v51, main_v52, main_v53, main_v54, main_v55, main_v56, main_cst_7, main_call3_cst,
    main_call3_v0, main_call3_v1, main_call3_v2, main_call3_v3, main_call3_v4, main_v57, main_v58, main_v59,
    main_v60, main_v61, main_v62, main_v63, main_v64, main_v65, main_cst_8, main_call4_cst,
    main_call4_v0, main_call4_v1, main_call4_v2, main_call4_v3, main_call4_v4, main_v66, main_v67, main_call5_v0,
    main_call5_cst, main_call5_v1, main_call5_v2, main_v68, main_cst_9, main_v69, main_v70, main_v71,
    main_v72, main_c_10, main_v73, main_v74, main_c_11, main_v75, main_v76, main_v77,
    main_v78, main_v79, main_v80, main_v81, main_v82, main_cst_12, main_v83, main_v84,
    main_v85, main_v86, main_v87, main_v88, main_v89, main_v90, main_v91, main_v92,
    main_cst_13, main_call6_cst, main_call6_v0, main_call6_v1, main_call6_v2, main_call6_v3, main_call6_v4, main_v93,
    main_v94, main_v95, main_v96, main_v97, main_v98, main_v99, main_v100, main_v101,
    main_cst_14, main_call7_cst, main_call7_v0, main_call7_v1, main_call7_v2, main_call7_v3, main_call7_v4, main_v102 ]
abbrev W2 : List (Ref sig .tc) :=
  [ main_v103, main_call8_v0, main_call8_cst, main_call8_v1, main_call8_v2, main_v104, main_cst_15, main_v105,
    main_v106, main_v107, main_v108, main_v109, main_c_16, main_v110, main_v111, main_c_17,
    main_v112, main_v113, main_v114, main_v115, main_v116, main_c_18, main_v117, main_v118,
    main_c_19, main_v119, main_v120, main_c_20, main_v121, main_v122, main_v123, main_v124,
    main_v125, main_c_21, main_v126, main_v127, main_c_22, main_v128, main_v129, main_c_23,
    main_v130, main_v131, main_v132, main_v133, main_v134 ]
abbrev W : List (Ref sig .tc) := W0 ++ (W1 ++ W2)

/-! ## Each window is its list

Both sides are one chain of `hlo` steps once the functions' definitions are unfolded at their calls and the
sequencing is reassociated; a window that does not end in a return ends in its last step, which is that step
followed by the return. -/

set_option maxRecDepth 4096 in
theorem main_part0_eq (c : Dev nD) : main_part0 (F := F) c = seq ops0 := by
  simp only [main_part0, fn_leaky_relu.body, fn_where.body, fn_norm.body, seq, bind_assoc, pure_bind] <;> rfl

set_option maxRecDepth 4096 in
theorem main_part1_eq (c : Dev nD) : main_part1 (F := F) c = seq ops1 := by
  simp only [main_part1, fn_leaky_relu.body, fn_where.body, fn_norm.body, seq, bind_assoc, pure_bind] <;> rfl

set_option maxRecDepth 4096 in
theorem main_part2_eq (c : Dev nD) : main_part2 (F := F) c = seq ops2 := by
  simp only [main_part2, fn_leaky_relu.body, fn_where.body, fn_norm.body, seq, bind_assoc, pure_bind] <;> rfl

/-- @main runs its three windows in order, and a line of two lists is the first's then the second's. -/
theorem main_eq (c : Dev nD) : main (F := F) c = seq ops := by
  rw [show (ops : List (HloOp τ sig (Elt F))) = ops0 ++ (ops1 ++ ops2) from rfl, seq_append, seq_append,
    ← main_part0_eq c, ← main_part1_eq c, ← main_part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub ..⟩
theorem ops1_sub : (ops1 : List (HloOp τ sig (Elt F))).Forall fun op => op.bufs ⊆ tcRefs τ sig :=
  ⟨reshape_bufs_sub .., binary_bufs_sub .., unary_bufs_sub .., reshape_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., reshape_bufs_sub .., binary_bufs_sub ..,
    unary_bufs_sub .., reshape_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., reshape_bufs_sub .., binary_bufs_sub .., unary_bufs_sub .., reshape_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩
theorem ops2_sub : (ops2 : List (HloOp τ sig (Elt F))).Forall fun op => op.bufs ⊆ tcRefs τ sig :=
  ⟨binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., nary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..⟩

/-- A property of every operation of the three windows is one of every operation of the line. -/
theorem forall_ops {P : HloOp τ sig (Elt F) → Prop} (h0 : ops0.Forall P) (h1 : ops1.Forall P) (h2 : ops2.Forall P) :
    ∀ op ∈ (ops : List (HloOp τ sig (Elt F))), P op := fun op h => by
  rcases List.mem_append.mp h with h | h
  · exact List.forall_iff_forall_mem.mp h0 op h
  rcases List.mem_append.mp h with h | h
  · exact List.forall_iff_forall_mem.mp h1 op h
  · exact List.forall_iff_forall_mem.mp h2 op h

theorem ops_sub : (ops : List (HloOp τ sig (Elt F))).Forall fun op => op.bufs ⊆ tcRefs τ sig :=
  List.forall_iff_forall_mem.mpr (forall_ops ops0_sub ops1_sub ops2_sub)

/-- Every operation determines its results (none allocates a buffer of unchosen contents). -/
theorem ops0_fresh : (ops0 : List (HloOp τ sig (Elt F))).Forall fun op => op.fresh = ∅ :=
  ⟨rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl⟩

/-! ## Which buffer each operation writes -/

/-- One more operation at the head of a line, writing the buffer at the head of the list. -/
theorem writes_cons {op : HloOp τ sig (Elt F)} {l : List (HloOp τ sig (Elt F))} {w : Ref sig .tc} {V : List (Ref sig .tc)}
    (h : op.writes = {Proc.devRef .tc w}) (t : Cert.Ssa.Writes l V) : Cert.Ssa.Writes (op :: l) (w :: V) :=
  And.intro (h ▸ Finset.Subset.refl _) t

theorem writes0 : Cert.Ssa.Writes (ops0 : List (HloOp τ sig (Elt F))) W0 :=
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| trivial
theorem writes1 : Cert.Ssa.Writes (ops1 : List (HloOp τ sig (Elt F))) W1 :=
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| trivial
theorem writes2 : Cert.Ssa.Writes (ops2 : List (HloOp τ sig (Elt F))) W2 :=
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| writes_cons rfl <| writes_cons rfl <| writes_cons rfl <|
    writes_cons rfl <| writes_cons rfl <| writes_cons rfl <| trivial

/-- Operation k of the line writes the k-th buffer of `W`. -/
theorem writes : Cert.Ssa.Writes (ops : List (HloOp τ sig (Elt F))) W :=
  writes0.append (writes1.append writes2)

/-- A buffer no operation writes holds at the end what it held at the launch. -/
theorem kept {r : Ref sig .tc} (hr : r ∉ W) (V : Valuation τ sig (Elt F)) :
    after ops V (Proc.devRef .tc r) = V (Proc.devRef .tc r) :=
  writes.keep hr V

/-! ## The run -/

/-- On every device, for any float values, from any memory with zero counters: every weakly fair execution of
    @main terminates with each of the three results at the fold of the line over the launch contents, and the
    twelve arguments unchanged. -/
theorem run_after (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v116) = after ops (fun b => m (c, b)) (Proc.devRef .tc main_v116)
      ∧ r.2.mem ((c.tc : Thread nD τ).loc main_v125) = after ops (fun b => m (c, b)) (Proc.devRef .tc main_v125)
      ∧ r.2.mem ((c.tc : Thread nD τ).loc main_v134) = after ops (fun b => m (c, b)) (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v116, h c main_v125, h c main_v134,
      (h c main_arg0).trans (kept (by decide) _),
      (h c main_arg1).trans (kept (by decide) _),
      (h c main_arg2).trans (kept (by decide) _),
      (h c main_arg3).trans (kept (by decide) _),
      (h c main_arg4).trans (kept (by decide) _),
      (h c main_arg5).trans (kept (by decide) _),
      (h c main_arg6).trans (kept (by decide) _),
      (h c main_arg7).trans (kept (by decide) _),
      (h c main_arg8).trans (kept (by decide) _),
      (h c main_arg9).trans (kept (by decide) _),
      (h c main_arg10).trans (kept (by decide) _),
      (h c main_arg11).trans (kept (by decide) _)⟩)
    (run_seq scopedRefs_eq scopedSems_eq defs main (fun _ => ops) main_eq (fun _ => ops_sub) m ρ
      (hfresh := fun _ => forall_ops ops0_fresh ops1_fresh ops2_fresh))

end Cert.ReferenceIdeal.Hand

end
-- ==== Proof.RefReadings.lean ====
/-
  The reference's line read one operation at a time.

  The line is single-assignment: operation k writes the k-th buffer of `W`, no buffer twice, and reads only
  arguments and buffers written before it. So at the END of the line every operation's own equation holds of the
  final contents: its result buffer holds its function of what its operand buffers hold (the readings of the
  general lemmas on such lines, one row per operation below: its place, its operands, its result, and the
  decided facts that the result is not written later nor an operand at or after the place). A call's operations
  are read at the call's own buffers, their functions at the types the callee's text gives them. An argument's
  buffer is written by no operation and holds what the launch gave it.
-/
import proofs.«140510_j10118942950095_1_alg».proof.Proof.RefRun
import proofs.«140510_j10118942950095_1_alg».proof.Proof.LibSsaNary

noncomputable section

namespace Cert.ReferenceIdeal.Hand

open Cert.ReferenceIdeal Cert.Ssa Idealize.ShloMosaic Idealize.ShloMosaic.TcCoe Idealize.SL.Sem Idealize.ShloMosaic.StableHlo

variable {F : FTy → Type} [FloatOps F] [Facts]

open Facts₀ Facts

variable (M : Valuation τ sig (Elt F))

-- `𝐀 r`: what the line leaves in buffer `r`; `𝐌 r`: what the launch gave it.
set_option quotPrecheck false in
local notation:max "𝐀 " r:max => StableHlo.after (ops (F := F)) M (Proc.devRef .tc r)
set_option quotPrecheck false in
local notation:max "𝐌 " r:max => M (Proc.devRef .tc r)

/-! ## The arguments -/

theorem k_arg0 : 𝐀 main_arg0 = 𝐌 main_arg0 := kept (by decide) M
theorem k_arg1 : 𝐀 main_arg1 = 𝐌 main_arg1 := kept (by decide) M
theorem k_arg2 : 𝐀 main_arg2 = 𝐌 main_arg2 := kept (by decide) M
theorem k_arg3 : 𝐀 main_arg3 = 𝐌 main_arg3 := kept (by decide) M
theorem k_arg4 : 𝐀 main_arg4 = 𝐌 main_arg4 := kept (by decide) M
theorem k_arg5 : 𝐀 main_arg5 = 𝐌 main_arg5 := kept (by decide) M
theorem k_arg6 : 𝐀 main_arg6 = 𝐌 main_arg6 := kept (by decide) M
theorem k_arg7 : 𝐀 main_arg7 = 𝐌 main_arg7 := kept (by decide) M
theorem k_arg8 : 𝐀 main_arg8 = 𝐌 main_arg8 := kept (by decide) M
theorem k_arg9 : 𝐀 main_arg9 = 𝐌 main_arg9 := kept (by decide) M
theorem k_arg10 : 𝐀 main_arg10 = 𝐌 main_arg10 := kept (by decide) M
theorem k_arg11 : 𝐀 main_arg11 = 𝐌 main_arg11 := kept (by decide) M

/-! ## The operations, in order -/

theorem e_v0 : 𝐀 main_v0 = ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) (𝐀 main_arg0) (𝐀 main_arg1) :=
  read_binary writes 0 main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) _ _ _ rfl M (by decide) (by decide) (by decide)
theorem e_c : 𝐀 main_c = (constantI S_ 32 0#32) :=
  read_nullary writes 1 main_c (constantI S_ 32 0#32) _ rfl M (by decide)
theorem e_v1 : 𝐀 main_v1 = (broadcastInDim S2400000 ![] bcast_S_S2400000 : (⟨S_, .i32⟩ : BufTy).Contents (Elt F) → (⟨S2400000, .i32⟩ : BufTy).Contents (Elt F)) (𝐀 main_c) :=
  read_unary writes 2 main_c main_v1 (broadcastInDim S2400000 ![] bcast_S_S2400000 : (⟨S_, .i32⟩ : BufTy).Contents (Elt F) → (⟨S2400000, .i32⟩ : BufTy).Contents (Elt F)) _ _ rfl M (by decide) (by decide)
theorem e_v2 : 𝐀 main_v2 = (cmpi .slt : (⟨S2400000, .i32⟩ : BufTy).Contents (Elt F) → (⟨S2400000, .i32⟩ : BufTy).Contents (Elt F) → (⟨S2400000, .i1⟩ : BufTy).Contents (Elt F)) (𝐀 main_arg8) (𝐀 main_v1) :=
  read_binary writes 3 main_arg8 main_v1 main_v2 (cmpi .slt : (⟨S2400000, .i32⟩ : BufTy).Contents (Elt F) → (⟨S2400000, .i32⟩ : BufTy).Contents (Elt F) → (⟨S2400000, .i1⟩ : BufTy).Contents (Elt F)) _ _ _ rfl M (by decide) (by decide) (by decide)
theorem e_c_0 : 𝐀 main_c_0 = (constantI S_ 32 150000#32) :=
  read_nullary writes 4 main_c_0 (constantI S_ 32 150000#32) _ rfl M (by decide)
theorem e_v3 : 𝐀 main_v3 = (broadcastInDim S2400000 ![] bcast_S_S2400000 : (⟨S_, .i32⟩ : BufTy).Contents (Elt F) → (⟨S2400000, .i32⟩ : BufTy).Contents (Elt F)) (𝐀 main_c_0) :=
  read_unary writes 5 main_c_0 main_v3 (broadcastInDim S2400000 ![] bcast_S_S2400000 : (⟨S_, .i32⟩ : BufTy).Contents (Elt F) → (⟨S2400000, .i32⟩ : BufTy).Contents (Elt F)) _ _ rfl M (by decide) (by decide)
theorem e_v4 : 𝐀 main_v4 = (addi : (⟨S2400000, .i32⟩ : BufTy).Contents (Elt F) → (⟨S2400000, .i32⟩ : BufTy).Contents (Elt F) → (⟨S2400000, .i32⟩ : BufTy).Contents (Elt F)) (𝐀 main_arg8) (𝐀 main_v3) :=
  read_binary writes 6 main_arg8 main_v3 main_v4 (addi : (⟨S2400000, .i32⟩ : BufTy).Contents (Elt F) → (⟨S2400000, .i32⟩ : BufTy).Contents (Elt F) → (⟨S2400000, .i32⟩ : BufTy).Contents (Elt F)) _ _ _ rfl M (by decide) (by decide) (by decide)
theorem e_v5 : 𝐀 main_v5 = (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)) (𝐀 main_v2) (𝐀 main_v4) (𝐀 main_arg8) :=
  read_ternary writes 7 main_v2 main_v4 main_arg8 main_v5 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)) _ _ _ _ rfl M (by decide) (by decide) (by decide) (by decide)
theorem e_v6 : 𝐀 main_v6 = (broadcastInDim S2400000x1 ![0] bcast_S2400000_S2400000x1_0 : (⟨S2400000, .i32⟩ : BufTy).Contents (Elt F) → (⟨S2400000x1, .i32⟩ : BufTy).Contents (Elt F)) (𝐀 main_v5) :=
  read_unary writes 8 main_v5 main_v6 (broadcastInDim S2400000x1 ![0] bcast_S2400000_S2400000x1_0 : (⟨S2400000, .i32⟩ : BufTy).Contents (Elt F) → (⟨S2400000x1, .i32⟩ : BufTy).Contents (Elt F)) _ _ rfl M (by decide) (by decide)
theorem e_v7 : 𝐀 main_v7 = ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)) (𝐀 main_v0) (𝐀 main_v6) :=
  read_binary writes 9 main_v0 main_v6 main_v7 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)) _ _ _ rfl M (by decide) (by decide) (by decide)
theorem e_v8 : 𝐀 main_v8 = (broadcastInDim S2400000x1 ![0] bcast_S2400000_S2400000x1_0 : (⟨S2400000, .f32⟩ : BufTy).Contents (Elt F) → (⟨S2400000x1, .f32⟩ : BufTy).Contents (Elt F)) (𝐀 main_arg6) :=
  read_unary writes 10 main_arg6 main_v8 (broadcastInDim S2400000x1 ![0] bcast_S2400000_S2400000x1_0 : (⟨S2400000, .f32⟩ : BufTy).Contents (Elt F) → (⟨S2400000x1, .f32⟩ : BufTy).Contents (Elt F)) _ _ rfl M (by decide) (by decide)
theorem e_v9 : 𝐀 main_v9 = (broadcastInDim S2400000x64 ![0, 1] bcast_S2400000x1_S2400000x64_0_1 : (⟨S2400000x1, .f32⟩ : BufTy).Contents (Elt F) → (⟨S2400000x64, .f32⟩ : BufTy).Contents (Elt F)) (𝐀 main_v8) :=
  read_unary writes 11 main_v8 main_v9 (broadcastInDim S2400000x64 ![0, 1] bcast_S2400000x1_S2400000x64_0_1 : (⟨S2400000x1, .f32⟩ : BufTy).Contents (Elt F) → (⟨S2400000x64, .f32⟩ : BufTy).Contents (Elt F)) _ _ rfl M (by decide) (by decide)
theorem e_v10 : 𝐀 main_v10 = (mulf : (⟨S2400000x64, .f32⟩ : BufTy).Contents (Elt F) → (⟨S2400000x64, .f32⟩ : BufTy).Contents (Elt F) → (⟨S2400000x64, .f32⟩ : BufTy).Contents (Elt F)) (𝐀 main_v7) (𝐀 main_v9) :=
  read_binary writes 12 main_v7 main_v9 main_v10 (mulf : (⟨S2400000x64, .f32⟩ : BufTy).Contents (Elt F) → (⟨S2400000x64, .f32⟩ : BufTy).Contents (Elt F) → (⟨S2400000x64, .f32⟩ : BufTy).Contents (Elt F)) _ _ _ rfl M (by decide) (by decide) (by decide)
theorem e_cst : 𝐀 main_cst = (constant S_ .f32 0x00000000#32) :=
  read_nullary writes 13 main_cst (constant S_ .f32 0x00000000#32) _ rfl M (by decide)
theorem e_v11 : 𝐀 main_v11 = (broadcastInDim S150000x64 ![] bcast_S_S150000x64 : (⟨S_, .f32⟩ : BufTy).Contents (Elt F) → (⟨S150000x64, .f32⟩ : BufTy).Contents (Elt F)) (𝐀 main_cst) :=
  read_unary writes 14 main_cst main_v11 (broadcastInDim S150000x64 ![] bcast_S_S150000x64 : (⟨S_, .f32⟩ : BufTy).Contents (Elt F) → (⟨S150000x64, .f32⟩ : BufTy).Contents (Elt F)) _ _ rfl M (by decide) (by decide)
theorem e_v12 : 𝐀 main_v12 = (broadcastInDim S2400000x1 ![0] bcast_S2400000_S2400000x1_0 : (⟨S2400000, .i32⟩ : BufTy).Contents (Elt F) → (⟨S2400000x1, .i32⟩ : BufTy).Contents (Elt F)) (𝐀 main_arg7) :=
  read_unary writes 15 main_arg7 main_v12 (broadcastInDim S2400000x1 ![0] bcast_S2400000_S2400000x1_0 : (⟨S2400000, .i32⟩ : BufTy).Contents (Elt F) → (⟨S2400000x1, .i32⟩ : BufTy).Contents (Elt F)) _ _ rfl M (by decide) (by decide)
theorem e_v13 : 𝐀 main_v13 = ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) (𝐀 main_v11) (𝐀 main_v12) (𝐀 main_v10) :=
  read_ternary writes 16 main_v11 main_v12 main_v10 main_v13 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) _ _ _ _ rfl M (by decide) (by decide) (by decide) (by decide)
theorem e_v14 : 𝐀 main_v14 = ((extractStridedSlice S1x64x64 ![0, 0, 0] · slices_S3x64x64_S1x64x64_0_0_0) : (⟨S3x64x64, .f32⟩ : BufTy).Contents (Elt F) → (⟨S1x64x64, .f32⟩ : BufTy).Contents (Elt F)) (𝐀 main_arg2) :=
  read_unary writes 17 main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)) _ _ rfl M (by decide) (by decide)
theorem e_v15 : 𝐀 main_v15 = shapeCast S64x64 (𝐀 main_v14) shapeCasts_S1x64x64_S64x64 :=
  read_reshape writes 18 main_v14 main_v15 rfl shapeCasts_S1x64x64_S64x64 _ _ rfl M (by decide) (by decide)
theorem e_v16 : 𝐀 main_v16 = ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) (𝐀 main_v13) (𝐀 main_v15) :=
  read_binary writes 19 main_v13 main_v15 main_v16 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) _ _ _ rfl M (by decide) (by decide) (by decide)
theorem e_v17 : 𝐀 main_v17 = ((extractStridedSlice S1x1x64 ![0, 0, 0] · slices_S3x1x64_S1x1x64_0_0_0) : (⟨S3x1x64, .f32⟩ : BufTy).Contents (Elt F) → (⟨S1x1x64, .f32⟩ : BufTy).Contents (Elt F)) (𝐀 main_arg3) :=
  read_unary writes 20 main_arg3 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)) _ _ rfl M (by decide) (by decide)
theorem e_v18 : 𝐀 main_v18 = shapeCast S1x64 (𝐀 main_v17) shapeCasts_S1x1x64_S1x64 :=
  read_reshape writes 21 main_v17 main_v18 rfl shapeCasts_S1x1x64_S1x64 _ _ rfl M (by decide) (by decide)
theorem e_v19 : 𝐀 main_v19 = (broadcastInDim S150000x64 ![0, 1] bcast_S1x64_S150000x64_0_1 : (⟨S1x64, .f32⟩ : BufTy).Contents (Elt F) → (⟨S150000x64, .f32⟩ : BufTy).Contents (Elt F)) (𝐀 main_v18) :=
  read_unary writes 22 main_v18 main_v19 (broadcastInDim S150000x64 ![0, 1] bcast_S1x64_S150000x64_0_1 : (⟨S1x64, .f32⟩ : BufTy).Contents (Elt F) → (⟨S150000x64, .f32⟩ : BufTy).Contents (Elt F)) _ _ rfl M (by decide) (by decide)
theorem e_v20 : 𝐀 main_v20 = (addf : (⟨S150000x64, .f32⟩ : BufTy).Contents (Elt F) → (⟨S150000x64, .f32⟩ : BufTy).Contents (Elt F) → (⟨S150000x64, .f32⟩ : BufTy).Contents (Elt F)) (𝐀 main_v16) (𝐀 main_v19) :=
  read_binary writes 23 main_v16 main_v19 main_v20 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_cst_1 : 𝐀 main_cst_1 = (constant S_ .f32 0x3E4CCCCD#32) :=
  read_nullary writes 24 main_cst_1 (constant S_ .f32 0x3E4CCCCD#32) _ rfl M (by decide)
theorem e_call0_cst : 𝐀 main_call0_cst = (constant (F := F) S_ .f32 0x00000000#32) :=
  read_nullary writes 25 main_call0_cst (constant (F := F) S_ .f32 0x00000000#32) _ rfl M (by decide)
theorem e_call0_v0 : 𝐀 main_call0_v0 = (broadcastInDim S150000x64 ![] bcast_S_S150000x64 : FVec F S_ .f32 → FVec F S150000x64 .f32) (𝐀 main_call0_cst) :=
  read_unary writes 26 main_call0_cst main_call0_v0 (broadcastInDim S150000x64 ![] bcast_S_S150000x64 : FVec F S_ .f32 → FVec F S150000x64 .f32) _ _ rfl M (by decide) (by decide)
theorem e_call0_v1 : 𝐀 main_call0_v1 = (cmpf .oge : FVec F S150000x64 .f32 → FVec F S150000x64 .f32 → IVec S150000x64 1) (𝐀 main_v20) (𝐀 main_call0_v0) :=
  read_binary writes 27 main_v20 main_call0_v0 main_call0_v1 (cmpf .oge : FVec F S150000x64 .f32 → FVec F S150000x64 .f32 → IVec S150000x64 1) _ _ _ rfl M (by decide) (by decide) (by decide)
theorem e_call0_v2 : 𝐀 main_call0_v2 = (id : FVec F S_ .f32 → FVec F S_ .f32) (𝐀 main_cst_1) :=
  read_unary writes 28 main_cst_1 main_call0_v2 (id : FVec F S_ .f32 → FVec F S_ .f32) _ _ rfl M (by decide) (by decide)
theorem e_call0_v3 : 𝐀 main_call0_v3 = (broadcastInDim S150000x64 ![] bcast_S_S150000x64 : FVec F S_ .f32 → FVec F S150000x64 .f32) (𝐀 main_call0_v2) :=
  read_unary writes 29 main_call0_v2 main_call0_v3 (broadcastInDim S150000x64 ![] bcast_S_S150000x64 : FVec F S_ .f32 → FVec F S150000x64 .f32) _ _ rfl M (by decide) (by decide)
theorem e_call0_v4 : 𝐀 main_call0_v4 = (mulf : FVec F S150000x64 .f32 → FVec F S150000x64 .f32 → FVec F S150000x64 .f32) (𝐀 main_call0_v3) (𝐀 main_v20) :=
  read_binary writes 30 main_call0_v3 main_v20 main_call0_v4 (mulf : FVec F S150000x64 .f32 → FVec F S150000x64 .f32 → FVec F S150000x64 .f32) _ _ _ rfl M (by decide) (by decide) (by decide)
theorem e_v21 : 𝐀 main_v21 = (select : IVec S150000x64 1 → FVec F S150000x64 .f32 → FVec F S150000x64 .f32 → FVec F S150000x64 .f32) (𝐀 main_call0_v1) (𝐀 main_v20) (𝐀 main_call0_v4) :=
  read_ternary writes 31 main_call0_v1 main_v20 main_call0_v4 main_v21 (select : IVec S150000x64 1 → FVec F S150000x64 .f32 → FVec F S150000x64 .f32 → FVec F S150000x64 .f32) _ _ _ _ rfl M (by decide) (by decide) (by decide) (by decide)
theorem e_v22 : 𝐀 main_v22 = (mulf : (⟨S150000x64, .f32⟩ : BufTy).Contents (Elt F) → (⟨S150000x64, .f32⟩ : BufTy).Contents (Elt F) → (⟨S150000x64, .f32⟩ : BufTy).Contents (Elt F)) (𝐀 main_v0) (𝐀 main_v13) :=
  read_binary writes 32 main_v0 main_v13 main_v22 (mulf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_v23 : 𝐀 main_v23 = ((extractStridedSlice S1x64x64 ![0, 0, 0] · slices_S3x64x64_S1x64x64_0_0_0) : (⟨S3x64x64, .f32⟩ : BufTy).Contents (Elt F) → (⟨S1x64x64, .f32⟩ : BufTy).Contents (Elt F)) (𝐀 main_arg4) :=
  read_unary writes 33 main_arg4 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)) _ _ rfl M (by decide) (by decide)
theorem e_v24 : 𝐀 main_v24 = shapeCast S64x64 (𝐀 main_v23) shapeCasts_S1x64x64_S64x64 :=
  read_reshape writes 34 main_v23 main_v24 rfl shapeCasts_S1x64x64_S64x64 _ _ rfl M (by decide) (by decide)
theorem e_v25 : 𝐀 main_v25 = ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) (𝐀 main_v22) (𝐀 main_v24) :=
  read_binary writes 35 main_v22 main_v24 main_v25 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) _ _ _ rfl M (by decide) (by decide) (by decide)
theorem e_v26 : 𝐀 main_v26 = ((extractStridedSlice S1x1x64 ![0, 0, 0] · slices_S3x1x64_S1x1x64_0_0_0) : (⟨S3x1x64, .f32⟩ : BufTy).Contents (Elt F) → (⟨S1x1x64, .f32⟩ : BufTy).Contents (Elt F)) (𝐀 main_arg5) :=
  read_unary writes 36 main_arg5 main_v26 ((extractStridedSlice S1x1x64 ![0, 0, 0] · slices_S3x1x64_S1x1x64_0_0_0) : (⟨S3x1x64, .f32⟩ : BufTy).Contents (Elt F) → (⟨S1x1x64, .f32⟩ : BufTy).Contents (Elt F)) _ _ rfl M (by decide) (by decide)
theorem e_v27 : 𝐀 main_v27 = shapeCast S1x64 (𝐀 main_v26) shapeCasts_S1x1x64_S1x64 :=
  read_reshape writes 37 main_v26 main_v27 rfl shapeCasts_S1x1x64_S1x64 _ _ rfl M (by decide) (by decide)
theorem e_v28 : 𝐀 main_v28 = (broadcastInDim S150000x64 ![0, 1] bcast_S1x64_S150000x64_0_1 : (⟨S1x64, .f32⟩ : BufTy).Contents (Elt F) → (⟨S150000x64, .f32⟩ : BufTy).Contents (Elt F)) (𝐀 main_v27) :=
  read_unary writes 38 main_v27 main_v28 (broadcastInDim S150000x64 ![0, 1] bcast_S1x64_S150000x64_0_1 : (⟨S1x64, .f32⟩ : BufTy).Contents (Elt F) → (⟨S150000x64, .f32⟩ : BufTy).Contents (Elt F)) _ _ rfl M (by decide) (by decide)
theorem e_v29 : 𝐀 main_v29 = (addf : (⟨S150000x64, .f32⟩ : BufTy).Contents (Elt F) → (⟨S150000x64, .f32⟩ : BufTy).Contents (Elt F) → (⟨S150000x64, .f32⟩ : BufTy).Contents (Elt F)) (𝐀 main_v25) (𝐀 main_v28) :=
  read_binary writes 39 main_v25 main_v28 main_v29 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_cst_2 : 𝐀 main_cst_2 = (constant S_ .f32 0x3E4CCCCD#32) :=
  read_nullary writes 40 main_cst_2 (constant S_ .f32 0x3E4CCCCD#32) _ rfl M (by decide)
theorem e_call1_cst : 𝐀 main_call1_cst = (constant (F := F) S_ .f32 0x00000000#32) :=
  read_nullary writes 41 main_call1_cst (constant (F := F) S_ .f32 0x00000000#32) _ rfl M (by decide)
theorem e_call1_v0 : 𝐀 main_call1_v0 = (broadcastInDim S150000x64 ![] bcast_S_S150000x64 : FVec F S_ .f32 → FVec F S150000x64 .f32) (𝐀 main_call1_cst) :=
  read_unary writes 42 main_call1_cst main_call1_v0 (broadcastInDim S150000x64 ![] bcast_S_S150000x64 : FVec F S_ .f32 → FVec F S150000x64 .f32) _ _ rfl M (by decide) (by decide)
theorem e_call1_v1 : 𝐀 main_call1_v1 = (cmpf .oge : FVec F S150000x64 .f32 → FVec F S150000x64 .f32 → IVec S150000x64 1) (𝐀 main_v29) (𝐀 main_call1_v0) :=
  read_binary writes 43 main_v29 main_call1_v0 main_call1_v1 (cmpf .oge : FVec F S150000x64 .f32 → FVec F S150000x64 .f32 → IVec S150000x64 1) _ _ _ rfl M (by decide) (by decide) (by decide)
theorem e_call1_v2 : 𝐀 main_call1_v2 = (id : FVec F S_ .f32 → FVec F S_ .f32) (𝐀 main_cst_2) :=
  read_unary writes 44 main_cst_2 main_call1_v2 (id : FVec F S_ .f32 → FVec F S_ .f32) _ _ rfl M (by decide) (by decide)
theorem e_call1_v3 : 𝐀 main_call1_v3 = (broadcastInDim S150000x64 ![] bcast_S_S150000x64 : FVec F S_ .f32 → FVec F S150000x64 .f32) (𝐀 main_call1_v2) :=
  read_unary writes 45 main_call1_v2 main_call1_v3 (broadcastInDim S150000x64 ![] bcast_S_S150000x64 : FVec F S_ .f32 → FVec F S150000x64 .f32) _ _ rfl M (by decide) (by decide)
theorem e_call1_v4 : 𝐀 main_call1_v4 = (mulf : FVec F S150000x64 .f32 → FVec F S150000x64 .f32 → FVec F S150000x64 .f32) (𝐀 main_call1_v3) (𝐀 main_v29) :=
  read_binary writes 46 main_call1_v3 main_v29 main_call1_v4 (mulf : FVec F S150000x64 .f32 → FVec F S150000x64 .f32 → FVec F S150000x64 .f32) _ _ _ rfl M (by decide) (by decide) (by decide)
theorem e_v30 : 𝐀 main_v30 = (select : IVec S150000x64 1 → FVec F S150000x64 .f32 → FVec F S150000x64 .f32 → FVec F S150000x64 .f32) (𝐀 main_call1_v1) (𝐀 main_v29) (𝐀 main_call1_v4) :=
  read_ternary writes 47 main_call1_v1 main_v29 main_call1_v4 main_v30 (select : IVec S150000x64 1 → FVec F S150000x64 .f32 → FVec F S150000x64 .f32 → FVec F S150000x64 .f32) _ _ _ _ rfl M (by decide) (by decide) (by decide) (by decide)
theorem e_v31 : 𝐀 main_v31 = (addf : (⟨S150000x64, .f32⟩ : BufTy).Contents (Elt F) → (⟨S150000x64, .f32⟩ : BufTy).Contents (Elt F) → (⟨S150000x64, .f32⟩ : BufTy).Contents (Elt F)) (𝐀 main_v21) (𝐀 main_v30) :=
  read_binary writes 48 main_v21 main_v30 main_v31 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_call2_v0 : 𝐀 main_call2_v0 = (mulf : FVec F S150000x64 .f32 → FVec F S150000x64 .f32 → FVec F S150000x64 .f32) (𝐀 main_v31) (𝐀 main_v31) :=
  read_binary writes 49 main_v31 main_v31 main_call2_v0 (mulf : FVec F S150000x64 .f32 → FVec F S150000x64 .f32 → FVec F S150000x64 .f32) _ _ _ rfl M (by decide) (by decide) (by decide)
theorem e_call2_cst : 𝐀 main_call2_cst = (constant (F := F) S_ .f32 0x00000000#32) :=
  read_nullary writes 50 main_call2_cst (constant (F := F) S_ .f32 0x00000000#32) _ rfl M (by decide)
theorem e_call2_v1 : 𝐀 main_call2_v1 = ((fun x v => Host.reduceAdd x v reducesTo_S150000x64_S150000_d1 h_S_) : FVec F S150000x64 .f32 → FVec F S_ .f32 → FVec F S150000 .f32) (𝐀 main_call2_v0) (𝐀 main_call2_cst) :=
  read_binary writes 51 main_call2_v0 main_call2_cst main_call2_v1 ((fun x v => Host.reduceAdd x v reducesTo_S150000x64_S150000_d1 h_S_) : FVec F S150000x64 .f32 → FVec F S_ .f32 → FVec F S150000 .f32) _ _ _ rfl M (by decide) (by decide) (by decide)
theorem e_call2_v2 : 𝐀 main_call2_v2 = (broadcastInDim S150000x1 ![0] bcast_S150000_S150000x1_0 : FVec F S150000 .f32 → FVec F S150000x1 .f32) (𝐀 main_call2_v1) :=
  read_unary writes 52 main_call2_v1 main_call2_v2 (broadcastInDim S150000x1 ![0] bcast_S150000_S150000x1_0 : FVec F S150000 .f32 → FVec F S150000x1 .f32) _ _ rfl M (by decide) (by decide)
theorem e_v32 : 𝐀 main_v32 = (Host.sqrt : FVec F S150000x1 .f32 → FVec F S150000x1 .f32) (𝐀 main_call2_v2) :=
  read_unary writes 53 main_call2_v2 main_v32 (Host.sqrt : FVec F S150000x1 .f32 → FVec F S150000x1 .f32) _ _ rfl M (by decide) (by decide)
theorem e_cst_3 : 𝐀 main_cst_3 = (constant S_ .f32 0x2B8CBCCC#32) :=
  read_nullary writes 54 main_cst_3 (constant S_ .f32 0x2B8CBCCC#32) _ rfl M (by decide)
theorem e_v33 : 𝐀 main_v33 = (broadcastInDim S150000x1 ![] bcast_S_S150000x1 : (⟨S_, .f32⟩ : BufTy).Contents (Elt F) → (⟨S150000x1, .f32⟩ : BufTy).Contents (Elt F)) (𝐀 main_cst_3) :=
  read_unary writes 55 main_cst_3 main_v33 (broadcastInDim S150000x1 ![] bcast_S_S150000x1 : (⟨S_, .f32⟩ : BufTy).Contents (Elt F) → (⟨S150000x1, .f32⟩ : BufTy).Contents (Elt F)) _ _ rfl M (by decide) (by decide)
theorem e_v34 : 𝐀 main_v34 = (maximumf : (⟨S150000x1, .f32⟩ : BufTy).Contents (Elt F) → (⟨S150000x1, .f32⟩ : BufTy).Contents (Elt F) → (⟨S150000x1, .f32⟩ : BufTy).Contents (Elt F)) (𝐀 main_v32) (𝐀 main_v33) :=
  read_binary writes 56 main_v32 main_v33 main_v34 (maximumf : (⟨S150000x1, .f32⟩ : BufTy).Contents (Elt F) → (⟨S150000x1, .f32⟩ : BufTy).Contents (Elt F) → (⟨S150000x1, .f32⟩ : BufTy).Contents (Elt F)) _ _ _ rfl M (by decide) (by decide) (by decide)
theorem e_v35 : 𝐀 main_v35 = (broadcastInDim S150000x64 ![0, 1] bcast_S150000x1_S150000x64_0_1 : (⟨S150000x1, .f32⟩ : BufTy).Contents (Elt F) → (⟨S150000x64, .f32⟩ : BufTy).Contents (Elt F)) (𝐀 main_v34) :=
  read_unary writes 57 main_v34 main_v35 (broadcastInDim S150000x64 ![0, 1] bcast_S150000x1_S150000x64_0_1 : (⟨S150000x1, .f32⟩ : BufTy).Contents (Elt F) → (⟨S150000x64, .f32⟩ : BufTy).Contents (Elt F)) _ _ rfl M (by decide) (by decide)
theorem e_v36 : 𝐀 main_v36 = (Host.divf : (⟨S150000x64, .f32⟩ : BufTy).Contents (Elt F) → (⟨S150000x64, .f32⟩ : BufTy).Contents (Elt F) → (⟨S150000x64, .f32⟩ : BufTy).Contents (Elt F)) (𝐀 main_v31) (𝐀 main_v35) :=
  read_binary writes 58 main_v31 main_v35 main_v36 (Host.divf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_c_4 : 𝐀 main_c_4 = (constantI S_ 32 0#32) :=
  read_nullary writes 59 main_c_4 (constantI S_ 32 0#32) _ rfl M (by decide)
theorem e_v37 : 𝐀 main_v37 = (broadcastInDim S2400000 ![] bcast_S_S2400000 : (⟨S_, .i32⟩ : BufTy).Contents (Elt F) → (⟨S2400000, .i32⟩ : BufTy).Contents (Elt F)) (𝐀 main_c_4) :=
  read_unary writes 60 main_c_4 main_v37 (broadcastInDim S2400000 ![] bcast_S_S2400000 : (⟨S_, .i32⟩ : BufTy).Contents (Elt F) → (⟨S2400000, .i32⟩ : BufTy).Contents (Elt F)) _ _ rfl M (by decide) (by decide)
theorem e_v38 : 𝐀 main_v38 = (cmpi .slt : (⟨S2400000, .i32⟩ : BufTy).Contents (Elt F) → (⟨S2400000, .i32⟩ : BufTy).Contents (Elt F) → (⟨S2400000, .i1⟩ : BufTy).Contents (Elt F)) (𝐀 main_arg8) (𝐀 main_v37) :=
  read_binary writes 61 main_arg8 main_v37 main_v38 (cmpi .slt : (⟨S2400000, .i32⟩ : BufTy).Contents (Elt F) → (⟨S2400000, .i32⟩ : BufTy).Contents (Elt F) → (⟨S2400000, .i1⟩ : BufTy).Contents (Elt F)) _ _ _ rfl M (by decide) (by decide) (by decide)
theorem e_c_5 : 𝐀 main_c_5 = (constantI S_ 32 150000#32) :=
  read_nullary writes 62 main_c_5 (constantI S_ 32 150000#32) _ rfl M (by decide)
theorem e_v39 : 𝐀 main_v39 = (broadcastInDim S2400000 ![] bcast_S_S2400000 : (⟨S_, .i32⟩ : BufTy).Contents (Elt F) → (⟨S2400000, .i32⟩ : BufTy).Contents (Elt F)) (𝐀 main_c_5) :=
  read_unary writes 63 main_c_5 main_v39 (broadcastInDim S2400000 ![] bcast_S_S2400000 : (⟨S_, .i32⟩ : BufTy).Contents (Elt F) → (⟨S2400000, .i32⟩ : BufTy).Contents (Elt F)) _ _ rfl M (by decide) (by decide)
theorem e_v40 : 𝐀 main_v40 = (addi : (⟨S2400000, .i32⟩ : BufTy).Contents (Elt F) → (⟨S2400000, .i32⟩ : BufTy).Contents (Elt F) → (⟨S2400000, .i32⟩ : BufTy).Contents (Elt F)) (𝐀 main_arg8) (𝐀 main_v39) :=
  read_binary writes 64 main_arg8 main_v39 main_v40 (addi : (⟨S2400000, .i32⟩ : BufTy).Contents (Elt F) → (⟨S2400000, .i32⟩ : BufTy).Contents (Elt F) → (⟨S2400000, .i32⟩ : BufTy).Contents (Elt F)) _ _ _ rfl M (by decide) (by decide) (by decide)
theorem e_v41 : 𝐀 main_v41 = (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)) (𝐀 main_v38) (𝐀 main_v40) (𝐀 main_arg8) :=
  read_ternary writes 65 main_v38 main_v40 main_arg8 main_v41 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)) _ _ _ _ rfl M (by decide) (by decide) (by decide) (by decide)
theorem e_v42 : 𝐀 main_v42 = (broadcastInDim S2400000x1 ![0] bcast_S2400000_S2400000x1_0 : (⟨S2400000, .i32⟩ : BufTy).Contents (Elt F) → (⟨S2400000x1, .i32⟩ : BufTy).Contents (Elt F)) (𝐀 main_v41) :=
  read_unary writes 66 main_v41 main_v42 (broadcastInDim S2400000x1 ![0] bcast_S2400000_S2400000x1_0 : (⟨S2400000, .i32⟩ : BufTy).Contents (Elt F) → (⟨S2400000x1, .i32⟩ : BufTy).Contents (Elt F)) _ _ rfl M (by decide) (by decide)
theorem e_v43 : 𝐀 main_v43 = ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)) (𝐀 main_v31) (𝐀 main_v42) :=
  read_binary writes 67 main_v31 main_v42 main_v43 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)) _ _ _ rfl M (by decide) (by decide) (by decide)
theorem e_v44 : 𝐀 main_v44 = (broadcastInDim S2400000x1 ![0] bcast_S2400000_S2400000x1_0 : (⟨S2400000, .f32⟩ : BufTy).Contents (Elt F) → (⟨S2400000x1, .f32⟩ : BufTy).Contents (Elt F)) (𝐀 main_arg6) :=
  read_unary writes 68 main_arg6 main_v44 (broadcastInDim S2400000x1 ![0] bcast_S2400000_S2400000x1_0 : (⟨S2400000, .f32⟩ : BufTy).Contents (Elt F) → (⟨S2400000x1, .f32⟩ : BufTy).Contents (Elt F)) _ _ rfl M (by decide) (by decide)
theorem e_v45 : 𝐀 main_v45 = (broadcastInDim S2400000x64 ![0, 1] bcast_S2400000x1_S2400000x64_0_1 : (⟨S2400000x1, .f32⟩ : BufTy).Contents (Elt F) → (⟨S2400000x64, .f32⟩ : BufTy).Contents (Elt F)) (𝐀 main_v44) :=
  read_unary writes 69 main_v44 main_v45 (broadcastInDim S2400000x64 ![0, 1] bcast_S2400000x1_S2400000x64_0_1 : (⟨S2400000x1, .f32⟩ : BufTy).Contents (Elt F) → (⟨S2400000x64, .f32⟩ : BufTy).Contents (Elt F)) _ _ rfl M (by decide) (by decide)
theorem e_v46 : 𝐀 main_v46 = (mulf : (⟨S2400000x64, .f32⟩ : BufTy).Contents (Elt F) → (⟨S2400000x64, .f32⟩ : BufTy).Contents (Elt F) → (⟨S2400000x64, .f32⟩ : BufTy).Contents (Elt F)) (𝐀 main_v43) (𝐀 main_v45) :=
  read_binary writes 70 main_v43 main_v45 main_v46 (mulf : (⟨S2400000x64, .f32⟩ : BufTy).Contents (Elt F) → (⟨S2400000x64, .f32⟩ : BufTy).Contents (Elt F) → (⟨S2400000x64, .f32⟩ : BufTy).Contents (Elt F)) _ _ _ rfl M (by decide) (by decide) (by decide)
theorem e_cst_6 : 𝐀 main_cst_6 = (constant S_ .f32 0x00000000#32) :=
  read_nullary writes 71 main_cst_6 (constant S_ .f32 0x00000000#32) _ rfl M (by decide)
theorem e_v47 : 𝐀 main_v47 = (broadcastInDim S150000x64 ![] bcast_S_S150000x64 : (⟨S_, .f32⟩ : BufTy).Contents (Elt F) → (⟨S150000x64, .f32⟩ : BufTy).Contents (Elt F)) (𝐀 main_cst_6) :=
  read_unary writes 72 main_cst_6 main_v47 (broadcastInDim S150000x64 ![] bcast_S_S150000x64 : (⟨S_, .f32⟩ : BufTy).Contents (Elt F) → (⟨S150000x64, .f32⟩ : BufTy).Contents (Elt F)) _ _ rfl M (by decide) (by decide)
theorem e_v48 : 𝐀 main_v48 = (broadcastInDim S2400000x1 ![0] bcast_S2400000_S2400000x1_0 : (⟨S2400000, .i32⟩ : BufTy).Contents (Elt F) → (⟨S2400000x1, .i32⟩ : BufTy).Contents (Elt F)) (𝐀 main_arg7) :=
  read_unary writes 73 main_arg7 main_v48 (broadcastInDim S2400000x1 ![0] bcast_S2400000_S2400000x1_0 : (⟨S2400000, .i32⟩ : BufTy).Contents (Elt F) → (⟨S2400000x1, .i32⟩ : BufTy).Contents (Elt F)) _ _ rfl M (by decide) (by decide)
theorem e_v49 : 𝐀 main_v49 = ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) (𝐀 main_v47) (𝐀 main_v48) (𝐀 main_v46) :=
  read_ternary writes 74 main_v47 main_v48 main_v46 main_v49 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) _ _ _ _ rfl M (by decide) (by decide) (by decide) (by decide)
theorem e_v50 : 𝐀 main_v50 = ((extractStridedSlice S1x64x64 ![1, 0, 0] · slices_S3x64x64_S1x64x64_1_0_0) : (⟨S3x64x64, .f32⟩ : BufTy).Contents (Elt F) → (⟨S1x64x64, .f32⟩ : BufTy).Contents (Elt F)) (𝐀 main_arg2) :=
  read_unary writes 75 main_arg2 main_v50 ((extractStridedSlice S1x64x64 ![1, 0, 0] · slices_S3x64x64_S1x64x64_1_0_0) : (⟨S3x64x64, .f32⟩ : BufTy).Contents (Elt F) → (⟨S1x64x64, .f32⟩ : BufTy).Contents (Elt F)) _ _ rfl M (by decide) (by decide)
theorem e_v51 : 𝐀 main_v51 = shapeCast S64x64 (𝐀 main_v50) shapeCasts_S1x64x64_S64x64 :=
  read_reshape writes 76 main_v50 main_v51 rfl shapeCasts_S1x64x64_S64x64 _ _ rfl M (by decide) (by decide)
theorem e_v52 : 𝐀 main_v52 = ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) (𝐀 main_v49) (𝐀 main_v51) :=
  read_binary writes 77 main_v49 main_v51 main_v52 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) _ _ _ rfl M (by decide) (by decide) (by decide)
theorem e_v53 : 𝐀 main_v53 = ((extractStridedSlice S1x1x64 ![1, 0, 0] · slices_S3x1x64_S1x1x64_1_0_0) : (⟨S3x1x64, .f32⟩ : BufTy).Contents (Elt F) → (⟨S1x1x64, .f32⟩ : BufTy).Contents (Elt F)) (𝐀 main_arg3) :=
  read_unary writes 78 main_arg3 main_v53 ((extractStridedSlice S1x1x64 ![1, 0, 0] · slices_S3x1x64_S1x1x64_1_0_0) : (⟨S3x1x64, .f32⟩ : BufTy).Contents (Elt F) → (⟨S1x1x64, .f32⟩ : BufTy).Contents (Elt F)) _ _ rfl M (by decide) (by decide)
theorem e_v54 : 𝐀 main_v54 = shapeCast S1x64 (𝐀 main_v53) shapeCasts_S1x1x64_S1x64 :=
  read_reshape writes 79 main_v53 main_v54 rfl shapeCasts_S1x1x64_S1x64 _ _ rfl M (by decide) (by decide)
theorem e_v55 : 𝐀 main_v55 = (broadcastInDim S150000x64 ![0, 1] bcast_S1x64_S150000x64_0_1 : (⟨S1x64, .f32⟩ : BufTy).Contents (Elt F) → (⟨S150000x64, .f32⟩ : BufTy).Contents (Elt F)) (𝐀 main_v54) :=
  read_unary writes 80 main_v54 main_v55 (broadcastInDim S150000x64 ![0, 1] bcast_S1x64_S150000x64_0_1 : (⟨S1x64, .f32⟩ : BufTy).Contents (Elt F) → (⟨S150000x64, .f32⟩ : BufTy).Contents (Elt F)) _ _ rfl M (by decide) (by decide)
theorem e_v56 : 𝐀 main_v56 = (addf : (⟨S150000x64, .f32⟩ : BufTy).Contents (Elt F) → (⟨S150000x64, .f32⟩ : BufTy).Contents (Elt F) → (⟨S150000x64, .f32⟩ : BufTy).Contents (Elt F)) (𝐀 main_v52) (𝐀 main_v55) :=
  read_binary writes 81 main_v52 main_v55 main_v56 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_cst_7 : 𝐀 main_cst_7 = (constant S_ .f32 0x3E4CCCCD#32) :=
  read_nullary writes 82 main_cst_7 (constant S_ .f32 0x3E4CCCCD#32) _ rfl M (by decide)
theorem e_call3_cst : 𝐀 main_call3_cst = (constant (F := F) S_ .f32 0x00000000#32) :=
  read_nullary writes 83 main_call3_cst (constant (F := F) S_ .f32 0x00000000#32) _ rfl M (by decide)
theorem e_call3_v0 : 𝐀 main_call3_v0 = (broadcastInDim S150000x64 ![] bcast_S_S150000x64 : FVec F S_ .f32 → FVec F S150000x64 .f32) (𝐀 main_call3_cst) :=
  read_unary writes 84 main_call3_cst main_call3_v0 (broadcastInDim S150000x64 ![] bcast_S_S150000x64 : FVec F S_ .f32 → FVec F S150000x64 .f32) _ _ rfl M (by decide) (by decide)
theorem e_call3_v1 : 𝐀 main_call3_v1 = (cmpf .oge : FVec F S150000x64 .f32 → FVec F S150000x64 .f32 → IVec S150000x64 1) (𝐀 main_v56) (𝐀 main_call3_v0) :=
  read_binary writes 85 main_v56 main_call3_v0 main_call3_v1 (cmpf .oge : FVec F S150000x64 .f32 → FVec F S150000x64 .f32 → IVec S150000x64 1) _ _ _ rfl M (by decide) (by decide) (by decide)
theorem e_call3_v2 : 𝐀 main_call3_v2 = (id : FVec F S_ .f32 → FVec F S_ .f32) (𝐀 main_cst_7) :=
  read_unary writes 86 main_cst_7 main_call3_v2 (id : FVec F S_ .f32 → FVec F S_ .f32) _ _ rfl M (by decide) (by decide)
theorem e_call3_v3 : 𝐀 main_call3_v3 = (broadcastInDim S150000x64 ![] bcast_S_S150000x64 : FVec F S_ .f32 → FVec F S150000x64 .f32) (𝐀 main_call3_v2) :=
  read_unary writes 87 main_call3_v2 main_call3_v3 (broadcastInDim S150000x64 ![] bcast_S_S150000x64 : FVec F S_ .f32 → FVec F S150000x64 .f32) _ _ rfl M (by decide) (by decide)
theorem e_call3_v4 : 𝐀 main_call3_v4 = (mulf : FVec F S150000x64 .f32 → FVec F S150000x64 .f32 → FVec F S150000x64 .f32) (𝐀 main_call3_v3) (𝐀 main_v56) :=
  read_binary writes 88 main_call3_v3 main_v56 main_call3_v4 (mulf : FVec F S150000x64 .f32 → FVec F S150000x64 .f32 → FVec F S150000x64 .f32) _ _ _ rfl M (by decide) (by decide) (by decide)
theorem e_v57 : 𝐀 main_v57 = (select : IVec S150000x64 1 → FVec F S150000x64 .f32 → FVec F S150000x64 .f32 → FVec F S150000x64 .f32) (𝐀 main_call3_v1) (𝐀 main_v56) (𝐀 main_call3_v4) :=
  read_ternary writes 89 main_call3_v1 main_v56 main_call3_v4 main_v57 (select : IVec S150000x64 1 → FVec F S150000x64 .f32 → FVec F S150000x64 .f32 → FVec F S150000x64 .f32) _ _ _ _ rfl M (by decide) (by decide) (by decide) (by decide)
theorem e_v58 : 𝐀 main_v58 = (mulf : (⟨S150000x64, .f32⟩ : BufTy).Contents (Elt F) → (⟨S150000x64, .f32⟩ : BufTy).Contents (Elt F) → (⟨S150000x64, .f32⟩ : BufTy).Contents (Elt F)) (𝐀 main_v31) (𝐀 main_v49) :=
  read_binary writes 90 main_v31 main_v49 main_v58 (mulf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_v59 : 𝐀 main_v59 = ((extractStridedSlice S1x64x64 ![1, 0, 0] · slices_S3x64x64_S1x64x64_1_0_0) : (⟨S3x64x64, .f32⟩ : BufTy).Contents (Elt F) → (⟨S1x64x64, .f32⟩ : BufTy).Contents (Elt F)) (𝐀 main_arg4) :=
  read_unary writes 91 main_arg4 main_v59 ((extractStridedSlice S1x64x64 ![1, 0, 0] · slices_S3x64x64_S1x64x64_1_0_0) : (⟨S3x64x64, .f32⟩ : BufTy).Contents (Elt F) → (⟨S1x64x64, .f32⟩ : BufTy).Contents (Elt F)) _ _ rfl M (by decide) (by decide)
theorem e_v60 : 𝐀 main_v60 = shapeCast S64x64 (𝐀 main_v59) shapeCasts_S1x64x64_S64x64 :=
  read_reshape writes 92 main_v59 main_v60 rfl shapeCasts_S1x64x64_S64x64 _ _ rfl M (by decide) (by decide)
theorem e_v61 : 𝐀 main_v61 = ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) (𝐀 main_v58) (𝐀 main_v60) :=
  read_binary writes 93 main_v58 main_v60 main_v61 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) _ _ _ rfl M (by decide) (by decide) (by decide)
theorem e_v62 : 𝐀 main_v62 = ((extractStridedSlice S1x1x64 ![1, 0, 0] · slices_S3x1x64_S1x1x64_1_0_0) : (⟨S3x1x64, .f32⟩ : BufTy).Contents (Elt F) → (⟨S1x1x64, .f32⟩ : BufTy).Contents (Elt F)) (𝐀 main_arg5) :=
  read_unary writes 94 main_arg5 main_v62 ((extractStridedSlice S1x1x64 ![1, 0, 0] · slices_S3x1x64_S1x1x64_1_0_0) : (⟨S3x1x64, .f32⟩ : BufTy).Contents (Elt F) → (⟨S1x1x64, .f32⟩ : BufTy).Contents (Elt F)) _ _ rfl M (by decide) (by decide)
theorem e_v63 : 𝐀 main_v63 = shapeCast S1x64 (𝐀 main_v62) shapeCasts_S1x1x64_S1x64 :=
  read_reshape writes 95 main_v62 main_v63 rfl shapeCasts_S1x1x64_S1x64 _ _ rfl M (by decide) (by decide)
theorem e_v64 : 𝐀 main_v64 = (broadcastInDim S150000x64 ![0, 1] bcast_S1x64_S150000x64_0_1 : (⟨S1x64, .f32⟩ : BufTy).Contents (Elt F) → (⟨S150000x64, .f32⟩ : BufTy).Contents (Elt F)) (𝐀 main_v63) :=
  read_unary writes 96 main_v63 main_v64 (broadcastInDim S150000x64 ![0, 1] bcast_S1x64_S150000x64_0_1 : (⟨S1x64, .f32⟩ : BufTy).Contents (Elt F) → (⟨S150000x64, .f32⟩ : BufTy).Contents (Elt F)) _ _ rfl M (by decide) (by decide)
theorem e_v65 : 𝐀 main_v65 = (addf : (⟨S150000x64, .f32⟩ : BufTy).Contents (Elt F) → (⟨S150000x64, .f32⟩ : BufTy).Contents (Elt F) → (⟨S150000x64, .f32⟩ : BufTy).Contents (Elt F)) (𝐀 main_v61) (𝐀 main_v64) :=
  read_binary writes 97 main_v61 main_v64 main_v65 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_cst_8 : 𝐀 main_cst_8 = (constant S_ .f32 0x3E4CCCCD#32) :=
  read_nullary writes 98 main_cst_8 (constant S_ .f32 0x3E4CCCCD#32) _ rfl M (by decide)
theorem e_call4_cst : 𝐀 main_call4_cst = (constant (F := F) S_ .f32 0x00000000#32) :=
  read_nullary writes 99 main_call4_cst (constant (F := F) S_ .f32 0x00000000#32) _ rfl M (by decide)
theorem e_call4_v0 : 𝐀 main_call4_v0 = (broadcastInDim S150000x64 ![] bcast_S_S150000x64 : FVec F S_ .f32 → FVec F S150000x64 .f32) (𝐀 main_call4_cst) :=
  read_unary writes 100 main_call4_cst main_call4_v0 (broadcastInDim S150000x64 ![] bcast_S_S150000x64 : FVec F S_ .f32 → FVec F S150000x64 .f32) _ _ rfl M (by decide) (by decide)
theorem e_call4_v1 : 𝐀 main_call4_v1 = (cmpf .oge : FVec F S150000x64 .f32 → FVec F S150000x64 .f32 → IVec S150000x64 1) (𝐀 main_v65) (𝐀 main_call4_v0) :=
  read_binary writes 101 main_v65 main_call4_v0 main_call4_v1 (cmpf .oge : FVec F S150000x64 .f32 → FVec F S150000x64 .f32 → IVec S150000x64 1) _ _ _ rfl M (by decide) (by decide) (by decide)
theorem e_call4_v2 : 𝐀 main_call4_v2 = (id : FVec F S_ .f32 → FVec F S_ .f32) (𝐀 main_cst_8) :=
  read_unary writes 102 main_cst_8 main_call4_v2 (id : FVec F S_ .f32 → FVec F S_ .f32) _ _ rfl M (by decide) (by decide)
theorem e_call4_v3 : 𝐀 main_call4_v3 = (broadcastInDim S150000x64 ![] bcast_S_S150000x64 : FVec F S_ .f32 → FVec F S150000x64 .f32) (𝐀 main_call4_v2) :=
  read_unary writes 103 main_call4_v2 main_call4_v3 (broadcastInDim S150000x64 ![] bcast_S_S150000x64 : FVec F S_ .f32 → FVec F S150000x64 .f32) _ _ rfl M (by decide) (by decide)
theorem e_call4_v4 : 𝐀 main_call4_v4 = (mulf : FVec F S150000x64 .f32 → FVec F S150000x64 .f32 → FVec F S150000x64 .f32) (𝐀 main_call4_v3) (𝐀 main_v65) :=
  read_binary writes 104 main_call4_v3 main_v65 main_call4_v4 (mulf : FVec F S150000x64 .f32 → FVec F S150000x64 .f32 → FVec F S150000x64 .f32) _ _ _ rfl M (by decide) (by decide) (by decide)
theorem e_v66 : 𝐀 main_v66 = (select : IVec S150000x64 1 → FVec F S150000x64 .f32 → FVec F S150000x64 .f32 → FVec F S150000x64 .f32) (𝐀 main_call4_v1) (𝐀 main_v65) (𝐀 main_call4_v4) :=
  read_ternary writes 105 main_call4_v1 main_v65 main_call4_v4 main_v66 (select : IVec S150000x64 1 → FVec F S150000x64 .f32 → FVec F S150000x64 .f32 → FVec F S150000x64 .f32) _ _ _ _ rfl M (by decide) (by decide) (by decide) (by decide)
theorem e_v67 : 𝐀 main_v67 = (addf : (⟨S150000x64, .f32⟩ : BufTy).Contents (Elt F) → (⟨S150000x64, .f32⟩ : BufTy).Contents (Elt F) → (⟨S150000x64, .f32⟩ : BufTy).Contents (Elt F)) (𝐀 main_v57) (𝐀 main_v66) :=
  read_binary writes 106 main_v57 main_v66 main_v67 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_call5_v0 : 𝐀 main_call5_v0 = (mulf : FVec F S150000x64 .f32 → FVec F S150000x64 .f32 → FVec F S150000x64 .f32) (𝐀 main_v67) (𝐀 main_v67) :=
  read_binary writes 107 main_v67 main_v67 main_call5_v0 (mulf : FVec F S150000x64 .f32 → FVec F S150000x64 .f32 → FVec F S150000x64 .f32) _ _ _ rfl M (by decide) (by decide) (by decide)
theorem e_call5_cst : 𝐀 main_call5_cst = (constant (F := F) S_ .f32 0x00000000#32) :=
  read_nullary writes 108 main_call5_cst (constant (F := F) S_ .f32 0x00000000#32) _ rfl M (by decide)
theorem e_call5_v1 : 𝐀 main_call5_v1 = ((fun x v => Host.reduceAdd x v reducesTo_S150000x64_S150000_d1 h_S_) : FVec F S150000x64 .f32 → FVec F S_ .f32 → FVec F S150000 .f32) (𝐀 main_call5_v0) (𝐀 main_call5_cst) :=
  read_binary writes 109 main_call5_v0 main_call5_cst main_call5_v1 ((fun x v => Host.reduceAdd x v reducesTo_S150000x64_S150000_d1 h_S_) : FVec F S150000x64 .f32 → FVec F S_ .f32 → FVec F S150000 .f32) _ _ _ rfl M (by decide) (by decide) (by decide)
theorem e_call5_v2 : 𝐀 main_call5_v2 = (broadcastInDim S150000x1 ![0] bcast_S150000_S150000x1_0 : FVec F S150000 .f32 → FVec F S150000x1 .f32) (𝐀 main_call5_v1) :=
  read_unary writes 110 main_call5_v1 main_call5_v2 (broadcastInDim S150000x1 ![0] bcast_S150000_S150000x1_0 : FVec F S150000 .f32 → FVec F S150000x1 .f32) _ _ rfl M (by decide) (by decide)
theorem e_v68 : 𝐀 main_v68 = (Host.sqrt : FVec F S150000x1 .f32 → FVec F S150000x1 .f32) (𝐀 main_call5_v2) :=
  read_unary writes 111 main_call5_v2 main_v68 (Host.sqrt : FVec F S150000x1 .f32 → FVec F S150000x1 .f32) _ _ rfl M (by decide) (by decide)
theorem e_cst_9 : 𝐀 main_cst_9 = (constant S_ .f32 0x2B8CBCCC#32) :=
  read_nullary writes 112 main_cst_9 (constant S_ .f32 0x2B8CBCCC#32) _ rfl M (by decide)
theorem e_v69 : 𝐀 main_v69 = (broadcastInDim S150000x1 ![] bcast_S_S150000x1 : (⟨S_, .f32⟩ : BufTy).Contents (Elt F) → (⟨S150000x1, .f32⟩ : BufTy).Contents (Elt F)) (𝐀 main_cst_9) :=
  read_unary writes 113 main_cst_9 main_v69 (broadcastInDim S150000x1 ![] bcast_S_S150000x1 : (⟨S_, .f32⟩ : BufTy).Contents (Elt F) → (⟨S150000x1, .f32⟩ : BufTy).Contents (Elt F)) _ _ rfl M (by decide) (by decide)
theorem e_v70 : 𝐀 main_v70 = (maximumf : (⟨S150000x1, .f32⟩ : BufTy).Contents (Elt F) → (⟨S150000x1, .f32⟩ : BufTy).Contents (Elt F) → (⟨S150000x1, .f32⟩ : BufTy).Contents (Elt F)) (𝐀 main_v68) (𝐀 main_v69) :=
  read_binary writes 114 main_v68 main_v69 main_v70 (maximumf : (⟨S150000x1, .f32⟩ : BufTy).Contents (Elt F) → (⟨S150000x1, .f32⟩ : BufTy).Contents (Elt F) → (⟨S150000x1, .f32⟩ : BufTy).Contents (Elt F)) _ _ _ rfl M (by decide) (by decide) (by decide)
theorem e_v71 : 𝐀 main_v71 = (broadcastInDim S150000x64 ![0, 1] bcast_S150000x1_S150000x64_0_1 : (⟨S150000x1, .f32⟩ : BufTy).Contents (Elt F) → (⟨S150000x64, .f32⟩ : BufTy).Contents (Elt F)) (𝐀 main_v70) :=
  read_unary writes 115 main_v70 main_v71 (broadcastInDim S150000x64 ![0, 1] bcast_S150000x1_S150000x64_0_1 : (⟨S150000x1, .f32⟩ : BufTy).Contents (Elt F) → (⟨S150000x64, .f32⟩ : BufTy).Contents (Elt F)) _ _ rfl M (by decide) (by decide)
theorem e_v72 : 𝐀 main_v72 = (Host.divf : (⟨S150000x64, .f32⟩ : BufTy).Contents (Elt F) → (⟨S150000x64, .f32⟩ : BufTy).Contents (Elt F) → (⟨S150000x64, .f32⟩ : BufTy).Contents (Elt F)) (𝐀 main_v67) (𝐀 main_v71) :=
  read_binary writes 116 main_v67 main_v71 main_v72 (Host.divf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_c_10 : 𝐀 main_c_10 = (constantI S_ 32 0#32) :=
  read_nullary writes 117 main_c_10 (constantI S_ 32 0#32) _ rfl M (by decide)
theorem e_v73 : 𝐀 main_v73 = (broadcastInDim S2400000 ![] bcast_S_S2400000 : (⟨S_, .i32⟩ : BufTy).Contents (Elt F) → (⟨S2400000, .i32⟩ : BufTy).Contents (Elt F)) (𝐀 main_c_10) :=
  read_unary writes 118 main_c_10 main_v73 (broadcastInDim S2400000 ![] bcast_S_S2400000 : (⟨S_, .i32⟩ : BufTy).Contents (Elt F) → (⟨S2400000, .i32⟩ : BufTy).Contents (Elt F)) _ _ rfl M (by decide) (by decide)
theorem e_v74 : 𝐀 main_v74 = (cmpi .slt : (⟨S2400000, .i32⟩ : BufTy).Contents (Elt F) → (⟨S2400000, .i32⟩ : BufTy).Contents (Elt F) → (⟨S2400000, .i1⟩ : BufTy).Contents (Elt F)) (𝐀 main_arg8) (𝐀 main_v73) :=
  read_binary writes 119 main_arg8 main_v73 main_v74 (cmpi .slt : (⟨S2400000, .i32⟩ : BufTy).Contents (Elt F) → (⟨S2400000, .i32⟩ : BufTy).Contents (Elt F) → (⟨S2400000, .i1⟩ : BufTy).Contents (Elt F)) _ _ _ rfl M (by decide) (by decide) (by decide)
theorem e_c_11 : 𝐀 main_c_11 = (constantI S_ 32 150000#32) :=
  read_nullary writes 120 main_c_11 (constantI S_ 32 150000#32) _ rfl M (by decide)
theorem e_v75 : 𝐀 main_v75 = (broadcastInDim S2400000 ![] bcast_S_S2400000 : (⟨S_, .i32⟩ : BufTy).Contents (Elt F) → (⟨S2400000, .i32⟩ : BufTy).Contents (Elt F)) (𝐀 main_c_11) :=
  read_unary writes 121 main_c_11 main_v75 (broadcastInDim S2400000 ![] bcast_S_S2400000 : (⟨S_, .i32⟩ : BufTy).Contents (Elt F) → (⟨S2400000, .i32⟩ : BufTy).Contents (Elt F)) _ _ rfl M (by decide) (by decide)
theorem e_v76 : 𝐀 main_v76 = (addi : (⟨S2400000, .i32⟩ : BufTy).Contents (Elt F) → (⟨S2400000, .i32⟩ : BufTy).Contents (Elt F) → (⟨S2400000, .i32⟩ : BufTy).Contents (Elt F)) (𝐀 main_arg8) (𝐀 main_v75) :=
  read_binary writes 122 main_arg8 main_v75 main_v76 (addi : (⟨S2400000, .i32⟩ : BufTy).Contents (Elt F) → (⟨S2400000, .i32⟩ : BufTy).Contents (Elt F) → (⟨S2400000, .i32⟩ : BufTy).Contents (Elt F)) _ _ _ rfl M (by decide) (by decide) (by decide)
theorem e_v77 : 𝐀 main_v77 = (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)) (𝐀 main_v74) (𝐀 main_v76) (𝐀 main_arg8) :=
  read_ternary writes 123 main_v74 main_v76 main_arg8 main_v77 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)) _ _ _ _ rfl M (by decide) (by decide) (by decide) (by decide)
theorem e_v78 : 𝐀 main_v78 = (broadcastInDim S2400000x1 ![0] bcast_S2400000_S2400000x1_0 : (⟨S2400000, .i32⟩ : BufTy).Contents (Elt F) → (⟨S2400000x1, .i32⟩ : BufTy).Contents (Elt F)) (𝐀 main_v77) :=
  read_unary writes 124 main_v77 main_v78 (broadcastInDim S2400000x1 ![0] bcast_S2400000_S2400000x1_0 : (⟨S2400000, .i32⟩ : BufTy).Contents (Elt F) → (⟨S2400000x1, .i32⟩ : BufTy).Contents (Elt F)) _ _ rfl M (by decide) (by decide)
theorem e_v79 : 𝐀 main_v79 = ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)) (𝐀 main_v67) (𝐀 main_v78) :=
  read_binary writes 125 main_v67 main_v78 main_v79 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)) _ _ _ rfl M (by decide) (by decide) (by decide)
theorem e_v80 : 𝐀 main_v80 = (broadcastInDim S2400000x1 ![0] bcast_S2400000_S2400000x1_0 : (⟨S2400000, .f32⟩ : BufTy).Contents (Elt F) → (⟨S2400000x1, .f32⟩ : BufTy).Contents (Elt F)) (𝐀 main_arg6) :=
  read_unary writes 126 main_arg6 main_v80 (broadcastInDim S2400000x1 ![0] bcast_S2400000_S2400000x1_0 : (⟨S2400000, .f32⟩ : BufTy).Contents (Elt F) → (⟨S2400000x1, .f32⟩ : BufTy).Contents (Elt F)) _ _ rfl M (by decide) (by decide)
theorem e_v81 : 𝐀 main_v81 = (broadcastInDim S2400000x64 ![0, 1] bcast_S2400000x1_S2400000x64_0_1 : (⟨S2400000x1, .f32⟩ : BufTy).Contents (Elt F) → (⟨S2400000x64, .f32⟩ : BufTy).Contents (Elt F)) (𝐀 main_v80) :=
  read_unary writes 127 main_v80 main_v81 (broadcastInDim S2400000x64 ![0, 1] bcast_S2400000x1_S2400000x64_0_1 : (⟨S2400000x1, .f32⟩ : BufTy).Contents (Elt F) → (⟨S2400000x64, .f32⟩ : BufTy).Contents (Elt F)) _ _ rfl M (by decide) (by decide)
theorem e_v82 : 𝐀 main_v82 = (mulf : (⟨S2400000x64, .f32⟩ : BufTy).Contents (Elt F) → (⟨S2400000x64, .f32⟩ : BufTy).Contents (Elt F) → (⟨S2400000x64, .f32⟩ : BufTy).Contents (Elt F)) (𝐀 main_v79) (𝐀 main_v81) :=
  read_binary writes 128 main_v79 main_v81 main_v82 (mulf : (⟨S2400000x64, .f32⟩ : BufTy).Contents (Elt F) → (⟨S2400000x64, .f32⟩ : BufTy).Contents (Elt F) → (⟨S2400000x64, .f32⟩ : BufTy).Contents (Elt F)) _ _ _ rfl M (by decide) (by decide) (by decide)
theorem e_cst_12 : 𝐀 main_cst_12 = (constant S_ .f32 0x00000000#32) :=
  read_nullary writes 129 main_cst_12 (constant S_ .f32 0x00000000#32) _ rfl M (by decide)
theorem e_v83 : 𝐀 main_v83 = (broadcastInDim S150000x64 ![] bcast_S_S150000x64 : (⟨S_, .f32⟩ : BufTy).Contents (Elt F) → (⟨S150000x64, .f32⟩ : BufTy).Contents (Elt F)) (𝐀 main_cst_12) :=
  read_unary writes 130 main_cst_12 main_v83 (broadcastInDim S150000x64 ![] bcast_S_S150000x64 : (⟨S_, .f32⟩ : BufTy).Contents (Elt F) → (⟨S150000x64, .f32⟩ : BufTy).Contents (Elt F)) _ _ rfl M (by decide) (by decide)
theorem e_v84 : 𝐀 main_v84 = (broadcastInDim S2400000x1 ![0] bcast_S2400000_S2400000x1_0 : (⟨S2400000, .i32⟩ : BufTy).Contents (Elt F) → (⟨S2400000x1, .i32⟩ : BufTy).Contents (Elt F)) (𝐀 main_arg7) :=
  read_unary writes 131 main_arg7 main_v84 (broadcastInDim S2400000x1 ![0] bcast_S2400000_S2400000x1_0 : (⟨S2400000, .i32⟩ : BufTy).Contents (Elt F) → (⟨S2400000x1, .i32⟩ : BufTy).Contents (Elt F)) _ _ rfl M (by decide) (by decide)
theorem e_v85 : 𝐀 main_v85 = ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) (𝐀 main_v83) (𝐀 main_v84) (𝐀 main_v82) :=
  read_ternary writes 132 main_v83 main_v84 main_v82 main_v85 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) _ _ _ _ rfl M (by decide) (by decide) (by decide) (by decide)
theorem e_v86 : 𝐀 main_v86 = ((extractStridedSlice S1x64x64 ![2, 0, 0] · slices_S3x64x64_S1x64x64_2_0_0) : (⟨S3x64x64, .f32⟩ : BufTy).Contents (Elt F) → (⟨S1x64x64, .f32⟩ : BufTy).Contents (Elt F)) (𝐀 main_arg2) :=
  read_unary writes 133 main_arg2 main_v86 ((extractStridedSlice S1x64x64 ![2, 0, 0] · slices_S3x64x64_S1x64x64_2_0_0) : (⟨S3x64x64, .f32⟩ : BufTy).Contents (Elt F) → (⟨S1x64x64, .f32⟩ : BufTy).Contents (Elt F)) _ _ rfl M (by decide) (by decide)
theorem e_v87 : 𝐀 main_v87 = shapeCast S64x64 (𝐀 main_v86) shapeCasts_S1x64x64_S64x64 :=
  read_reshape writes 134 main_v86 main_v87 rfl shapeCasts_S1x64x64_S64x64 _ _ rfl M (by decide) (by decide)
theorem e_v88 : 𝐀 main_v88 = ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) (𝐀 main_v85) (𝐀 main_v87) :=
  read_binary writes 135 main_v85 main_v87 main_v88 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) _ _ _ rfl M (by decide) (by decide) (by decide)
theorem e_v89 : 𝐀 main_v89 = ((extractStridedSlice S1x1x64 ![2, 0, 0] · slices_S3x1x64_S1x1x64_2_0_0) : (⟨S3x1x64, .f32⟩ : BufTy).Contents (Elt F) → (⟨S1x1x64, .f32⟩ : BufTy).Contents (Elt F)) (𝐀 main_arg3) :=
  read_unary writes 136 main_arg3 main_v89 ((extractStridedSlice S1x1x64 ![2, 0, 0] · slices_S3x1x64_S1x1x64_2_0_0) : (⟨S3x1x64, .f32⟩ : BufTy).Contents (Elt F) → (⟨S1x1x64, .f32⟩ : BufTy).Contents (Elt F)) _ _ rfl M (by decide) (by decide)
theorem e_v90 : 𝐀 main_v90 = shapeCast S1x64 (𝐀 main_v89) shapeCasts_S1x1x64_S1x64 :=
  read_reshape writes 137 main_v89 main_v90 rfl shapeCasts_S1x1x64_S1x64 _ _ rfl M (by decide) (by decide)
theorem e_v91 : 𝐀 main_v91 = (broadcastInDim S150000x64 ![0, 1] bcast_S1x64_S150000x64_0_1 : (⟨S1x64, .f32⟩ : BufTy).Contents (Elt F) → (⟨S150000x64, .f32⟩ : BufTy).Contents (Elt F)) (𝐀 main_v90) :=
  read_unary writes 138 main_v90 main_v91 (broadcastInDim S150000x64 ![0, 1] bcast_S1x64_S150000x64_0_1 : (⟨S1x64, .f32⟩ : BufTy).Contents (Elt F) → (⟨S150000x64, .f32⟩ : BufTy).Contents (Elt F)) _ _ rfl M (by decide) (by decide)
theorem e_v92 : 𝐀 main_v92 = (addf : (⟨S150000x64, .f32⟩ : BufTy).Contents (Elt F) → (⟨S150000x64, .f32⟩ : BufTy).Contents (Elt F) → (⟨S150000x64, .f32⟩ : BufTy).Contents (Elt F)) (𝐀 main_v88) (𝐀 main_v91) :=
  read_binary writes 139 main_v88 main_v91 main_v92 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_cst_13 : 𝐀 main_cst_13 = (constant S_ .f32 0x3E4CCCCD#32) :=
  read_nullary writes 140 main_cst_13 (constant S_ .f32 0x3E4CCCCD#32) _ rfl M (by decide)
theorem e_call6_cst : 𝐀 main_call6_cst = (constant (F := F) S_ .f32 0x00000000#32) :=
  read_nullary writes 141 main_call6_cst (constant (F := F) S_ .f32 0x00000000#32) _ rfl M (by decide)
theorem e_call6_v0 : 𝐀 main_call6_v0 = (broadcastInDim S150000x64 ![] bcast_S_S150000x64 : FVec F S_ .f32 → FVec F S150000x64 .f32) (𝐀 main_call6_cst) :=
  read_unary writes 142 main_call6_cst main_call6_v0 (broadcastInDim S150000x64 ![] bcast_S_S150000x64 : FVec F S_ .f32 → FVec F S150000x64 .f32) _ _ rfl M (by decide) (by decide)
theorem e_call6_v1 : 𝐀 main_call6_v1 = (cmpf .oge : FVec F S150000x64 .f32 → FVec F S150000x64 .f32 → IVec S150000x64 1) (𝐀 main_v92) (𝐀 main_call6_v0) :=
  read_binary writes 143 main_v92 main_call6_v0 main_call6_v1 (cmpf .oge : FVec F S150000x64 .f32 → FVec F S150000x64 .f32 → IVec S150000x64 1) _ _ _ rfl M (by decide) (by decide) (by decide)
theorem e_call6_v2 : 𝐀 main_call6_v2 = (id : FVec F S_ .f32 → FVec F S_ .f32) (𝐀 main_cst_13) :=
  read_unary writes 144 main_cst_13 main_call6_v2 (id : FVec F S_ .f32 → FVec F S_ .f32) _ _ rfl M (by decide) (by decide)
theorem e_call6_v3 : 𝐀 main_call6_v3 = (broadcastInDim S150000x64 ![] bcast_S_S150000x64 : FVec F S_ .f32 → FVec F S150000x64 .f32) (𝐀 main_call6_v2) :=
  read_unary writes 145 main_call6_v2 main_call6_v3 (broadcastInDim S150000x64 ![] bcast_S_S150000x64 : FVec F S_ .f32 → FVec F S150000x64 .f32) _ _ rfl M (by decide) (by decide)
theorem e_call6_v4 : 𝐀 main_call6_v4 = (mulf : FVec F S150000x64 .f32 → FVec F S150000x64 .f32 → FVec F S150000x64 .f32) (𝐀 main_call6_v3) (𝐀 main_v92) :=
  read_binary writes 146 main_call6_v3 main_v92 main_call6_v4 (mulf : FVec F S150000x64 .f32 → FVec F S150000x64 .f32 → FVec F S150000x64 .f32) _ _ _ rfl M (by decide) (by decide) (by decide)
theorem e_v93 : 𝐀 main_v93 = (select : IVec S150000x64 1 → FVec F S150000x64 .f32 → FVec F S150000x64 .f32 → FVec F S150000x64 .f32) (𝐀 main_call6_v1) (𝐀 main_v92) (𝐀 main_call6_v4) :=
  read_ternary writes 147 main_call6_v1 main_v92 main_call6_v4 main_v93 (select : IVec S150000x64 1 → FVec F S150000x64 .f32 → FVec F S150000x64 .f32 → FVec F S150000x64 .f32) _ _ _ _ rfl M (by decide) (by decide) (by decide) (by decide)
theorem e_v94 : 𝐀 main_v94 = (mulf : (⟨S150000x64, .f32⟩ : BufTy).Contents (Elt F) → (⟨S150000x64, .f32⟩ : BufTy).Contents (Elt F) → (⟨S150000x64, .f32⟩ : BufTy).Contents (Elt F)) (𝐀 main_v67) (𝐀 main_v85) :=
  read_binary writes 148 main_v67 main_v85 main_v94 (mulf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_v95 : 𝐀 main_v95 = ((extractStridedSlice S1x64x64 ![2, 0, 0] · slices_S3x64x64_S1x64x64_2_0_0) : (⟨S3x64x64, .f32⟩ : BufTy).Contents (Elt F) → (⟨S1x64x64, .f32⟩ : BufTy).Contents (Elt F)) (𝐀 main_arg4) :=
  read_unary writes 149 main_arg4 main_v95 ((extractStridedSlice S1x64x64 ![2, 0, 0] · slices_S3x64x64_S1x64x64_2_0_0) : (⟨S3x64x64, .f32⟩ : BufTy).Contents (Elt F) → (⟨S1x64x64, .f32⟩ : BufTy).Contents (Elt F)) _ _ rfl M (by decide) (by decide)
theorem e_v96 : 𝐀 main_v96 = shapeCast S64x64 (𝐀 main_v95) shapeCasts_S1x64x64_S64x64 :=
  read_reshape writes 150 main_v95 main_v96 rfl shapeCasts_S1x64x64_S64x64 _ _ rfl M (by decide) (by decide)
theorem e_v97 : 𝐀 main_v97 = ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) (𝐀 main_v94) (𝐀 main_v96) :=
  read_binary writes 151 main_v94 main_v96 main_v97 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) _ _ _ rfl M (by decide) (by decide) (by decide)
theorem e_v98 : 𝐀 main_v98 = ((extractStridedSlice S1x1x64 ![2, 0, 0] · slices_S3x1x64_S1x1x64_2_0_0) : (⟨S3x1x64, .f32⟩ : BufTy).Contents (Elt F) → (⟨S1x1x64, .f32⟩ : BufTy).Contents (Elt F)) (𝐀 main_arg5) :=
  read_unary writes 152 main_arg5 main_v98 ((extractStridedSlice S1x1x64 ![2, 0, 0] · slices_S3x1x64_S1x1x64_2_0_0) : (⟨S3x1x64, .f32⟩ : BufTy).Contents (Elt F) → (⟨S1x1x64, .f32⟩ : BufTy).Contents (Elt F)) _ _ rfl M (by decide) (by decide)
theorem e_v99 : 𝐀 main_v99 = shapeCast S1x64 (𝐀 main_v98) shapeCasts_S1x1x64_S1x64 :=
  read_reshape writes 153 main_v98 main_v99 rfl shapeCasts_S1x1x64_S1x64 _ _ rfl M (by decide) (by decide)
theorem e_v100 : 𝐀 main_v100 = (broadcastInDim S150000x64 ![0, 1] bcast_S1x64_S150000x64_0_1 : (⟨S1x64, .f32⟩ : BufTy).Contents (Elt F) → (⟨S150000x64, .f32⟩ : BufTy).Contents (Elt F)) (𝐀 main_v99) :=
  read_unary writes 154 main_v99 main_v100 (broadcastInDim S150000x64 ![0, 1] bcast_S1x64_S150000x64_0_1 : (⟨S1x64, .f32⟩ : BufTy).Contents (Elt F) → (⟨S150000x64, .f32⟩ : BufTy).Contents (Elt F)) _ _ rfl M (by decide) (by decide)
theorem e_v101 : 𝐀 main_v101 = (addf : (⟨S150000x64, .f32⟩ : BufTy).Contents (Elt F) → (⟨S150000x64, .f32⟩ : BufTy).Contents (Elt F) → (⟨S150000x64, .f32⟩ : BufTy).Contents (Elt F)) (𝐀 main_v97) (𝐀 main_v100) :=
  read_binary writes 155 main_v97 main_v100 main_v101 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_cst_14 : 𝐀 main_cst_14 = (constant S_ .f32 0x3E4CCCCD#32) :=
  read_nullary writes 156 main_cst_14 (constant S_ .f32 0x3E4CCCCD#32) _ rfl M (by decide)
theorem e_call7_cst : 𝐀 main_call7_cst = (constant (F := F) S_ .f32 0x00000000#32) :=
  read_nullary writes 157 main_call7_cst (constant (F := F) S_ .f32 0x00000000#32) _ rfl M (by decide)
theorem e_call7_v0 : 𝐀 main_call7_v0 = (broadcastInDim S150000x64 ![] bcast_S_S150000x64 : FVec F S_ .f32 → FVec F S150000x64 .f32) (𝐀 main_call7_cst) :=
  read_unary writes 158 main_call7_cst main_call7_v0 (broadcastInDim S150000x64 ![] bcast_S_S150000x64 : FVec F S_ .f32 → FVec F S150000x64 .f32) _ _ rfl M (by decide) (by decide)
theorem e_call7_v1 : 𝐀 main_call7_v1 = (cmpf .oge : FVec F S150000x64 .f32 → FVec F S150000x64 .f32 → IVec S150000x64 1) (𝐀 main_v101) (𝐀 main_call7_v0) :=
  read_binary writes 159 main_v101 main_call7_v0 main_call7_v1 (cmpf .oge : FVec F S150000x64 .f32 → FVec F S150000x64 .f32 → IVec S150000x64 1) _ _ _ rfl M (by decide) (by decide) (by decide)
theorem e_call7_v2 : 𝐀 main_call7_v2 = (id : FVec F S_ .f32 → FVec F S_ .f32) (𝐀 main_cst_14) :=
  read_unary writes 160 main_cst_14 main_call7_v2 (id : FVec F S_ .f32 → FVec F S_ .f32) _ _ rfl M (by decide) (by decide)
theorem e_call7_v3 : 𝐀 main_call7_v3 = (broadcastInDim S150000x64 ![] bcast_S_S150000x64 : FVec F S_ .f32 → FVec F S150000x64 .f32) (𝐀 main_call7_v2) :=
  read_unary writes 161 main_call7_v2 main_call7_v3 (broadcastInDim S150000x64 ![] bcast_S_S150000x64 : FVec F S_ .f32 → FVec F S150000x64 .f32) _ _ rfl M (by decide) (by decide)
theorem e_call7_v4 : 𝐀 main_call7_v4 = (mulf : FVec F S150000x64 .f32 → FVec F S150000x64 .f32 → FVec F S150000x64 .f32) (𝐀 main_call7_v3) (𝐀 main_v101) :=
  read_binary writes 162 main_call7_v3 main_v101 main_call7_v4 (mulf : FVec F S150000x64 .f32 → FVec F S150000x64 .f32 → FVec F S150000x64 .f32) _ _ _ rfl M (by decide) (by decide) (by decide)
theorem e_v102 : 𝐀 main_v102 = (select : IVec S150000x64 1 → FVec F S150000x64 .f32 → FVec F S150000x64 .f32 → FVec F S150000x64 .f32) (𝐀 main_call7_v1) (𝐀 main_v101) (𝐀 main_call7_v4) :=
  read_ternary writes 163 main_call7_v1 main_v101 main_call7_v4 main_v102 (select : IVec S150000x64 1 → FVec F S150000x64 .f32 → FVec F S150000x64 .f32 → FVec F S150000x64 .f32) _ _ _ _ rfl M (by decide) (by decide) (by decide) (by decide)
theorem e_v103 : 𝐀 main_v103 = (addf : (⟨S150000x64, .f32⟩ : BufTy).Contents (Elt F) → (⟨S150000x64, .f32⟩ : BufTy).Contents (Elt F) → (⟨S150000x64, .f32⟩ : BufTy).Contents (Elt F)) (𝐀 main_v93) (𝐀 main_v102) :=
  read_binary writes 164 main_v93 main_v102 main_v103 (addf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_call8_v0 : 𝐀 main_call8_v0 = (mulf : FVec F S150000x64 .f32 → FVec F S150000x64 .f32 → FVec F S150000x64 .f32) (𝐀 main_v103) (𝐀 main_v103) :=
  read_binary writes 165 main_v103 main_v103 main_call8_v0 (mulf : FVec F S150000x64 .f32 → FVec F S150000x64 .f32 → FVec F S150000x64 .f32) _ _ _ rfl M (by decide) (by decide) (by decide)
theorem e_call8_cst : 𝐀 main_call8_cst = (constant (F := F) S_ .f32 0x00000000#32) :=
  read_nullary writes 166 main_call8_cst (constant (F := F) S_ .f32 0x00000000#32) _ rfl M (by decide)
theorem e_call8_v1 : 𝐀 main_call8_v1 = ((fun x v => Host.reduceAdd x v reducesTo_S150000x64_S150000_d1 h_S_) : FVec F S150000x64 .f32 → FVec F S_ .f32 → FVec F S150000 .f32) (𝐀 main_call8_v0) (𝐀 main_call8_cst) :=
  read_binary writes 167 main_call8_v0 main_call8_cst main_call8_v1 ((fun x v => Host.reduceAdd x v reducesTo_S150000x64_S150000_d1 h_S_) : FVec F S150000x64 .f32 → FVec F S_ .f32 → FVec F S150000 .f32) _ _ _ rfl M (by decide) (by decide) (by decide)
theorem e_call8_v2 : 𝐀 main_call8_v2 = (broadcastInDim S150000x1 ![0] bcast_S150000_S150000x1_0 : FVec F S150000 .f32 → FVec F S150000x1 .f32) (𝐀 main_call8_v1) :=
  read_unary writes 168 main_call8_v1 main_call8_v2 (broadcastInDim S150000x1 ![0] bcast_S150000_S150000x1_0 : FVec F S150000 .f32 → FVec F S150000x1 .f32) _ _ rfl M (by decide) (by decide)
theorem e_v104 : 𝐀 main_v104 = (Host.sqrt : FVec F S150000x1 .f32 → FVec F S150000x1 .f32) (𝐀 main_call8_v2) :=
  read_unary writes 169 main_call8_v2 main_v104 (Host.sqrt : FVec F S150000x1 .f32 → FVec F S150000x1 .f32) _ _ rfl M (by decide) (by decide)
theorem e_cst_15 : 𝐀 main_cst_15 = (constant S_ .f32 0x2B8CBCCC#32) :=
  read_nullary writes 170 main_cst_15 (constant S_ .f32 0x2B8CBCCC#32) _ rfl M (by decide)
theorem e_v105 : 𝐀 main_v105 = (broadcastInDim S150000x1 ![] bcast_S_S150000x1 : (⟨S_, .f32⟩ : BufTy).Contents (Elt F) → (⟨S150000x1, .f32⟩ : BufTy).Contents (Elt F)) (𝐀 main_cst_15) :=
  read_unary writes 171 main_cst_15 main_v105 (broadcastInDim S150000x1 ![] bcast_S_S150000x1 : (⟨S_, .f32⟩ : BufTy).Contents (Elt F) → (⟨S150000x1, .f32⟩ : BufTy).Contents (Elt F)) _ _ rfl M (by decide) (by decide)
theorem e_v106 : 𝐀 main_v106 = (maximumf : (⟨S150000x1, .f32⟩ : BufTy).Contents (Elt F) → (⟨S150000x1, .f32⟩ : BufTy).Contents (Elt F) → (⟨S150000x1, .f32⟩ : BufTy).Contents (Elt F)) (𝐀 main_v104) (𝐀 main_v105) :=
  read_binary writes 172 main_v104 main_v105 main_v106 (maximumf : (⟨S150000x1, .f32⟩ : BufTy).Contents (Elt F) → (⟨S150000x1, .f32⟩ : BufTy).Contents (Elt F) → (⟨S150000x1, .f32⟩ : BufTy).Contents (Elt F)) _ _ _ rfl M (by decide) (by decide) (by decide)
theorem e_v107 : 𝐀 main_v107 = (broadcastInDim S150000x64 ![0, 1] bcast_S150000x1_S150000x64_0_1 : (⟨S150000x1, .f32⟩ : BufTy).Contents (Elt F) → (⟨S150000x64, .f32⟩ : BufTy).Contents (Elt F)) (𝐀 main_v106) :=
  read_unary writes 173 main_v106 main_v107 (broadcastInDim S150000x64 ![0, 1] bcast_S150000x1_S150000x64_0_1 : (⟨S150000x1, .f32⟩ : BufTy).Contents (Elt F) → (⟨S150000x64, .f32⟩ : BufTy).Contents (Elt F)) _ _ rfl M (by decide) (by decide)
theorem e_v108 : 𝐀 main_v108 = (Host.divf : (⟨S150000x64, .f32⟩ : BufTy).Contents (Elt F) → (⟨S150000x64, .f32⟩ : BufTy).Contents (Elt F) → (⟨S150000x64, .f32⟩ : BufTy).Contents (Elt F)) (𝐀 main_v103) (𝐀 main_v107) :=
  read_binary writes 174 main_v103 main_v107 main_v108 (Host.divf : (⟨S150000x64, .f32⟩ : BufTy).Contents (Elt F) → (⟨S150000x64, .f32⟩ : BufTy).Contents (Elt F) → (⟨S150000x64, .f32⟩ : BufTy).Contents (Elt F)) _ _ _ rfl M (by decide) (by decide) (by decide)
theorem e_v109 : 𝐀 main_v109 = concatenate S150000x256 1 [⟨S150000x64, 𝐀 main_v0⟩, ⟨S150000x64, 𝐀 main_v36⟩, ⟨S150000x64, 𝐀 main_v72⟩, ⟨S150000x64, 𝐀 main_v108⟩] concatenates_S150000x64_S150000x64_S150000x64_S150000x64_S150000x256_d1 :=
  read_nary writes 175 ![main_v0, main_v36, main_v72, main_v108] main_v109 (fun u => concatenate S150000x256 1 [⟨S150000x64, u 0⟩, ⟨S150000x64, u 1⟩, ⟨S150000x64, u 2⟩, ⟨S150000x64, u 3⟩] concatenates_S150000x64_S150000x64_S150000x64_S150000x64_S150000x256_d1) _ _ rfl M (by decide) (by decide)
theorem e_c_16 : 𝐀 main_c_16 = (constantI S_ 32 0#32) :=
  read_nullary writes 176 main_c_16 (constantI S_ 32 0#32) _ rfl M (by decide)
theorem e_v110 : 𝐀 main_v110 = (broadcastInDim S16384 ![] bcast_S_S16384 : (⟨S_, .i32⟩ : BufTy).Contents (Elt F) → (⟨S16384, .i32⟩ : BufTy).Contents (Elt F)) (𝐀 main_c_16) :=
  read_unary writes 177 main_c_16 main_v110 (broadcastInDim S16384 ![] bcast_S_S16384 : (⟨S_, .i32⟩ : BufTy).Contents (Elt F) → (⟨S16384, .i32⟩ : BufTy).Contents (Elt F)) _ _ rfl M (by decide) (by decide)
theorem e_v111 : 𝐀 main_v111 = (cmpi .slt : (⟨S16384, .i32⟩ : BufTy).Contents (Elt F) → (⟨S16384, .i32⟩ : BufTy).Contents (Elt F) → (⟨S16384, .i1⟩ : BufTy).Contents (Elt F)) (𝐀 main_arg9) (𝐀 main_v110) :=
  read_binary writes 178 main_arg9 main_v110 main_v111 (cmpi .slt : (⟨S16384, .i32⟩ : BufTy).Contents (Elt F) → (⟨S16384, .i32⟩ : BufTy).Contents (Elt F) → (⟨S16384, .i1⟩ : BufTy).Contents (Elt F)) _ _ _ rfl M (by decide) (by decide) (by decide)
theorem e_c_17 : 𝐀 main_c_17 = (constantI S_ 32 150000#32) :=
  read_nullary writes 179 main_c_17 (constantI S_ 32 150000#32) _ rfl M (by decide)
theorem e_v112 : 𝐀 main_v112 = (broadcastInDim S16384 ![] bcast_S_S16384 : (⟨S_, .i32⟩ : BufTy).Contents (Elt F) → (⟨S16384, .i32⟩ : BufTy).Contents (Elt F)) (𝐀 main_c_17) :=
  read_unary writes 180 main_c_17 main_v112 (broadcastInDim S16384 ![] bcast_S_S16384 : (⟨S_, .i32⟩ : BufTy).Contents (Elt F) → (⟨S16384, .i32⟩ : BufTy).Contents (Elt F)) _ _ rfl M (by decide) (by decide)
theorem e_v113 : 𝐀 main_v113 = (addi : (⟨S16384, .i32⟩ : BufTy).Contents (Elt F) → (⟨S16384, .i32⟩ : BufTy).Contents (Elt F) → (⟨S16384, .i32⟩ : BufTy).Contents (Elt F)) (𝐀 main_arg9) (𝐀 main_v112) :=
  read_binary writes 181 main_arg9 main_v112 main_v113 (addi : (⟨S16384, .i32⟩ : BufTy).Contents (Elt F) → (⟨S16384, .i32⟩ : BufTy).Contents (Elt F) → (⟨S16384, .i32⟩ : BufTy).Contents (Elt F)) _ _ _ rfl M (by decide) (by decide) (by decide)
theorem e_v114 : 𝐀 main_v114 = (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (𝐀 main_v111) (𝐀 main_v113) (𝐀 main_arg9) :=
  read_ternary writes 182 main_v111 main_v113 main_arg9 main_v114 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) _ _ _ _ rfl M (by decide) (by decide) (by decide) (by decide)
theorem e_v115 : 𝐀 main_v115 = (broadcastInDim S16384x1 ![0] bcast_S16384_S16384x1_0 : (⟨S16384, .i32⟩ : BufTy).Contents (Elt F) → (⟨S16384x1, .i32⟩ : BufTy).Contents (Elt F)) (𝐀 main_v114) :=
  read_unary writes 183 main_v114 main_v115 (broadcastInDim S16384x1 ![0] bcast_S16384_S16384x1_0 : (⟨S16384, .i32⟩ : BufTy).Contents (Elt F) → (⟨S16384x1, .i32⟩ : BufTy).Contents (Elt F)) _ _ rfl M (by decide) (by decide)
theorem e_v116 : 𝐀 main_v116 = ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)) (𝐀 main_v109) (𝐀 main_v115) :=
  read_binary writes 184 main_v109 main_v115 main_v116 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)) _ _ _ rfl M (by decide) (by decide) (by decide)
theorem e_c_18 : 𝐀 main_c_18 = (constantI S_ 32 100000#32) :=
  read_nullary writes 185 main_c_18 (constantI S_ 32 100000#32) _ rfl M (by decide)
theorem e_v117 : 𝐀 main_v117 = (broadcastInDim S16384 ![] bcast_S_S16384 : (⟨S_, .i32⟩ : BufTy).Contents (Elt F) → (⟨S16384, .i32⟩ : BufTy).Contents (Elt F)) (𝐀 main_c_18) :=
  read_unary writes 186 main_c_18 main_v117 (broadcastInDim S16384 ![] bcast_S_S16384 : (⟨S_, .i32⟩ : BufTy).Contents (Elt F) → (⟨S16384, .i32⟩ : BufTy).Contents (Elt F)) _ _ rfl M (by decide) (by decide)
theorem e_v118 : 𝐀 main_v118 = (addi : (⟨S16384, .i32⟩ : BufTy).Contents (Elt F) → (⟨S16384, .i32⟩ : BufTy).Contents (Elt F) → (⟨S16384, .i32⟩ : BufTy).Contents (Elt F)) (𝐀 main_v117) (𝐀 main_arg10) :=
  read_binary writes 187 main_v117 main_arg10 main_v118 (addi : (⟨S16384, .i32⟩ : BufTy).Contents (Elt F) → (⟨S16384, .i32⟩ : BufTy).Contents (Elt F) → (⟨S16384, .i32⟩ : BufTy).Contents (Elt F)) _ _ _ rfl M (by decide) (by decide) (by decide)
theorem e_c_19 : 𝐀 main_c_19 = (constantI S_ 32 0#32) :=
  read_nullary writes 188 main_c_19 (constantI S_ 32 0#32) _ rfl M (by decide)
theorem e_v119 : 𝐀 main_v119 = (broadcastInDim S16384 ![] bcast_S_S16384 : (⟨S_, .i32⟩ : BufTy).Contents (Elt F) → (⟨S16384, .i32⟩ : BufTy).Contents (Elt F)) (𝐀 main_c_19) :=
  read_unary writes 189 main_c_19 main_v119 (broadcastInDim S16384 ![] bcast_S_S16384 : (⟨S_, .i32⟩ : BufTy).Contents (Elt F) → (⟨S16384, .i32⟩ : BufTy).Contents (Elt F)) _ _ rfl M (by decide) (by decide)
theorem e_v120 : 𝐀 main_v120 = (cmpi .slt : (⟨S16384, .i32⟩ : BufTy).Contents (Elt F) → (⟨S16384, .i32⟩ : BufTy).Contents (Elt F) → (⟨S16384, .i1⟩ : BufTy).Contents (Elt F)) (𝐀 main_v118) (𝐀 main_v119) :=
  read_binary writes 190 main_v118 main_v119 main_v120 (cmpi .slt : (⟨S16384, .i32⟩ : BufTy).Contents (Elt F) → (⟨S16384, .i32⟩ : BufTy).Contents (Elt F) → (⟨S16384, .i1⟩ : BufTy).Contents (Elt F)) _ _ _ rfl M (by decide) (by decide) (by decide)
theorem e_c_20 : 𝐀 main_c_20 = (constantI S_ 32 150000#32) :=
  read_nullary writes 191 main_c_20 (constantI S_ 32 150000#32) _ rfl M (by decide)
theorem e_v121 : 𝐀 main_v121 = (broadcastInDim S16384 ![] bcast_S_S16384 : (⟨S_, .i32⟩ : BufTy).Contents (Elt F) → (⟨S16384, .i32⟩ : BufTy).Contents (Elt F)) (𝐀 main_c_20) :=
  read_unary writes 192 main_c_20 main_v121 (broadcastInDim S16384 ![] bcast_S_S16384 : (⟨S_, .i32⟩ : BufTy).Contents (Elt F) → (⟨S16384, .i32⟩ : BufTy).Contents (Elt F)) _ _ rfl M (by decide) (by decide)
theorem e_v122 : 𝐀 main_v122 = (addi : (⟨S16384, .i32⟩ : BufTy).Contents (Elt F) → (⟨S16384, .i32⟩ : BufTy).Contents (Elt F) → (⟨S16384, .i32⟩ : BufTy).Contents (Elt F)) (𝐀 main_v118) (𝐀 main_v121) :=
  read_binary writes 193 main_v118 main_v121 main_v122 (addi : (⟨S16384, .i32⟩ : BufTy).Contents (Elt F) → (⟨S16384, .i32⟩ : BufTy).Contents (Elt F) → (⟨S16384, .i32⟩ : BufTy).Contents (Elt F)) _ _ _ rfl M (by decide) (by decide) (by decide)
theorem e_v123 : 𝐀 main_v123 = (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (𝐀 main_v120) (𝐀 main_v122) (𝐀 main_v118) :=
  read_ternary writes 194 main_v120 main_v122 main_v118 main_v123 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) _ _ _ _ rfl M (by decide) (by decide) (by decide) (by decide)
theorem e_v124 : 𝐀 main_v124 = (broadcastInDim S16384x1 ![0] bcast_S16384_S16384x1_0 : (⟨S16384, .i32⟩ : BufTy).Contents (Elt F) → (⟨S16384x1, .i32⟩ : BufTy).Contents (Elt F)) (𝐀 main_v123) :=
  read_unary writes 195 main_v123 main_v124 (broadcastInDim S16384x1 ![0] bcast_S16384_S16384x1_0 : (⟨S16384, .i32⟩ : BufTy).Contents (Elt F) → (⟨S16384x1, .i32⟩ : BufTy).Contents (Elt F)) _ _ rfl M (by decide) (by decide)
theorem e_v125 : 𝐀 main_v125 = ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)) (𝐀 main_v109) (𝐀 main_v124) :=
  read_binary writes 196 main_v109 main_v124 main_v125 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)) _ _ _ rfl M (by decide) (by decide) (by decide)
theorem e_c_21 : 𝐀 main_c_21 = (constantI S_ 32 100000#32) :=
  read_nullary writes 197 main_c_21 (constantI S_ 32 100000#32) _ rfl M (by decide)
theorem e_v126 : 𝐀 main_v126 = (broadcastInDim S16384 ![] bcast_S_S16384 : (⟨S_, .i32⟩ : BufTy).Contents (Elt F) → (⟨S16384, .i32⟩ : BufTy).Contents (Elt F)) (𝐀 main_c_21) :=
  read_unary writes 198 main_c_21 main_v126 (broadcastInDim S16384 ![] bcast_S_S16384 : (⟨S_, .i32⟩ : BufTy).Contents (Elt F) → (⟨S16384, .i32⟩ : BufTy).Contents (Elt F)) _ _ rfl M (by decide) (by decide)
theorem e_v127 : 𝐀 main_v127 = (addi : (⟨S16384, .i32⟩ : BufTy).Contents (Elt F) → (⟨S16384, .i32⟩ : BufTy).Contents (Elt F) → (⟨S16384, .i32⟩ : BufTy).Contents (Elt F)) (𝐀 main_v126) (𝐀 main_arg11) :=
  read_binary writes 199 main_v126 main_arg11 main_v127 (addi : (⟨S16384, .i32⟩ : BufTy).Contents (Elt F) → (⟨S16384, .i32⟩ : BufTy).Contents (Elt F) → (⟨S16384, .i32⟩ : BufTy).Contents (Elt F)) _ _ _ rfl M (by decide) (by decide) (by decide)
theorem e_c_22 : 𝐀 main_c_22 = (constantI S_ 32 0#32) :=
  read_nullary writes 200 main_c_22 (constantI S_ 32 0#32) _ rfl M (by decide)
theorem e_v128 : 𝐀 main_v128 = (broadcastInDim S16384 ![] bcast_S_S16384 : (⟨S_, .i32⟩ : BufTy).Contents (Elt F) → (⟨S16384, .i32⟩ : BufTy).Contents (Elt F)) (𝐀 main_c_22) :=
  read_unary writes 201 main_c_22 main_v128 (broadcastInDim S16384 ![] bcast_S_S16384 : (⟨S_, .i32⟩ : BufTy).Contents (Elt F) → (⟨S16384, .i32⟩ : BufTy).Contents (Elt F)) _ _ rfl M (by decide) (by decide)
theorem e_v129 : 𝐀 main_v129 = (cmpi .slt : (⟨S16384, .i32⟩ : BufTy).Contents (Elt F) → (⟨S16384, .i32⟩ : BufTy).Contents (Elt F) → (⟨S16384, .i1⟩ : BufTy).Contents (Elt F)) (𝐀 main_v127) (𝐀 main_v128) :=
  read_binary writes 202 main_v127 main_v128 main_v129 (cmpi .slt : (⟨S16384, .i32⟩ : BufTy).Contents (Elt F) → (⟨S16384, .i32⟩ : BufTy).Contents (Elt F) → (⟨S16384, .i1⟩ : BufTy).Contents (Elt F)) _ _ _ rfl M (by decide) (by decide) (by decide)
theorem e_c_23 : 𝐀 main_c_23 = (constantI S_ 32 150000#32) :=
  read_nullary writes 203 main_c_23 (constantI S_ 32 150000#32) _ rfl M (by decide)
theorem e_v130 : 𝐀 main_v130 = (broadcastInDim S16384 ![] bcast_S_S16384 : (⟨S_, .i32⟩ : BufTy).Contents (Elt F) → (⟨S16384, .i32⟩ : BufTy).Contents (Elt F)) (𝐀 main_c_23) :=
  read_unary writes 204 main_c_23 main_v130 (broadcastInDim S16384 ![] bcast_S_S16384 : (⟨S_, .i32⟩ : BufTy).Contents (Elt F) → (⟨S16384, .i32⟩ : BufTy).Contents (Elt F)) _ _ rfl M (by decide) (by decide)
theorem e_v131 : 𝐀 main_v131 = (addi : (⟨S16384, .i32⟩ : BufTy).Contents (Elt F) → (⟨S16384, .i32⟩ : BufTy).Contents (Elt F) → (⟨S16384, .i32⟩ : BufTy).Contents (Elt F)) (𝐀 main_v127) (𝐀 main_v130) :=
  read_binary writes 205 main_v127 main_v130 main_v131 (addi : (⟨S16384, .i32⟩ : BufTy).Contents (Elt F) → (⟨S16384, .i32⟩ : BufTy).Contents (Elt F) → (⟨S16384, .i32⟩ : BufTy).Contents (Elt F)) _ _ _ rfl M (by decide) (by decide) (by decide)
theorem e_v132 : 𝐀 main_v132 = (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (𝐀 main_v129) (𝐀 main_v131) (𝐀 main_v127) :=
  read_ternary writes 206 main_v129 main_v131 main_v127 main_v132 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) _ _ _ _ rfl M (by decide) (by decide) (by decide) (by decide)
theorem e_v133 : 𝐀 main_v133 = (broadcastInDim S16384x1 ![0] bcast_S16384_S16384x1_0 : (⟨S16384, .i32⟩ : BufTy).Contents (Elt F) → (⟨S16384x1, .i32⟩ : BufTy).Contents (Elt F)) (𝐀 main_v132) :=
  read_unary writes 207 main_v132 main_v133 (broadcastInDim S16384x1 ![0] bcast_S16384_S16384x1_0 : (⟨S16384, .i32⟩ : BufTy).Contents (Elt F) → (⟨S16384x1, .i32⟩ : BufTy).Contents (Elt F)) _ _ rfl M (by decide) (by decide)
theorem e_v134 : 𝐀 main_v134 = ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)) (𝐀 main_v109) (𝐀 main_v133) :=
  read_binary writes 208 main_v109 main_v133 main_v134 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)) _ _ _ rfl M (by decide) (by decide) (by decide)

end Cert.ReferenceIdeal.Hand

end
-- ==== Proof.RefValue.lean ====
/-
  The reference's three results are the specification's.

  The line is read from the end of the program backwards no further than one step at a time: each buffer that the
  specification names — the node table, and per layer the neighbourhood sum, the two branches, the new
  embeddings, the row lengths and the unit rows — is shown to hold the specification's term OVER the contents of
  the buffers it is computed from (the operations' own equations, `e_…`, rewritten in; what is left is the
  specification's definition unfolded). The layers' inputs are then substituted once each, and the result table
  and its rows at the three batches follow. The composed term over the arguments is never spread out: every layer
  reads its input three times.
-/
import proofs.«140510_j10118942950095_1_alg».proof.Proof.RefReadings
import proofs.«140510_j10118942950095_1_alg».proof.Proof.Spec

noncomputable section

namespace Cert.ReferenceIdeal.Hand

open Cert.ReferenceIdeal Cert.Ssa Idealize.ShloMosaic Idealize.ShloMosaic.TcCoe Idealize.SL.Sem Idealize.ShloMosaic.StableHlo

variable {F : FTy → Type} [FloatOps F] [Facts]

open Facts₀ Facts

section Value

variable (M : Valuation τ sig (Elt F))

-- `𝐀 r`: what the line leaves in buffer `r`; `𝐌 r`: what the launch gave it.
set_option quotPrecheck false in
local notation:max "𝐀 " r:max => StableHlo.after (ops (F := F)) M (Proc.devRef .tc r)
set_option quotPrecheck false in
local notation:max "𝐌 " r:max => M (Proc.devRef .tc r)

/-- The node table: the users' rows above the items'. -/
theorem nodes_eq : 𝐀 main_v0 = Cert.Spec.nodes (𝐌 main_arg0) (𝐌 main_arg1) := by
  simp only [e_v0 M, k_arg0 M, k_arg1 M]
  rfl

/-! ## Layer 0 (its input embeddings in `main_v0`) -/

/-- The edge list's source words as rows of the node table. -/
theorem edge0 : 𝐀 main_v5 = Cert.Spec.edgeRow (𝐌 main_arg8) := by
  simp only [e_v5 M, e_v2 M, e_v4 M, e_v1 M, e_v3 M, e_c M, e_c_0 M, k_arg8 M]
  rfl

/-- The neighbourhood sum of the layer's input. -/
theorem side0 : 𝐀 main_v13 = Cert.Spec.side (𝐀 main_v0) (𝐌 main_arg6) (𝐌 main_arg7) (𝐌 main_arg8) := by
  simp only [e_v13 M, e_v11 M, e_cst M, e_v12 M, e_v10 M, e_v7 M, e_v6 M, e_v9 M, e_v8 M, edge0 M, k_arg6 M, k_arg7 M]
  rfl

/-- The two calls of `leaky_relu`: the callee's seven operations are `leaky`. -/
theorem leakyA0 : 𝐀 main_v21 = Cert.Spec.leaky (𝐀 main_v20) (𝐀 main_cst_1) := by
  simp only [e_v21 M, e_call0_v1 M, e_call0_v0 M, e_call0_cst M, e_call0_v4 M, e_call0_v3 M, e_call0_v2 M]
  rfl
theorem leakyB0 : 𝐀 main_v30 = Cert.Spec.leaky (𝐀 main_v29) (𝐀 main_cst_2) := by
  simp only [e_v30 M, e_call1_v1 M, e_call1_v0 M, e_call1_cst M, e_call1_v4 M, e_call1_v3 M, e_call1_v2 M]
  rfl

/-- The branch of the neighbourhood sum and the branch of its product with the input. -/
theorem branchA0 : 𝐀 main_v21 = Cert.Spec.branch (𝐀 main_v13) (Cert.Spec.mat0 (𝐌 main_arg2)) (Cert.Spec.row0 (𝐌 main_arg3)) := by
  simp only [leakyA0 M, e_v20 M, e_v16 M, e_v15 M, e_v14 M, e_v19 M, e_v18 M, e_v17 M, e_cst_1 M, k_arg2 M, k_arg3 M]
  rfl
theorem branchB0 : 𝐀 main_v30 = Cert.Spec.branch (mulf (𝐀 main_v0) (𝐀 main_v13)) (Cert.Spec.mat0 (𝐌 main_arg4)) (Cert.Spec.row0 (𝐌 main_arg5)) := by
  simp only [leakyB0 M, e_v29 M, e_v25 M, e_v22 M, e_v24 M, e_v23 M, e_v28 M, e_v27 M, e_v26 M, e_cst_2 M, k_arg4 M, k_arg5 M]
  rfl

/-- The layer's new embeddings. -/
theorem new0 : 𝐀 main_v31 = Cert.Spec.layerNew (𝐀 main_v0) (𝐀 main_v13) (Cert.Spec.mat0 (𝐌 main_arg2)) (Cert.Spec.row0 (𝐌 main_arg3)) (Cert.Spec.mat0 (𝐌 main_arg4)) (Cert.Spec.row0 (𝐌 main_arg5)) := by
  simp only [e_v31 M, branchA0 M, branchB0 M]
  rfl

/-- The call of `norm`: the callee's five operations are the row lengths; then the unit rows. -/
theorem norm0 : 𝐀 main_v32 = Cert.Spec.rowNorm (𝐀 main_v31) := by
  simp only [e_v32 M, e_call2_v2 M, e_call2_v1 M, e_call2_v0 M, e_call2_cst M]
  rfl
theorem unit0 : 𝐀 main_v36 = Cert.Spec.unitRows (𝐀 main_v31) := by
  simp only [e_v36 M, e_v35 M, e_v34 M, e_v33 M, e_cst_3 M, norm0 M]
  rfl

/-! ## Layer 1 (its input embeddings in `main_v31`) -/

/-- The edge list's source words as rows of the node table. -/
theorem edge1 : 𝐀 main_v41 = Cert.Spec.edgeRow (𝐌 main_arg8) := by
  simp only [e_v41 M, e_v38 M, e_v40 M, e_v37 M, e_v39 M, e_c_4 M, e_c_5 M, k_arg8 M]
  rfl

/-- The neighbourhood sum of the layer's input. -/
theorem side1 : 𝐀 main_v49 = Cert.Spec.side (𝐀 main_v31) (𝐌 main_arg6) (𝐌 main_arg7) (𝐌 main_arg8) := by
  simp only [e_v49 M, e_v47 M, e_cst_6 M, e_v48 M, e_v46 M, e_v43 M, e_v42 M, e_v45 M, e_v44 M, edge1 M, k_arg6 M, k_arg7 M]
  rfl

/-- The two calls of `leaky_relu`: the callee's seven operations are `leaky`. -/
theorem leakyA1 : 𝐀 main_v57 = Cert.Spec.leaky (𝐀 main_v56) (𝐀 main_cst_7) := by
  simp only [e_v57 M, e_call3_v1 M, e_call3_v0 M, e_call3_cst M, e_call3_v4 M, e_call3_v3 M, e_call3_v2 M]
  rfl
theorem leakyB1 : 𝐀 main_v66 = Cert.Spec.leaky (𝐀 main_v65) (𝐀 main_cst_8) := by
  simp only [e_v66 M, e_call4_v1 M, e_call4_v0 M, e_call4_cst M, e_call4_v4 M, e_call4_v3 M, e_call4_v2 M]
  rfl

/-- The branch of the neighbourhood sum and the branch of its product with the input. -/
theorem branchA1 : 𝐀 main_v57 = Cert.Spec.branch (𝐀 main_v49) (Cert.Spec.mat1 (𝐌 main_arg2)) (Cert.Spec.row1 (𝐌 main_arg3)) := by
  simp only [leakyA1 M, e_v56 M, e_v52 M, e_v51 M, e_v50 M, e_v55 M, e_v54 M, e_v53 M, e_cst_7 M, k_arg2 M, k_arg3 M]
  rfl
theorem branchB1 : 𝐀 main_v66 = Cert.Spec.branch (mulf (𝐀 main_v31) (𝐀 main_v49)) (Cert.Spec.mat1 (𝐌 main_arg4)) (Cert.Spec.row1 (𝐌 main_arg5)) := by
  simp only [leakyB1 M, e_v65 M, e_v61 M, e_v58 M, e_v60 M, e_v59 M, e_v64 M, e_v63 M, e_v62 M, e_cst_8 M, k_arg4 M, k_arg5 M]
  rfl

/-- The layer's new embeddings. -/
theorem new1 : 𝐀 main_v67 = Cert.Spec.layerNew (𝐀 main_v31) (𝐀 main_v49) (Cert.Spec.mat1 (𝐌 main_arg2)) (Cert.Spec.row1 (𝐌 main_arg3)) (Cert.Spec.mat1 (𝐌 main_arg4)) (Cert.Spec.row1 (𝐌 main_arg5)) := by
  simp only [e_v67 M, branchA1 M, branchB1 M]
  rfl

/-- The call of `norm`: the callee's five operations are the row lengths; then the unit rows. -/
theorem norm1 : 𝐀 main_v68 = Cert.Spec.rowNorm (𝐀 main_v67) := by
  simp only [e_v68 M, e_call5_v2 M, e_call5_v1 M, e_call5_v0 M, e_call5_cst M]
  rfl
theorem unit1 : 𝐀 main_v72 = Cert.Spec.unitRows (𝐀 main_v67) := by
  simp only [e_v72 M, e_v71 M, e_v70 M, e_v69 M, e_cst_9 M, norm1 M]
  rfl

/-! ## Layer 2 (its input embeddings in `main_v67`) -/

/-- The edge list's source words as rows of the node table. -/
theorem edge2 : 𝐀 main_v77 = Cert.Spec.edgeRow (𝐌 main_arg8) := by
  simp only [e_v77 M, e_v74 M, e_v76 M, e_v73 M, e_v75 M, e_c_10 M, e_c_11 M, k_arg8 M]
  rfl

/-- The neighbourhood sum of the layer's input. -/
theorem side2 : 𝐀 main_v85 = Cert.Spec.side (𝐀 main_v67) (𝐌 main_arg6) (𝐌 main_arg7) (𝐌 main_arg8) := by
  simp only [e_v85 M, e_v83 M, e_cst_12 M, e_v84 M, e_v82 M, e_v79 M, e_v78 M, e_v81 M, e_v80 M, edge2 M, k_arg6 M, k_arg7 M]
  rfl

/-- The two calls of `leaky_relu`: the callee's seven operations are `leaky`. -/
theorem leakyA2 : 𝐀 main_v93 = Cert.Spec.leaky (𝐀 main_v92) (𝐀 main_cst_13) := by
  simp only [e_v93 M, e_call6_v1 M, e_call6_v0 M, e_call6_cst M, e_call6_v4 M, e_call6_v3 M, e_call6_v2 M]
  rfl
theorem leakyB2 : 𝐀 main_v102 = Cert.Spec.leaky (𝐀 main_v101) (𝐀 main_cst_14) := by
  simp only [e_v102 M, e_call7_v1 M, e_call7_v0 M, e_call7_cst M, e_call7_v4 M, e_call7_v3 M, e_call7_v2 M]
  rfl

/-- The branch of the neighbourhood sum and the branch of its product with the input. -/
theorem branchA2 : 𝐀 main_v93 = Cert.Spec.branch (𝐀 main_v85) (Cert.Spec.mat2 (𝐌 main_arg2)) (Cert.Spec.row2 (𝐌 main_arg3)) := by
  simp only [leakyA2 M, e_v92 M, e_v88 M, e_v87 M, e_v86 M, e_v91 M, e_v90 M, e_v89 M, e_cst_13 M, k_arg2 M, k_arg3 M]
  rfl
theorem branchB2 : 𝐀 main_v102 = Cert.Spec.branch (mulf (𝐀 main_v67) (𝐀 main_v85)) (Cert.Spec.mat2 (𝐌 main_arg4)) (Cert.Spec.row2 (𝐌 main_arg5)) := by
  simp only [leakyB2 M, e_v101 M, e_v97 M, e_v94 M, e_v96 M, e_v95 M, e_v100 M, e_v99 M, e_v98 M, e_cst_14 M, k_arg4 M, k_arg5 M]
  rfl

/-- The layer's new embeddings. -/
theorem new2 : 𝐀 main_v103 = Cert.Spec.layerNew (𝐀 main_v67) (𝐀 main_v85) (Cert.Spec.mat2 (𝐌 main_arg2)) (Cert.Spec.row2 (𝐌 main_arg3)) (Cert.Spec.mat2 (𝐌 main_arg4)) (Cert.Spec.row2 (𝐌 main_arg5)) := by
  simp only [e_v103 M, branchA2 M, branchB2 M]
  rfl

/-- The call of `norm`: the callee's five operations are the row lengths; then the unit rows. -/
theorem norm2 : 𝐀 main_v104 = Cert.Spec.rowNorm (𝐀 main_v103) := by
  simp only [e_v104 M, e_call8_v2 M, e_call8_v1 M, e_call8_v0 M, e_call8_cst M]
  rfl
theorem unit2 : 𝐀 main_v108 = Cert.Spec.unitRows (𝐀 main_v103) := by
  simp only [e_v108 M, e_v107 M, e_v106 M, e_v105 M, e_cst_15 M, norm2 M]
  rfl

/-! ## The layers composed -/

theorem ego1_eq : 𝐀 main_v31 = Cert.Spec.ego1 (𝐌 main_arg0) (𝐌 main_arg1) (𝐌 main_arg2) (𝐌 main_arg3) (𝐌 main_arg4) (𝐌 main_arg5) (𝐌 main_arg6) (𝐌 main_arg7) (𝐌 main_arg8) := by
  rw [new0 M, side0 M, nodes_eq M]
  rfl
theorem ego2_eq : 𝐀 main_v67 = Cert.Spec.ego2 (𝐌 main_arg0) (𝐌 main_arg1) (𝐌 main_arg2) (𝐌 main_arg3) (𝐌 main_arg4) (𝐌 main_arg5) (𝐌 main_arg6) (𝐌 main_arg7) (𝐌 main_arg8) := by
  rw [new1 M, side1 M, ego1_eq M]
  rfl
theorem ego3_eq : 𝐀 main_v103 = Cert.Spec.ego3 (𝐌 main_arg0) (𝐌 main_arg1) (𝐌 main_arg2) (𝐌 main_arg3) (𝐌 main_arg4) (𝐌 main_arg5) (𝐌 main_arg6) (𝐌 main_arg7) (𝐌 main_arg8) := by
  rw [new2 M, side2 M, ego2_eq M]
  rfl

/-- The result table: the node table and the three layers' unit rows side by side. -/
theorem table_eq : 𝐀 main_v109 = Cert.Spec.result (𝐌 main_arg0) (𝐌 main_arg1) (𝐌 main_arg2) (𝐌 main_arg3) (𝐌 main_arg4) (𝐌 main_arg5) (𝐌 main_arg6) (𝐌 main_arg7) (𝐌 main_arg8) := by
  rw [e_v109 M, unit0 M, unit1 M, unit2 M, ego1_eq M, ego2_eq M, ego3_eq M, nodes_eq M]
  rfl

/-! ## The three batches of rows -/

theorem batch_u : 𝐀 main_v114 = Cert.Spec.batchRow (𝐌 main_arg9) := by
  simp only [e_v114 M, e_v111 M, e_v113 M, e_v110 M, e_v112 M, e_c_16 M, e_c_17 M, k_arg9 M]
  rfl
theorem item_i : 𝐀 main_v118 = Cert.Spec.itemWord (𝐌 main_arg10) := by
  simp only [e_v118 M, e_v117 M, e_c_18 M, k_arg10 M]
  rfl
theorem batch_i : 𝐀 main_v123 = Cert.Spec.batchRow (𝐀 main_v118) := by
  simp only [e_v123 M, e_v120 M, e_v122 M, e_v119 M, e_v121 M, e_c_19 M, e_c_20 M]
  rfl
theorem item_j : 𝐀 main_v127 = Cert.Spec.itemWord (𝐌 main_arg11) := by
  simp only [e_v127 M, e_v126 M, e_c_21 M, k_arg11 M]
  rfl
theorem batch_j : 𝐀 main_v132 = Cert.Spec.batchRow (𝐀 main_v127) := by
  simp only [e_v132 M, e_v129 M, e_v131 M, e_v128 M, e_v130 M, e_c_22 M, e_c_23 M]
  rfl

/-- The first result: the table's rows at the users' words. -/
theorem out_u : StableHlo.after ops M (Proc.devRef .tc main_v116)
    = Cert.Spec.rowsAt (Cert.Spec.result (𝐌 main_arg0) (𝐌 main_arg1) (𝐌 main_arg2) (𝐌 main_arg3) (𝐌 main_arg4) (𝐌 main_arg5) (𝐌 main_arg6) (𝐌 main_arg7) (𝐌 main_arg8)) (𝐌 main_arg9) := by
  rw [e_v116 M, table_eq M, e_v115 M, batch_u M]
  rfl
/-- The second: at the first batch of items' words, moved past the users' rows. -/
theorem out_i : StableHlo.after ops M (Proc.devRef .tc main_v125)
    = Cert.Spec.rowsAt (Cert.Spec.result (𝐌 main_arg0) (𝐌 main_arg1) (𝐌 main_arg2) (𝐌 main_arg3) (𝐌 main_arg4) (𝐌 main_arg5) (𝐌 main_arg6) (𝐌 main_arg7) (𝐌 main_arg8)) (Cert.Spec.itemWord (𝐌 main_arg10)) := by
  rw [e_v125 M, table_eq M, e_v124 M, batch_i M, item_i M]
  rfl
/-- The third: at the second batch of items' words. -/
theorem out_j : StableHlo.after ops M (Proc.devRef .tc main_v134)
    = Cert.Spec.rowsAt (Cert.Spec.result (𝐌 main_arg0) (𝐌 main_arg1) (𝐌 main_arg2) (𝐌 main_arg3) (𝐌 main_arg4) (𝐌 main_arg5) (𝐌 main_arg6) (𝐌 main_arg7) (𝐌 main_arg8)) (Cert.Spec.itemWord (𝐌 main_arg11)) := by
  rw [e_v134 M, table_eq M, e_v133 M, batch_j M, item_j M]
  rfl

end Value

/-! ## The run, at the specification -/

/-- On every device, for any float values, from any memory with zero counters: every weakly fair execution of the
    reference's @main terminates with its three results the specification's rows of the result table of the
    launch's arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v116)
        = Cert.Spec.rowsAt (Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))
      ∧ r.2.mem ((c.tc : Thread nD τ).loc main_v125)
        = Cert.Spec.rowsAt (Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.Spec.itemWord (m ((c.tc : Thread nD τ).loc main_arg10)))
      ∧ r.2.mem ((c.tc : Thread nD τ).loc main_v134)
        = Cert.Spec.rowsAt (Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.Spec.itemWord (m ((c.tc : Thread nD τ).loc main_arg11)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (out_u _), (h c).2.1.trans (out_i _), (h c).2.2.1.trans (out_j _), (h c).2.2.2⟩)
    (run_after m ρ)

end Cert.ReferenceIdeal.Hand

end
-- ==== Proof.lean ====
/-
  Three layers of a graph convolution over 150000 nodes (100000 users above 50000 items) with 64 channels each, and the
  rows of the table `ego₀ | unit₁ | unit₂ | unit₃` (256 channels) at three batches of indices. In every layer
  `side = Â · ego` is the sum, over the 2400000 edges, of the source row scaled by the edge's weight into the target row;
  then, row by row,
      new  = leaky (side · W + b) + leaky ((ego ∘ side) · W' + b'),      leaky x = x if x ≥ 0 else 0.2 · x,
      unit = new / max (sqrt (Σ_channels new²), 1e-12),
  and `new` is the next layer's `ego`. The kernel forms `side` and the final table and rows by the same host operations
  as the reference, and the row-wise part of each layer block by block (50 blocks of 3000 rows) where the reference works
  on the whole table.

  What is shown. Each of the three programs terminates from every memory, nothing faulting, with its twelve argument
  arrays unchanged. At the ideal values (a float is an extended real, every operation exact), from memories that agree on
  the arguments, the kernel's and the reference's three results are the same arrays: each side ends at the
  specification's rows of the specification's result table (Spec.lean) of its own arguments, and the arguments are equal.
  The one law that joins the two sides is that a matrix product read entrywise is the same finite sum over the contracted
  coordinate on a block of rows as on the whole table (and a row's sum of squares likewise), together with: a change of
  float format is the identity on the extended reals. Nothing is distributed and nothing is cancelled, so the
  precondition (the inputs are finite) is never used. The idealization rewrote no operation of the kernel, so what it
  must preserve is `True`.
-/
import proofs.«140510_j10118942950095_1_alg».proof.Defs
import proofs.«140510_j10118942950095_1_alg».proof.Proof.Gen.Kernel
import proofs.«140510_j10118942950095_1_alg».proof.Proof.Gen.Kernel.Skeleton
import proofs.«140510_j10118942950095_1_alg».proof.Proof.Gen.Kernel.Launch
import proofs.«140510_j10118942950095_1_alg».proof.Proof.Gen.Kernel.Regions
import proofs.«140510_j10118942950095_1_alg».proof.Proof.Gen.Kernel.Points
import proofs.«140510_j10118942950095_1_alg».proof.Proof.Gen.KernelIdeal
import proofs.«140510_j10118942950095_1_alg».proof.Proof.Gen.KernelIdeal.Skeleton
import proofs.«140510_j10118942950095_1_alg».proof.Proof.Gen.KernelIdeal.Launch
import proofs.«140510_j10118942950095_1_alg».proof.Proof.Gen.KernelIdeal.Regions
import proofs.«140510_j10118942950095_1_alg».proof.Proof.Gen.KernelIdeal.Points
import proofs.«140510_j10118942950095_1_alg».proof.Proof.Gen.ReferenceIdeal
import proofs.«140510_j10118942950095_1_alg».proof.Proof.Gen.Pre_finite_inputs
import proofs.«140510_j10118942950095_1_alg».proof.Proof.Spec
import proofs.«140510_j10118942950095_1_alg».proof.Proof.KRun
import proofs.«140510_j10118942950095_1_alg».proof.Proof.KIRun
import proofs.«140510_j10118942950095_1_alg».proof.Proof.KIResult
import proofs.«140510_j10118942950095_1_alg».proof.Proof.RefValue
import Idealize.ShloMosaic.Adequacy
import Idealize.ShloMosaic.Init

noncomputable section

namespace Cert.Proof

open Idealize.ShloMosaic Idealize.SL.Sem

/-! ## The claims -/

/-- The kernel as printed terminates with its arguments unchanged. -/
theorem frame_k : Cert.frame_Kernel := fun m ρ _ => Cert.Kernel.Hand.frame m ρ

/-- So does the kernel read at the ideal values. -/
theorem frame_ki : Cert.frame_KernelIdeal := fun m ρ _ => Cert.KernelIdeal.Hand.frame m ρ

/-- So does the reference: its run with the three results forgotten. -/
theorem frame_ri : Cert.frame_ReferenceIdeal := fun m ρ _ =>
  (θ_run Cert.ReferenceIdeal.defs _ _).mono (fun _ h c => (h c).2.2.2) (Cert.ReferenceIdeal.Hand.run (F := Ideal) m ρ)

/-- No operation of the kernel was rewritten for the ideal reading: there is nothing to preserve. -/
theorem preserves : Cert.preserves_Kernel_KernelIdeal := trivial

/-- At the ideal values the kernel's three results are the specification's rows of the specification's result table of
    the kernel's arguments, the reference's are those of the reference's arguments, and the arguments agree: the same
    three arrays. -/
theorem algebraic : Cert.algebraic_KernelIdeal_ReferenceIdeal := by
  intro m ρ m' ρ' _ hagree
  refine ⟨_, _, _, Cert.KernelIdeal.Hand.run m ρ, ?_⟩
  refine (θ_run Cert.ReferenceIdeal.defs _ _).mono (fun _ h c => ?_) (Cert.ReferenceIdeal.Hand.run (F := Ideal) m' ρ')
  obtain ⟨e0, e1, e2, e3, e4, e5, e6, e7, e8, e9, e10, e11⟩ := hagree c
  obtain ⟨h0, h1, h2, hargs⟩ := h c
  refine ⟨h0.trans ?_, h1.trans ?_, h2.trans ?_, hargs⟩
  · (rw [e0, e1, e2, e3, e4, e5, e6, e7, e8, e9]) <;> rfl
  · (rw [e0, e1, e2, e3, e4, e5, e6, e7, e8, e10]) <;> rfl
  · (rw [e0, e1, e2, e3, e4, e5, e6, e7, e8, e11]) <;> rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
